-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8192x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S1024x1 : Shape := ⟨2, ![1024, 1]⟩
abbrev S1024x512 : Shape := ⟨2, ![1024, 512]⟩

abbrev nBuf : Space → Nat
  | .hbm => 17
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S8192x1024, .bf16⟩
  | .hbm, ⟨16, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .f32⟩
  | .local _ .vmem, ⟨15, _⟩ => ⟨S1024x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S1024x1024, .f32⟩
  | .local _ .vmem, ⟨21, _⟩ => ⟨S1024x1024, .f32⟩
  | .local _ .vmem, ⟨22, _⟩ => ⟨S1024x1, .f32⟩
  | .local _ .vmem, ⟨23, _⟩ => ⟨S1024x1, .f32⟩
  | .local _ .vmem, ⟨24, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v41 : BitVec 1 := Scalar.cmpi .eq arg1 c15_i32
  let v42 : BitVec 32 := Scalar.extui v41
  let c0_i32_23 : BitVec 32 := 0#32
  let v43 : BitVec 1 := Scalar.cmpi .ne v42 c0_i32_23
  v43

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S512x1024_S512x1024 : S512x1024.ShapeCasts S512x1024
  transposes_S512x1024_p1_0_S1024x512 : S512x1024.Transposes [1, 0] S1024x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  dot_S512x1024_S1024x1024_S512x1024_1_0_0_1_n_n_wf : DotDims.WF S512x1024 S1024x1024 S512x1024 [1] [0] [0] [1] [] []
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .f32 = 32 ∨ (Rect.block (s := S8192x1024) S512x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S8192x1024.size a
  hwx0_8 : ∀ i : grid0.Coords, EltTy.bits .f32 = 32 ∨ (Rect.block (s := S8192x1024) S512x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S8192x1024.size a
  hwx0_9 : ∀ i : grid0.Coords, EltTy.bits .bf16 = 32 ∨ (Rect.block (s := S8192x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S8192x1024.size a
  hwx1_1 : ∀ i : grid1.Coords, EltTy.bits .f32 = 32 ∨ (Rect.block (s := S8192x1024) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x1024.size a
  hwx1_2 : ∀ i : grid1.Coords, EltTy.bits .bf16 = 32 ∨ (Rect.block (s := S8192x1024) S512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .f32 = 32 ∨ (Rect.block (s := S8192x1024) S1024x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v6_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_2) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S1024x8192 : Shape := ⟨2, ![1024, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1024x8192, .f32⟩
  | .hbm, ⟨20, _⟩ => ⟨S8192x8192, .f32⟩
  | .hbm, ⟨21, _⟩ => ⟨S_, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S8192x1, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x8192, .f32⟩
  | .hbm, ⟨34, _⟩ => ⟨S8192x8192, .f32⟩
  | .hbm, ⟨35, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  transposes_S8192x1024_S1024x8192_1_0 : S8192x1024.Transposes [1, 0] S1024x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x1024_S1024x1024_S8192x1024_1_0_0_1_n_n_wf : DotDims.WF S8192x1024 S1024x1024 S8192x1024 [1] [0] [0] [1] [] []
  dot_S8192x1024_S1024x8192_S8192x8192_1_0_0_1_n_n_wf : DotDims.WF S8192x1024 S1024x8192 S8192x8192 [1] [0] [0] [1] [] []
  dot_S8192x8192_S8192x1024_S8192x1024_1_0_0_1_n_n_wf : DotDims.WF S8192x8192 S8192x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.Region0Bits.lean ====
/-
  The first pipeline of the program (the projection kernel: q = x·Wq + bq, k = x·Wk + bk, v = x·Wv + bv over row blocks
  of x) at a PARAMETER V, the TensorCore's buffer contents when the pipeline is entered.

  Per window: its block at a grid point read off V (iblk0).  An input window's current staging buffer holds that block
  at every point, whether or not it was fetched there: the three weight arrays and the three bias rows are fetched at the
  first point only, and their block index never moves.  The body reads each input buffer whole and writes each output
  buffer whole, once; so what it leaves in an output buffer is the canonical contents of that one store (out0_7, out0_8,
  out0_9), which is the store's payload itself (out0_W_eq).  The body's triple (sound_kernel0) gives the proof data dat0
  and the body obligation at every point (body_obligation0), generic in the float valuation.
-/
import proofs.«163872_j37400575213830_2_alg».proof.Proof.Gen.Kernel.Launch
import proofs.«163872_j37400575213830_2_alg».proof.Proof.Gen.Kernel.Skeleton
import proofs.«163872_j37400575213830_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of long extents recurses once per coordinate of the long axes
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the pipeline is entered
variable (V : (c : Dev nD) → (b : Ref sig .tc) → Buf (Elt F) ((c : Thread nD τ).loc b))

/-! ## The windows' blocks -/

/-- Window w's block at point t, read off its array as the pipeline finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is V's and whose body leaves the block in place: where it was not fetched the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof data
    whose array is V's and whose body leaves the block in place: where it was not fetched the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof data
    whose array is V's and whose body leaves the block in place: where it was not fetched the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof data
    whose array is V's and whose body leaves the block in place: where it was not fetched the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof data
    whose array is V's and whose body leaves the block in place: where it was not fetched the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof data
    whose array is V's and whose body leaves the block in place: where it was not fetched the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for any proof data
    whose array is V's and whose body leaves the block in place: where it was not fetched the block index has not moved. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S512x1024 := Rect.unit (s := S512x1024) ![0, 0] S512x1024.size inb_S512x1024_S512x1024_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0

/-- The offsets of every access are zero. -/
theorem zeros2 : (![0, 0] : Fin 2 → Nat) = fun _ => 0 := funext fun a => by fin_cases a <;> rfl

/-! ## What the body leaves in each output window's buffer -/

/-- Window 7's staging buffer after the body, from the input windows' blocks: the canonical contents of its one store. -/
def out0_7 (x0 : Vec F S512x1024 .f32) (x1 : Vec F S1024x1024 .bf16) (x4 : Vec F S1x1024 .f32) : Vec F S512x1024 .f32 :=
  View.canon [⟨r0_0, k0_pay2 (View.ld x0 r0_0) (View.ld x1 r0_1) (View.ld x4 r0_2)⟩]

/-- Its store is the whole buffer, so it covers it. -/
theorem cover0_7 (p0 : Vec F S512x1024 .f32) (y : S512x1024.Idx) :
    ∃ pc ∈ ([⟨r0_0, p0⟩] : List (View.Piece (Elt F) S512x1024 .f32)), y ∈ pc.1.set :=
  View.cover_of_tiled [⟨r0_0, p0⟩] S512x1024.size (by rfl) y

/-- One whole-buffer store over whole-buffer loads leaves its payload at the blocks themselves. -/
theorem out0_7_eq (x0 : Vec F S512x1024 .f32) (x1 : Vec F S1024x1024 .bf16) (x4 : Vec F S1x1024 .f32) : out0_7 x0 x1 x4 = k0_pay2 x0 x1 x4 := by
  unfold out0_7
  rw [View.canon_unit_zero (S := S512x1024) zeros2 inb_S512x1024_S512x1024_0_0]
  rw [View.ld_unit_zero (S := S512x1024) zeros2 inb_S512x1024_S512x1024_0_0, View.ld_unit_zero (S := S1024x1024) zeros2 inb_S1024x1024_S1024x1024_0_0, View.ld_unit_zero (S := S1x1024) zeros2 inb_S1x1024_S1x1024_0_0]

/-- Window 8's staging buffer after the body, from the input windows' blocks: the canonical contents of its one store. -/
def out0_8 (x0 : Vec F S512x1024 .f32) (x2 : Vec F S1024x1024 .bf16) (x5 : Vec F S1x1024 .f32) : Vec F S512x1024 .f32 :=
  View.canon [⟨r0_0, k0_pay3 (View.ld x0 r0_0) (View.ld x2 r0_1) (View.ld x5 r0_2)⟩]

/-- Its store is the whole buffer, so it covers it. -/
theorem cover0_8 (p0 : Vec F S512x1024 .f32) (y : S512x1024.Idx) :
    ∃ pc ∈ ([⟨r0_0, p0⟩] : List (View.Piece (Elt F) S512x1024 .f32)), y ∈ pc.1.set :=
  View.cover_of_tiled [⟨r0_0, p0⟩] S512x1024.size (by rfl) y

/-- One whole-buffer store over whole-buffer loads leaves its payload at the blocks themselves. -/
theorem out0_8_eq (x0 : Vec F S512x1024 .f32) (x2 : Vec F S1024x1024 .bf16) (x5 : Vec F S1x1024 .f32) : out0_8 x0 x2 x5 = k0_pay3 x0 x2 x5 := by
  unfold out0_8
  rw [View.canon_unit_zero (S := S512x1024) zeros2 inb_S512x1024_S512x1024_0_0]
  rw [View.ld_unit_zero (S := S512x1024) zeros2 inb_S512x1024_S512x1024_0_0, View.ld_unit_zero (S := S1024x1024) zeros2 inb_S1024x1024_S1024x1024_0_0, View.ld_unit_zero (S := S1x1024) zeros2 inb_S1x1024_S1x1024_0_0]

/-- Window 9's staging buffer after the body, from the input windows' blocks: the canonical contents of its one store. -/
def out0_9 (x0 : Vec F S512x1024 .f32) (x3 : Vec F S1024x1024 .bf16) (x6 : Vec F S1x1024 .f32) : Vec F S512x1024 .bf16 :=
  View.canon [⟨r0_0, k0_pay4 (View.ld x0 r0_0) (View.ld x3 r0_1) (View.ld x6 r0_2)⟩]

/-- Its store is the whole buffer, so it covers it. -/
theorem cover0_9 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-- One whole-buffer store over whole-buffer loads leaves its payload at the blocks themselves. -/
theorem out0_9_eq (x0 : Vec F S512x1024 .f32) (x3 : Vec F S1024x1024 .bf16) (x6 : Vec F S1x1024 .f32) : out0_9 x0 x3 x6 = k0_pay4 x0 x3 x6 := by
  unfold out0_9
  rw [View.canon_unit_zero (S := S512x1024) zeros2 inb_S512x1024_S512x1024_0_0]
  rw [View.ld_unit_zero (S := S512x1024) zeros2 inb_S512x1024_S512x1024_0_0, View.ld_unit_zero (S := S1024x1024) zeros2 inb_S1024x1024_S1024x1024_0_0, View.ld_unit_zero (S := S1x1024) zeros2 inb_S1x1024_S1x1024_0_0]

/-! ## The body's triple -/

set_option maxHeartbeats 1000000 in
/-- The kernel body on whole staging memrefs, the inputs' at read contents xW and the outputs' at anything, runs to the
    continuation holding the inputs' as they were and each output's at out0_W of the inputs'. -/
theorem sound_kernel0 (c : Dev nD) (E : Set ℕ) (i : grid0.Coords) (arg1 : Memref sig .tc .vmem S512x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .bf16) (harg10 : arg10.IsWhole)
    (x0 : Vec F S512x1024 .f32) (x1 : Vec F S1024x1024 .bf16) (x2 : Vec F S1024x1024 .bf16) (x3 : Vec F S1024x1024 .bf16) (x4 : Vec F S1x1024 .f32) (x5 : Vec F S1x1024 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x4) ∗ owns (c : Thread nD τ) arg9 fullShare (out0_8 x0 x2 x5) ∗ owns (c : Thread nD τ) arg10 fullShare (out0_9 x0 x3 x6)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-! ## The pipeline's proof data -/

/-- The proof data of the pipeline on core c: the arrays as the pipeline finds them (V); after the body at point t each
    input's buffer at its block and each output's at out0_W of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 4 t)
    | ⟨8, _⟩ => out0_8 (iblk0 V c 0 t) (iblk0 V c 2 t) (iblk0 V c 5 t)
    | ⟨9, _⟩ => out0_9 (iblk0 V c 0 t) (iblk0 V c 3 t) (iblk0 V c 6 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 4 t) := by dsimp only [dat0]
theorem after0_8 (c : Dev nD) (t : Fin cfg0.N) : (dat0 V c).after 8 t = out0_8 (iblk0 V c 0 t) (iblk0 V c 2 t) (iblk0 V c 5 t) := by dsimp only [dat0]
theorem after0_9 (c : Dev nD) (t : Fin cfg0.N) : (dat0 V c).after 9 t = out0_9 (iblk0 V c 0 t) (iblk0 V c 3 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point t (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks (before0_W), so sound_kernel0 applies; the invariant and
    the core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.StepsBits.lean ====
/-
  One key tile's update of the three running arrays of the attention launch, as pure functions of the blocks.

  At a key tile the body reads the query block qb (1024 × 1024), the key block kb (512 × 1024), the value block vb
  (512 × 1024) and the three running arrays: the row maxima sm, the denominators sl (both 1024 × 1) and the numerators
  sa (1024 × 1024).  With S = qb · kbᵀ the scores of the tile, it leaves
      the maximum of sm and the row maxima of S,
      exp (sm − new maximum) · sl + the row sums of exp (S − new maximum),
      exp (sm − new maximum) · sa + exp (S − new maximum) · vb.
  These are the body's own payload terms composed; nothing is computed here.  Also here: a store through the whole
  buffer leaves its payload, whatever the buffer held.
-/
import proofs.«163872_j37400575213830_2_alg».proof.Proof.Gen.Kernel.Skeleton
import Idealize.ShloMosaic.Lib.Pipeline.FrameBody
import Idealize.ShloMosaic.Lib.Pipeline.Value

noncomputable section

namespace Cert.Kernel.Frame

open Cert.Kernel Cert.Kernel.Gen
open Idealize.ShloMosaic Idealize.SL.Sem

variable {F : FTy → Type} [FloatOps F]

/-! ## One key tile's update of the three running arrays -/

/-- The new running maximum: the old one against the tile's row maxima of the scores. -/
def stepM (qb : Vec F S1024x1024 .f32) (kb : Vec F S512x1024 .f32) (sm : Vec F S1024x1 .f32) : Vec F S1024x1 .f32 :=
  k1_pay2 (k1_pay8 qb kb sm)
/-- The new running denominator: the old one rescaled, plus the tile's row sums of the shifted exponentials. -/
def stepL (qb : Vec F S1024x1024 .f32) (kb : Vec F S512x1024 .f32) (sm sl : Vec F S1024x1 .f32) : Vec F S1024x1 .f32 :=
  k1_pay11 qb kb sm sm sl
/-- The new running numerator: the old one rescaled, plus the tile's shifted exponentials against the value rows. -/
def stepA (qb : Vec F S1024x1024 .f32) (kb : Vec F S512x1024 .f32) (vb : Vec F S512x1024 .bf16) (sm : Vec F S1024x1 .f32)
    (sa : Vec F S1024x1024 .f32) : Vec F S1024x1024 .f32 :=
  k1_pay1 (k1_pay12 qb kb sm sm sa) (k1_pay13 qb kb vb sm)

/-- The zero offsets of a whole-buffer access, however spelt. -/
theorem hz2 : (![0, 0] : Fin 2 → ℕ) = fun _ => 0 := funext fun a => by
  match a with
  | ⟨0, _⟩ => rfl
  | ⟨1, _⟩ => rfl

/-- One store through the whole buffer leaves its payload, whatever the buffer held. -/
theorem read_write_whole {S : Shape} {e : EltTy} (v : View sig .tc .vmem S e) (f : v.ty.Contents (Elt F))
    {off : Fin S.rank → ℕ} (h : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero h inb y⟩)).trans
    (View.canon_unit_zero h inb w)

end Cert.Kernel.Frame

end
-- ==== Proof.Region1DataBits.lean ====
/-
  The second launch of the program: attention of a tile of 1024 query rows against the key and value rows, 512 at a
  time, over a grid of 8 query tiles × 16 key tiles.  Three scratch arrays live across the sixteen points of a query tile:
  the running row maximum, the running denominator and the running numerator.  They are reset at the first key tile,
  updated at every key tile, and at the last key tile the numerator divided by the denominator is stored into the output
  block, which is written back there and nowhere else.

  This module states the conditions of the two branches over the grid, where the output window is idle, how the launch's
  invariant splits into the three scratch arrays and the rest, what the three scratch arrays hold after each point (by
  recursion on the point: the step of Steps.lean applied to the reset contents at the first key tile of a query tile and
  to what the point before left elsewhere), and the proof data of the launch: every input window's buffer at its block,
  the output window's at the quotient of the numerator by the denominator as they stand after the point.
-/
import proofs.«163872_j37400575213830_2_alg».proof.Proof.Gen.Kernel.Launch
import proofs.«163872_j37400575213830_2_alg».proof.Proof.Gen.Kernel.Skeleton
import proofs.«163872_j37400575213830_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«163872_j37400575213830_2_alg».proof.Proof.StepsBits

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions over the grid -/

/-- The first branch: the key-tile coordinate is zero. -/
abbrev cond1_0 (i : grid1.Coords) : Prop :=
  (Scalar.cmpi .ne (Scalar.extui (Scalar.cmpi .eq (BitVec.ofNat 32 (i 1).val) 0#32)) 0#32) = 1#1
/-- It holds exactly at the points whose position is a multiple of 16. -/
theorem hcond1_0 : ∀ t : Fin cfg1.N, cond1_0 (grid1.coords t) ↔ t.val % 16 = 0 :=
  (by decide +kernel : ∀ t : Fin grid1.N, cond1_0 (grid1.coords t) ↔ t.val % 16 = 0)

/-- The second branch: the key-tile coordinate is the last one. -/
abbrev cond1_2 (i : grid1.Coords) : Prop := k1_cond2 i = 1#1
/-- It holds exactly at the points whose position is 15 modulo 16. -/
theorem hcond1_2 : ∀ t : Fin cfg1.N, cond1_2 (grid1.coords t) ↔ t.val % 16 = 15 :=
  (by decide +kernel : ∀ t : Fin grid1.N, cond1_2 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key tile the output window is idle and not written back. -/
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
/-- At the last key tile it is live. -/
theorem liveAt1_3 : ∀ t : Fin cfg1.N, cond1_2 (grid1.coords t) → cfg1.idle 3 (grid1.coords t) = false := by decide +kernel

/-! ## The memrefs the body is called with -/

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The three scratch arrays: running maximum, running denominator, running numerator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2

/-! ## The launch's invariant, split -/

/-- The scoped buffers that are neither this launch's staging buffers nor its scratch: the first launch's staging
    buffers, each at some contents. -/
def Oth (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- The launch's invariant is those buffers, the three scratch arrays at some contents each, and the generator
    register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

theorem PhiA1_split (c : Dev nD) :
    (Pipeline.ΦA spec1 c : sProp 𝕄)
      ⊢ iprop(Oth c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  rw [PhiA1_eq]; unfold Oth
  iintro ⟨⟨H1, H2, H3, H4, H5, H6, H7, H8, H9, H10, H11, H12, H13, H14, HS0, HS1, HS2⟩, Hg⟩
  isplitl [H1 H2 H3 H4 H5 H6 H7 H8 H9 H10 H11 H12 H13 H14]
  · iframe
  iframe

theorem PhiA1_join (c : Dev nD) :
    iprop(Oth c ∗ (∃ d, owns (c : Thread nD τ) scM1_0 fullShare d) ∗ (∃ d, owns (c : Thread nD τ) scM1_1 fullShare d) ∗ (∃ d, owns (c : Thread nD τ) scM1_2 fullShare d) ∗ (∃ r, prngReg c r))
      ⊢ (Pipeline.ΦA spec1 c : sProp 𝕄) := by
  rw [PhiA1_eq]; unfold Oth
  iintro ⟨⟨H1, H2, H3, H4, H5, H6, H7, H8, H9, H10, H11, H12, H13, H14⟩, HS0, HS1, HS2, Hg⟩
  isplitr [Hg]
  · iframe
  iframe

section Region1
variable (V : (c : Dev nD) → (b : Ref sig .tc) → Buf (Elt F) ((c : Thread nD τ).loc b))

/-! ## The windows' blocks -/

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not: unfetched, the block index
    has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The three running arrays after each point -/

/-- The three running arrays: maxima, denominators, numerators. -/
abbrev St (F : FTy → Type) [FloatOps F] : Type := Vec F S1024x1 .f32 × Vec F S1024x1 .f32 × Vec F S1024x1024 .f32

/-- What the first key tile of a query tile resets them to: −∞, 0, 0. -/
def reset : St F := (k1_pay4, k1_pay5, k1_pay6)

/-- One key tile's update. -/
def step (qb : Vec F S1024x1024 .f32) (kb : Vec F S512x1024 .f32) (vb : Vec F S512x1024 .bf16) (s : St F) : St F :=
  (stepM qb kb s.1, stepL qb kb s.1 s.2.1, stepA qb kb vb s.1 s.2.2)

/-- The running arrays after the body at position n: the update at the point's blocks, of the reset contents at the first
    key tile of a query tile and of what the point before left elsewhere. -/
def scAt (c : Dev nD) : (n : ℕ) → n < cfg1.N → St F
  | 0, hn => step (iblk1 V c 0 ⟨0, hn⟩) (iblk1 V c 1 ⟨0, hn⟩) (iblk1 V c 2 ⟨0, hn⟩) reset
  | n + 1, hn => step (iblk1 V c 0 ⟨n + 1, hn⟩) (iblk1 V c 1 ⟨n + 1, hn⟩) (iblk1 V c 2 ⟨n + 1, hn⟩)
      (if (n + 1) % 16 = 0 then reset else scAt c n (Nat.lt_of_succ_lt hn))

/-- At the first key tile of a query tile: the update of the reset contents. -/
theorem scAt_first (c : Dev nD) (t : Fin cfg1.N) (h : t.val % 16 = 0) :
    scAt V c t.val t.isLt = step (iblk1 V c 0 t) (iblk1 V c 1 t) (iblk1 V c 2 t) reset := by
  obtain ⟨n, hn⟩ := t
  cases n with
  | zero => rfl
  | succ n => exact congrArg (step _ _ _) (if_pos h)

/-- Elsewhere: the update of what the point before left. -/
theorem scAt_next (c : Dev nD) (t : Fin cfg1.N) (h : ¬t.val % 16 = 0) :
    scAt V c t.val t.isLt = step (iblk1 V c 0 t) (iblk1 V c 1 t) (iblk1 V c 2 t)
      (scAt V c (t.val - 1) (Nat.lt_of_le_of_lt (Nat.sub_le _ _) t.isLt)) := by
  obtain ⟨n, hn⟩ := t
  cases n with
  | zero => exact absurd (Nat.zero_mod _) h
  | succ n => exact congrArg (step _ _ _) (if_neg h)

/-! ## The invariant -/

/-- Before position n: at the launch's start the launch's own invariant; afterwards the other scoped buffers at some
    contents, the three running arrays at what the point before left, the generator register at some state. -/
def PhiS (c : Dev nD) : (n : ℕ) → n ≤ cfg1.N → sProp 𝕄
  | 0, _ => Pipeline.ΦA spec1 c
  | n + 1, hn => iprop(Oth c ∗ owns (c : Thread nD τ) scM1_0 fullShare (scAt V c n hn).1 ∗ owns (c : Thread nD τ) scM1_1 fullShare (scAt V c n hn).2.1
      ∗ owns (c : Thread nD τ) scM1_2 fullShare (scAt V c n hn).2.2 ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(Oth c ∗ owns (c : Thread nD τ) scM1_0 fullShare (scAt V c n hn).1 ∗ owns (c : Thread nD τ) scM1_1 fullShare (scAt V c n hn).2.1
      ∗ owns (c : Thread nD τ) scM1_2 fullShare (scAt V c n hn).2.2 ∗ (∃ r, prngReg c r)) := rfl

theorem PhiS_pos (c : Dev nD) (n : ℕ) (h : n ≤ cfg1.N) (hz : n ≠ 0) :
    PhiS V c n h = iprop(Oth c ∗ owns (c : Thread nD τ) scM1_0 fullShare (scAt V c (n - 1) (by omega)).1 ∗ owns (c : Thread nD τ) scM1_1 fullShare (scAt V c (n - 1) (by omega)).2.1
      ∗ owns (c : Thread nD τ) scM1_2 fullShare (scAt V c (n - 1) (by omega)).2.2 ∗ (∃ r, prngReg c r)) := by
  cases n with
  | zero => exact absurd rfl hz
  | succ n => rfl

/-! ## The proof data -/

/-- The launch's proof data on core c: the arrays as the launch finds them; after the body at point t each input's buffer
    at its block and the output's at the numerator over the denominator as they stand after t (consulted only at the last
    key tile of a query tile: elsewhere the window is idle); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (scAt V c t.val t.isLt).2.2 (scAt V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (scAt V c t.val t.isLt).2.2 (scAt V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Region1

end Cert.Kernel.Frame

end
-- ==== Proof.Region1RunsBits.lean ====
/-
  The body of the attention launch on whole staging and scratch buffers, in each of the three situations the grid meets:
  the first key tile of a query tile (the running arrays are reset, then updated), a middle key tile (updated), the last key
  tile (updated, and the quotient stored into the output block).  In each the inputs' buffers end as they were, the
  running arrays at the update of Steps.lean, and the output buffer untouched except at the last key tile.
-/
import proofs.«163872_j37400575213830_2_alg».proof.Proof.Gen.Kernel.Launch
import proofs.«163872_j37400575213830_2_alg».proof.Proof.Gen.Kernel.Skeleton
import proofs.«163872_j37400575213830_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«163872_j37400575213830_2_alg».proof.Proof.Region1DataBits

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A store through the whole buffer, last, leaves its payload, whatever the buffer held and whatever was stored before. -/
theorem read_write_whole' {S : Shape} {e : EltTy} (v : View sig .tc .vmem S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

set_option maxHeartbeats 4000000 in
/-- A middle key tile. -/
theorem runB (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole)
    (hc0 : ¬cond1_0 i) (hc2 : ¬cond1_2 i)
    (x0 : Vec F S1024x1024 .f32) (x1 : Vec F S512x1024 .f32) (x2 : Vec F S512x1024 .bf16) (xi : Vec F S1024x1024 .f32)
    (sm sl : Vec F S1024x1 .f32) (sa : Vec F S1024x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi
        ∗ owns (c : Thread nD τ) arg6 fullShare sm ∗ owns (c : Thread nD τ) arg7 fullShare sl ∗ owns (c : Thread nD τ) arg8 fullShare sa
        ∗ (iprop(owns (c : Thread nD τ) arg2 fullShare x0 ∗ owns (c : Thread nD τ) arg3 fullShare x1 ∗ owns (c : Thread nD τ) arg4 fullShare x2 ∗ owns (c : Thread nD τ) arg5 fullShare xi
            ∗ owns (c : Thread nD τ) arg6 fullShare (stepM x0 x1 sm) ∗ owns (c : Thread nD τ) arg7 fullShare (stepL x0 x1 sm sl) ∗ owns (c : Thread nD τ) arg8 fullShare (stepA x0 x1 x2 sm sa)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3
  obtain rfl := harg6.eq_unread hf6; obtain rfl := harg7.eq_unread hf7; obtain rfl := harg8.eq_unread hf8
  sl_exec (disch := first | exact hc0 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    refine (read_write_whole' _ _ hz2 _ _ _).trans ?_
    sl_unfold_run_names
    simp only [View.readAt_eq_ld, Memref.IsWhole.read_unread, View.readCov_unit_zero (S := S1024x1) _ hz2, View.readCov_unit_zero (S := S1024x1024) _ hz2, View.ld_unit_zero (S := S1024x1024) hz2, View.ld_unit_zero (S := S512x1024) hz2, View.ld_unit_zero (S := S1024x1) hz2]
    rfl
  isplitl [H7]
  · iexists _; isplitr
    swap; · iexact H7
    ipureintro
    refine (read_write_whole' _ _ hz2 _ _ _).trans ?_
    sl_unfold_run_names
    simp only [View.readAt_eq_ld, Memref.IsWhole.read_unread, View.readCov_unit_zero (S := S1024x1) _ hz2, View.readCov_unit_zero (S := S1024x1024) _ hz2, View.ld_unit_zero (S := S1024x1024) hz2, View.ld_unit_zero (S := S512x1024) hz2, View.ld_unit_zero (S := S1024x1) hz2]
    rfl
  iexists _; isplitr
  swap; · iexact H8
  ipureintro
  refine (read_write_whole' _ _ hz2 _ _ _).trans ?_
  sl_unfold_run_names
  simp only [View.readAt_eq_ld, Memref.IsWhole.read_unread, View.readCov_unit_zero (S := S1024x1) _ hz2, View.readCov_unit_zero (S := S1024x1024) _ hz2, View.ld_unit_zero (S := S1024x1024) hz2, View.ld_unit_zero (S := S512x1024) hz2, View.ld_unit_zero (S := S1024x1) hz2]
  rfl

set_option maxHeartbeats 4000000 in
/-- The first key tile of a query tile: whatever the running arrays held, they end at the update of the reset contents. -/
theorem runA (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole)
    (hc0 : cond1_0 i) (hc2 : ¬cond1_2 i)
    (x0 : Vec F S1024x1024 .f32) (x1 : Vec F S512x1024 .f32) (x2 : Vec F S512x1024 .bf16) (xi : Vec F S1024x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi
            ∗ owns (c : Thread nD τ) arg6 fullShare (stepM x0 x1 (k1_pay4 (F := F))) ∗ owns (c : Thread nD τ) arg7 fullShare (stepL x0 x1 (k1_pay4 (F := F)) (k1_pay5 (F := F)))
            ∗ owns (c : Thread nD τ) arg8 fullShare (stepA x0 x1 x2 (k1_pay4 (F := F)) (k1_pay6 (F := F)))) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3
  sl_exec (disch := first | exact hc0 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    refine (read_write_whole' _ _ hz2 _ _ _).trans ?_
    sl_unfold_run_names
    simp only [View.readAt_eq_ld, Memref.IsWhole.read_unread, View.readCov_unit_zero (S := S1024x1) _ hz2, View.readCov_unit_zero (S := S1024x1024) _ hz2, View.ld_unit_zero (S := S1024x1024) hz2, View.ld_unit_zero (S := S512x1024) hz2, View.ld_unit_zero (S := S1024x1) hz2]
    rfl
  isplitl [H7]
  · iexists _; isplitr
    swap; · iexact H7
    ipureintro
    refine (read_write_whole' _ _ hz2 _ _ _).trans ?_
    sl_unfold_run_names
    simp only [View.readAt_eq_ld, Memref.IsWhole.read_unread, View.readCov_unit_zero (S := S1024x1) _ hz2, View.readCov_unit_zero (S := S1024x1024) _ hz2, View.ld_unit_zero (S := S1024x1024) hz2, View.ld_unit_zero (S := S512x1024) hz2, View.ld_unit_zero (S := S1024x1) hz2]
    rfl
  iexists _; isplitr
  swap; · iexact H8
  ipureintro
  refine (read_write_whole' _ _ hz2 _ _ _).trans ?_
  sl_unfold_run_names
  simp only [View.readAt_eq_ld, Memref.IsWhole.read_unread, View.readCov_unit_zero (S := S1024x1) _ hz2, View.readCov_unit_zero (S := S1024x1024) _ hz2, View.ld_unit_zero (S := S1024x1024) hz2, View.ld_unit_zero (S := S512x1024) hz2, View.ld_unit_zero (S := S1024x1) hz2]
  rfl

set_option maxHeartbeats 4000000 in
/-- The last key tile of a query tile: the running arrays updated, and the output buffer, whatever it held, at the new
    numerator over the new denominator. -/
theorem runC (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole)
    (hc0 : ¬cond1_0 i) (hc2 : cond1_2 i)
    (x0 : Vec F S1024x1024 .f32) (x1 : Vec F S512x1024 .f32) (x2 : Vec F S512x1024 .bf16)
    (sm sl : Vec F S1024x1 .f32) (sa : Vec F S1024x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ owns (c : Thread nD τ) arg6 fullShare sm ∗ owns (c : Thread nD τ) arg7 fullShare sl ∗ owns (c : Thread nD τ) arg8 fullShare sa
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (stepA x0 x1 x2 sm sa) (stepL x0 x1 sm sl))
            ∗ owns (c : Thread nD τ) arg6 fullShare (stepM x0 x1 sm) ∗ owns (c : Thread nD τ) arg7 fullShare (stepL x0 x1 sm sl) ∗ owns (c : Thread nD τ) arg8 fullShare (stepA x0 x1 x2 sm sa)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg6.eq_unread hf6; obtain rfl := harg7.eq_unread hf7; obtain rfl := harg8.eq_unread hf8
  sl_exec (disch := first | exact hc0 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (read_write_whole' _ _ hz2 _ _ _).trans ?_
    sl_unfold_run_names
    simp only [View.readAt_eq_ld, Memref.IsWhole.read_unread, View.readCov_unit_zero (S := S1024x1) _ hz2, View.readCov_unit_zero (S := S1024x1024) _ hz2, View.ld_unit_zero (S := S1024x1024) hz2, View.ld_unit_zero (S := S512x1024) hz2, View.ld_unit_zero (S := S1024x1) hz2]
    rfl
  isplitl [H6]
  · iexists _; isplitr
    swap; · iexact H6
    ipureintro
    refine (read_write_whole' _ _ hz2 _ _ _).trans ?_
    sl_unfold_run_names
    simp only [View.readAt_eq_ld, Memref.IsWhole.read_unread, View.readCov_unit_zero (S := S1024x1) _ hz2, View.readCov_unit_zero (S := S1024x1024) _ hz2, View.ld_unit_zero (S := S1024x1024) hz2, View.ld_unit_zero (S := S512x1024) hz2, View.ld_unit_zero (S := S1024x1) hz2]
    rfl
  isplitl [H7]
  · iexists _; isplitr
    swap; · iexact H7
    ipureintro
    refine (read_write_whole' _ _ hz2 _ _ _).trans ?_
    sl_unfold_run_names
    simp only [View.readAt_eq_ld, Memref.IsWhole.read_unread, View.readCov_unit_zero (S := S1024x1) _ hz2, View.readCov_unit_zero (S := S1024x1024) _ hz2, View.ld_unit_zero (S := S1024x1024) hz2, View.ld_unit_zero (S := S512x1024) hz2, View.ld_unit_zero (S := S1024x1) hz2]
    rfl
  iexists _; isplitr
  swap; · iexact H8
  ipureintro
  refine (read_write_whole' _ _ hz2 _ _ _).trans ?_
  sl_unfold_run_names
  simp only [View.readAt_eq_ld, Memref.IsWhole.read_unread, View.readCov_unit_zero (S := S1024x1) _ hz2, View.readCov_unit_zero (S := S1024x1024) _ hz2, View.ld_unit_zero (S := S1024x1024) hz2, View.ld_unit_zero (S := S512x1024) hz2, View.ld_unit_zero (S := S1024x1) hz2]
  rfl

end Cert.Kernel.Frame

end
-- ==== Proof.Region1Bits.lean ====
/-
  The body obligation of the attention launch at every grid point, and how the launch's invariant is entered and left.

  At a point the body finds every input window's buffer at its block.  Which of the three situations the point is in is
  decided by its position modulo 16: 0 is the first key tile of a query tile (the running arrays are reset; whatever
  they held is forgotten), 15 the last (the output block is stored), the rest are middle tiles.  In each the body's run
  hands the running arrays back at the update of what the point before left, which is what the invariant states for the
  next point; away from the last key tile the output window's buffer is handed back as it was found.
-/
import proofs.«163872_j37400575213830_2_alg».proof.Proof.Gen.Kernel.Launch
import proofs.«163872_j37400575213830_2_alg».proof.Proof.Gen.Kernel.Skeleton
import proofs.«163872_j37400575213830_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«163872_j37400575213830_2_alg».proof.Proof.Region1RunsBits

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  have hN : t.val < 128 := lt_of_lt_of_eq t.isLt (show cfg1.N = 128 from N_1)
  by_cases h2 : t.val % 16 = 15
  · -- the last key tile of a query tile
    have hc2 : cond1_2 (grid1.coords t) := (hcond1_2 t).mpr h2
    have h0 : ¬t.val % 16 = 0 := by omega
    have hc0 : ¬cond1_0 (grid1.coords t) := fun h => h0 ((hcond1_0 t).mp h)
    have hz : t.val ≠ 0 := by omega
    rw [show (dat1 V c).leavesExact 3 t = owns (c : Thread nD τ) (ms1_3 t) fullShare ((dat1 V c).after 3 t) from by
      unfold Dat.leavesExact; rw [liveAt1_3 t hc2], after1_3]
    rw [scAt_next V c t h0]
    dsimp only [step]
    rw [PhiS_castSucc V c t, PhiS_pos V c _ _ hz]
    iintro ⟨⟨HO, HS0, HS1, HS2, Hg⟩, Ho, ⟨%d0, H0⟩, ⟨%d1, H1⟩, ⟨%d2, H2⟩, ⟨%d3, H3⟩⟩
    iapply (runC c (grid1.coords t) _ _ _ _ _ _ _ _ _ _ _ _ _ _ hc0 hc2 (iblk1 V c 0 t) (iblk1 V c 1 t) (iblk1 V c 2 t) _ _ _ Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, H3, HS0, HS1, HS2⟩
    isplitl [HO HS0 HS1 HS2 Hg]
    · isplitl [HO]; · iexact HO
      isplitl [HS0]; · iexact HS0
      isplitl [HS1]; · iexact HS1
      isplitl [HS2]; · iexact HS2
      iexact Hg
    isplitl [Ho]; · iexact Ho
    isplitl [H0]; · iexact H0
    isplitl [H1]; · iexact H1
    isplitl [H2]; · iexact H2
    iexact H3
  · have hc2 : ¬cond1_2 (grid1.coords t) := fun h => h2 ((hcond1_2 t).mp h)
    rw [Dat.leavesExact_idle (dat1 V c) 3 t (idleAt1_3 t hc2) (noFlush1_3 t hc2)]
    by_cases h0 : t.val % 16 = 0
    · -- the first key tile of a query tile
      have hc0 : cond1_0 (grid1.coords t) := (hcond1_0 t).mpr h0
      rw [scAt_first V c t h0]
      dsimp only [step, reset]
      by_cases hz : t.val = 0
      · rw [PhiS_castSucc V c t, PhiS_zero V c _ _ hz]
        iintro ⟨HΦ, Ho, ⟨%d0, H0⟩, ⟨%d1, H1⟩, ⟨%d2, H2⟩, ⟨%d3, H3⟩⟩
        ihave HΦ' := (PhiA1_split (F := F) c) $$ HΦ
        icases HΦ' with ⟨HO, HS0, HS1, HS2, Hg⟩
        iapply (runA c (grid1.coords t) _ _ _ _ _ _ _ _ _ _ _ _ _ _ hc0 hc2 (iblk1 V c 0 t) (iblk1 V c 1 t) (iblk1 V c 2 t) ((dat1 V c).before 3 t d3) Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HO HS0 HS1 HS2 Hg]
        · isplitl [HO]; · iexact HO
          isplitl [HS0]; · iexact HS0
          isplitl [HS1]; · iexact HS1
          isplitl [HS2]; · iexact HS2
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨HO, HS0, HS1, HS2, Hg⟩, Ho, ⟨%d0, H0⟩, ⟨%d1, H1⟩, ⟨%d2, H2⟩, ⟨%d3, H3⟩⟩
        iapply (runA c (grid1.coords t) _ _ _ _ _ _ _ _ _ _ _ _ _ _ hc0 hc2 (iblk1 V c 0 t) (iblk1 V c 1 t) (iblk1 V c 2 t) ((dat1 V c).before 3 t d3) Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, HS0, HS1, HS2⟩
        isplitl [HO HS0 HS1 HS2 Hg]
        · isplitl [HO]; · iexact HO
          isplitl [HS0]; · iexact HS0
          isplitl [HS1]; · iexact HS1
          isplitl [HS2]; · iexact HS2
          iexact Hg
        isplitl [Ho]; · iexact Ho
        isplitl [H0]; · iexact H0
        isplitl [H1]; · iexact H1
        isplitl [H2]; · iexact H2
        iexists _; iexact H3
    · -- a middle key tile
      have hc0 : ¬cond1_0 (grid1.coords t) := fun h => h0 ((hcond1_0 t).mp h)
      have hz : t.val ≠ 0 := by omega
      rw [scAt_next V c t h0]
      dsimp only [step]
      rw [PhiS_castSucc V c t, PhiS_pos V c _ _ hz]
      iintro ⟨⟨HO, HS0, HS1, HS2, Hg⟩, Ho, ⟨%d0, H0⟩, ⟨%d1, H1⟩, ⟨%d2, H2⟩, ⟨%d3, H3⟩⟩
      iapply (runB c (grid1.coords t) _ _ _ _ _ _ _ _ _ _ _ _ _ _ hc0 hc2 (iblk1 V c 0 t) (iblk1 V c 1 t) (iblk1 V c 2 t) ((dat1 V c).before 3 t d3) _ _ _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HO HS0 HS1 HS2 Hg]
      · isplitl [HO]; · iexact HO
        isplitl [HS0]; · iexact HS0
        isplitl [HS1]; · iexact HS1
        isplitl [HS2]; · iexact HS2
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the launch's back: the running arrays' contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  iintro ⟨HO, HS0, HS1, HS2, Hg⟩
  iapply (PhiA1_join (F := F) c)
  isplitl [HO]; · iexact HO
  isplitl [HS0]; · iexists _; iexact HS0
  isplitl [HS1]; · iexists _; iexact HS1
  isplitl [HS2]; · iexists _; iexact HS2
  iexact Hg

theorem hout1 (c : Dev nD) : (dat1 V c).Φ (Fin.last cfg1.N) ⊢ Pipeline.ΦA spec1 c :=
  Phi_out1 V c _ (by rw [Fin.val_last]; have : cfg1.N = 128 := N_1; omega)

end Region1

end Cert.Kernel.Frame

end
-- ==== Proof.RunBits.lean ====
/-
  The whole program as three items in order — six host operations (three weight arrays narrowed, three bias vectors
  reshaped to rows), the projection launch, the attention launch — and what every unscoped buffer holds between them: the
  launch memory; then the host operations applied; then the projection's three output arrays at what its write-backs
  leave; then the attention's output array at what its write-backs leave.  Each launch is entered with its arrays split
  out of the buffers and left with them put back at their final contents; the generator register and the core's empty
  debts ride along.  The run of the three items is the program's run, so every weakly fair execution ends with every
  unscoped buffer at the last of these valuations: in particular each argument array as launched (no item writes one),
  and the result array at what the attention launch's write-backs leave.
-/
import proofs.«163872_j37400575213830_2_alg».proof.Proof.Gen.Kernel.Launch
import proofs.«163872_j37400575213830_2_alg».proof.Proof.Gen.Kernel.Skeleton
import proofs.«163872_j37400575213830_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«163872_j37400575213830_2_alg».proof.Proof.Region0Bits
import proofs.«163872_j37400575213830_2_alg».proof.Proof.Region1Bits

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At launch. -/
abbrev W0 : Dev nD → Valuation τ sig (Elt F) := fun c b => m ((c : Dev nD), b)
/-- After the host operations. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection launch: its arrays at what the write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the attention launch. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## No item writes an argument -/

/-- The host operations write only their six results. -/
theorem W1_of_not_written (c : Dev nD) (b : Ref sig .tc)
    (hb : b ∉ ([main_v0, main_v1, main_v2, main_v3, main_v4, main_v5] : List (Ref sig .tc))) :
    W1 m c (Proc.devRef .tc b) = W0 m c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    refine ⟨?_, ?_, ?_, ?_, ?_, ?_⟩
    · exact StableHlo.devRef_ne_of_ne (List.ne_of_not_mem_cons hb)
    · exact StableHlo.devRef_ne_of_ne (List.ne_of_not_mem_cons (List.not_mem_of_not_mem_cons hb))
    · exact StableHlo.devRef_ne_of_ne (List.ne_of_not_mem_cons (List.not_mem_of_not_mem_cons (List.not_mem_of_not_mem_cons hb)))
    · exact StableHlo.devRef_ne_of_ne (List.ne_of_not_mem_cons (List.not_mem_of_not_mem_cons (List.not_mem_of_not_mem_cons (List.not_mem_of_not_mem_cons hb))))
    · exact StableHlo.devRef_ne_of_ne (List.ne_of_not_mem_cons (List.not_mem_of_not_mem_cons (List.not_mem_of_not_mem_cons (List.not_mem_of_not_mem_cons (List.not_mem_of_not_mem_cons hb)))))
    · exact StableHlo.devRef_ne_of_ne (List.ne_of_not_mem_cons (List.not_mem_of_not_mem_cons (List.not_mem_of_not_mem_cons (List.not_mem_of_not_mem_cons (List.not_mem_of_not_mem_cons (List.not_mem_of_not_mem_cons hb))))))))

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of_not_written m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := W1_of_not_written m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := W1_of_not_written m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := W1_of_not_written m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := W1_of_not_written m c main_arg4 (by decide)
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := W1_of_not_written m c main_arg5 (by decide)
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := W1_of_not_written m c main_arg6 (by decide)
    _ = m ((c : Thread nD τ).loc main_arg6) := rfl

/-- The result array ends at what the attention launch's write-backs leave. -/
theorem W3_main_v7 (c : Dev nD) : W3 m c (Proc.devRef .tc main_v7) = (dat1 (V2 m) c).arrAt 3 cfg1.N := W3_arr m c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state and the core's empty debts. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The launches as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    refine (hout1 (V2 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the run -/

abbrev segs : List (Pipeline.Seg (pcfgs (F := F)) adm (pdats m) () defs₀ 𝒱₀ L lv) :=
  [ .host (hseg hostOps0 hostOps0_sub hostOps0_fresh' (W0 m)),
    .region (reg0 m),
    .region (reg1 m) ]
theorem main_run (c : Dev nD) : main (F := F) c = Pipeline.Seg.run (segs m) := (main_chain c).trans (by chain_rfl)

set_option backward.isDefEq.respectTransparency.types false in
/-- Every weakly fair execution of the program from memory m terminates, nothing faulting, and every final state has
    every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c)⟩) (run_all m ρ)

/-- The result array ends at what the attention launch's write-backs leave, and the argument arrays as launched. -/
theorem run_value : θ_run defs (onTc (τ := τ) (main (F := F))) ⟨m, fun _ => 0, ρ⟩ (fun r => ∀ c : Dev nD,
      r.2.mem ((c.tc : Thread nD τ).loc main_v7) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v7 (by decide))).trans (W3_main_v7 m c),
    (h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c)⟩) (run_all m ρ)

end Cert.Kernel.Frame

end
-- ==== Proof.Region0.lean ====
/-
  The first pipeline of the program (the projection kernel: q = x·Wq + bq, k = x·Wk + bk, v = x·Wv + bv over row blocks
  of x) at a PARAMETER V, the TensorCore's buffer contents when the pipeline is entered.

  Per window: its block at a grid point read off V (iblk0).  An input window's current staging buffer holds that block
  at every point, whether or not it was fetched there: the three weight arrays and the three bias rows are fetched at the
  first point only, and their block index never moves.  The body reads each input buffer whole and writes each output
  buffer whole, once; so what it leaves in an output buffer is the canonical contents of that one store (out0_7, out0_8,
  out0_9), which is the store's payload itself (out0_W_eq).  The body's triple (sound_kernel0) gives the proof data dat0
  and the body obligation at every point (body_obligation0), generic in the float valuation.
-/
import proofs.«163872_j37400575213830_2_alg».proof.Proof.Gen.KernelIdeal.Launch
import proofs.«163872_j37400575213830_2_alg».proof.Proof.Gen.KernelIdeal.Skeleton
import proofs.«163872_j37400575213830_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of long extents recurses once per coordinate of the long axes
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the pipeline is entered
variable (V : (c : Dev nD) → (b : Ref sig .tc) → Buf (Elt F) ((c : Thread nD τ).loc b))

/-! ## The windows' blocks -/

/-- Window w's block at point t, read off its array as the pipeline finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is V's and whose body leaves the block in place: where it was not fetched the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof data
    whose array is V's and whose body leaves the block in place: where it was not fetched the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof data
    whose array is V's and whose body leaves the block in place: where it was not fetched the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof data
    whose array is V's and whose body leaves the block in place: where it was not fetched the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof data
    whose array is V's and whose body leaves the block in place: where it was not fetched the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof data
    whose array is V's and whose body leaves the block in place: where it was not fetched the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for any proof data
    whose array is V's and whose body leaves the block in place: where it was not fetched the block index has not moved. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S512x1024 := Rect.unit (s := S512x1024) ![0, 0] S512x1024.size inb_S512x1024_S512x1024_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0

/-- The offsets of every access are zero. -/
theorem zeros2 : (![0, 0] : Fin 2 → Nat) = fun _ => 0 := funext fun a => by fin_cases a <;> rfl

/-! ## What the body leaves in each output window's buffer -/

/-- Window 7's staging buffer after the body, from the input windows' blocks: the canonical contents of its one store. -/
def out0_7 (x0 : Vec F S512x1024 .f32) (x1 : Vec F S1024x1024 .bf16) (x4 : Vec F S1x1024 .f32) : Vec F S512x1024 .f32 :=
  View.canon [⟨r0_0, k0_pay2 (View.ld x0 r0_0) (View.ld x1 r0_1) (View.ld x4 r0_2)⟩]

/-- Its store is the whole buffer, so it covers it. -/
theorem cover0_7 (p0 : Vec F S512x1024 .f32) (y : S512x1024.Idx) :
    ∃ pc ∈ ([⟨r0_0, p0⟩] : List (View.Piece (Elt F) S512x1024 .f32)), y ∈ pc.1.set :=
  View.cover_of_tiled [⟨r0_0, p0⟩] S512x1024.size (by rfl) y

/-- One whole-buffer store over whole-buffer loads leaves its payload at the blocks themselves. -/
theorem out0_7_eq (x0 : Vec F S512x1024 .f32) (x1 : Vec F S1024x1024 .bf16) (x4 : Vec F S1x1024 .f32) : out0_7 x0 x1 x4 = k0_pay2 x0 x1 x4 := by
  unfold out0_7
  rw [View.canon_unit_zero (S := S512x1024) zeros2 inb_S512x1024_S512x1024_0_0]
  rw [View.ld_unit_zero (S := S512x1024) zeros2 inb_S512x1024_S512x1024_0_0, View.ld_unit_zero (S := S1024x1024) zeros2 inb_S1024x1024_S1024x1024_0_0, View.ld_unit_zero (S := S1x1024) zeros2 inb_S1x1024_S1x1024_0_0]

/-- Window 8's staging buffer after the body, from the input windows' blocks: the canonical contents of its one store. -/
def out0_8 (x0 : Vec F S512x1024 .f32) (x2 : Vec F S1024x1024 .bf16) (x5 : Vec F S1x1024 .f32) : Vec F S512x1024 .f32 :=
  View.canon [⟨r0_0, k0_pay3 (View.ld x0 r0_0) (View.ld x2 r0_1) (View.ld x5 r0_2)⟩]

/-- Its store is the whole buffer, so it covers it. -/
theorem cover0_8 (p0 : Vec F S512x1024 .f32) (y : S512x1024.Idx) :
    ∃ pc ∈ ([⟨r0_0, p0⟩] : List (View.Piece (Elt F) S512x1024 .f32)), y ∈ pc.1.set :=
  View.cover_of_tiled [⟨r0_0, p0⟩] S512x1024.size (by rfl) y

/-- One whole-buffer store over whole-buffer loads leaves its payload at the blocks themselves. -/
theorem out0_8_eq (x0 : Vec F S512x1024 .f32) (x2 : Vec F S1024x1024 .bf16) (x5 : Vec F S1x1024 .f32) : out0_8 x0 x2 x5 = k0_pay3 x0 x2 x5 := by
  unfold out0_8
  rw [View.canon_unit_zero (S := S512x1024) zeros2 inb_S512x1024_S512x1024_0_0]
  rw [View.ld_unit_zero (S := S512x1024) zeros2 inb_S512x1024_S512x1024_0_0, View.ld_unit_zero (S := S1024x1024) zeros2 inb_S1024x1024_S1024x1024_0_0, View.ld_unit_zero (S := S1x1024) zeros2 inb_S1x1024_S1x1024_0_0]

/-- Window 9's staging buffer after the body, from the input windows' blocks: the canonical contents of its one store. -/
def out0_9 (x0 : Vec F S512x1024 .f32) (x3 : Vec F S1024x1024 .bf16) (x6 : Vec F S1x1024 .f32) : Vec F S512x1024 .bf16 :=
  View.canon [⟨r0_0, k0_pay4 (View.ld x0 r0_0) (View.ld x3 r0_1) (View.ld x6 r0_2)⟩]

/-- Its store is the whole buffer, so it covers it. -/
theorem cover0_9 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-- One whole-buffer store over whole-buffer loads leaves its payload at the blocks themselves. -/
theorem out0_9_eq (x0 : Vec F S512x1024 .f32) (x3 : Vec F S1024x1024 .bf16) (x6 : Vec F S1x1024 .f32) : out0_9 x0 x3 x6 = k0_pay4 x0 x3 x6 := by
  unfold out0_9
  rw [View.canon_unit_zero (S := S512x1024) zeros2 inb_S512x1024_S512x1024_0_0]
  rw [View.ld_unit_zero (S := S512x1024) zeros2 inb_S512x1024_S512x1024_0_0, View.ld_unit_zero (S := S1024x1024) zeros2 inb_S1024x1024_S1024x1024_0_0, View.ld_unit_zero (S := S1x1024) zeros2 inb_S1x1024_S1x1024_0_0]

/-! ## The body's triple -/

set_option maxHeartbeats 1000000 in
/-- The kernel body on whole staging memrefs, the inputs' at read contents xW and the outputs' at anything, runs to the
    continuation holding the inputs' as they were and each output's at out0_W of the inputs'. -/
theorem sound_kernel0 (c : Dev nD) (E : Set ℕ) (i : grid0.Coords) (arg1 : Memref sig .tc .vmem S512x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .bf16) (harg10 : arg10.IsWhole)
    (x0 : Vec F S512x1024 .f32) (x1 : Vec F S1024x1024 .bf16) (x2 : Vec F S1024x1024 .bf16) (x3 : Vec F S1024x1024 .bf16) (x4 : Vec F S1x1024 .f32) (x5 : Vec F S1x1024 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x4) ∗ owns (c : Thread nD τ) arg9 fullShare (out0_8 x0 x2 x5) ∗ owns (c : Thread nD τ) arg10 fullShare (out0_9 x0 x3 x6)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-! ## The pipeline's proof data -/

/-- The proof data of the pipeline on core c: the arrays as the pipeline finds them (V); after the body at point t each
    input's buffer at its block and each output's at out0_W of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 4 t)
    | ⟨8, _⟩ => out0_8 (iblk0 V c 0 t) (iblk0 V c 2 t) (iblk0 V c 5 t)
    | ⟨9, _⟩ => out0_9 (iblk0 V c 0 t) (iblk0 V c 3 t) (iblk0 V c 6 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 4 t) := by dsimp only [dat0]
theorem after0_8 (c : Dev nD) (t : Fin cfg0.N) : (dat0 V c).after 8 t = out0_8 (iblk0 V c 0 t) (iblk0 V c 2 t) (iblk0 V c 5 t) := by dsimp only [dat0]
theorem after0_9 (c : Dev nD) (t : Fin cfg0.N) : (dat0 V c).after 9 t = out0_9 (iblk0 V c 0 t) (iblk0 V c 3 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point t (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks (before0_W), so sound_kernel0 applies; the invariant and
    the core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.Steps.lean ====
/-
  One key tile's update of the three running arrays of the attention launch, as pure functions of the blocks.

  At a key tile the body reads the query block qb (1024 × 1024), the key block kb (512 × 1024), the value block vb
  (512 × 1024) and the three running arrays: the row maxima sm, the denominators sl (both 1024 × 1) and the numerators
  sa (1024 × 1024).  With S = qb · kbᵀ the scores of the tile, it leaves
      the maximum of sm and the row maxima of S,
      exp (sm − new maximum) · sl + the row sums of exp (S − new maximum),
      exp (sm − new maximum) · sa + exp (S − new maximum) · vb.
  These are the body's own payload terms composed; nothing is computed here.  Also here: a store through the whole
  buffer leaves its payload, whatever the buffer held.
-/
import proofs.«163872_j37400575213830_2_alg».proof.Proof.Gen.KernelIdeal.Skeleton
import Idealize.ShloMosaic.Lib.Pipeline.FrameBody
import Idealize.ShloMosaic.Lib.Pipeline.Value

noncomputable section

namespace Cert.KernelIdeal.Frame

open Cert.KernelIdeal Cert.KernelIdeal.Gen
open Idealize.ShloMosaic Idealize.SL.Sem

variable {F : FTy → Type} [FloatOps F]

/-! ## One key tile's update of the three running arrays -/

/-- The new running maximum: the old one against the tile's row maxima of the scores. -/
def stepM (qb : Vec F S1024x1024 .f32) (kb : Vec F S512x1024 .f32) (sm : Vec F S1024x1 .f32) : Vec F S1024x1 .f32 :=
  k1_pay2 (k1_pay8 qb kb sm)
/-- The new running denominator: the old one rescaled, plus the tile's row sums of the shifted exponentials. -/
def stepL (qb : Vec F S1024x1024 .f32) (kb : Vec F S512x1024 .f32) (sm sl : Vec F S1024x1 .f32) : Vec F S1024x1 .f32 :=
  k1_pay11 qb kb sm sm sl
/-- The new running numerator: the old one rescaled, plus the tile's shifted exponentials against the value rows. -/
def stepA (qb : Vec F S1024x1024 .f32) (kb : Vec F S512x1024 .f32) (vb : Vec F S512x1024 .bf16) (sm : Vec F S1024x1 .f32)
    (sa : Vec F S1024x1024 .f32) : Vec F S1024x1024 .f32 :=
  k1_pay1 (k1_pay12 qb kb sm sm sa) (k1_pay13 qb kb vb sm)

/-- The zero offsets of a whole-buffer access, however spelt. -/
theorem hz2 : (![0, 0] : Fin 2 → ℕ) = fun _ => 0 := funext fun a => by
  match a with
  | ⟨0, _⟩ => rfl
  | ⟨1, _⟩ => rfl

/-- One store through the whole buffer leaves its payload, whatever the buffer held. -/
theorem read_write_whole {S : Shape} {e : EltTy} (v : View sig .tc .vmem S e) (f : v.ty.Contents (Elt F))
    {off : Fin S.rank → ℕ} (h : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero h inb y⟩)).trans
    (View.canon_unit_zero h inb w)

end Cert.KernelIdeal.Frame

end
-- ==== Proof.Region1Data.lean ====
/-
  The second launch of the program: attention of a tile of 1024 query rows against the key and value rows, 512 at a
  time, over a grid of 8 query tiles × 16 key tiles.  Three scratch arrays live across the sixteen points of a query tile:
  the running row maximum, the running denominator and the running numerator.  They are reset at the first key tile,
  updated at every key tile, and at the last key tile the numerator divided by the denominator is stored into the output
  block, which is written back there and nowhere else.

  This module states the conditions of the two branches over the grid, where the output window is idle, how the launch's
  invariant splits into the three scratch arrays and the rest, what the three scratch arrays hold after each point (by
  recursion on the point: the step of Steps.lean applied to the reset contents at the first key tile of a query tile and
  to what the point before left elsewhere), and the proof data of the launch: every input window's buffer at its block,
  the output window's at the quotient of the numerator by the denominator as they stand after the point.
-/
import proofs.«163872_j37400575213830_2_alg».proof.Proof.Gen.KernelIdeal.Launch
import proofs.«163872_j37400575213830_2_alg».proof.Proof.Gen.KernelIdeal.Skeleton
import proofs.«163872_j37400575213830_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«163872_j37400575213830_2_alg».proof.Proof.Steps

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions over the grid -/

/-- The first branch: the key-tile coordinate is zero. -/
abbrev cond1_0 (i : grid1.Coords) : Prop :=
  (Scalar.cmpi .ne (Scalar.extui (Scalar.cmpi .eq (BitVec.ofNat 32 (i 1).val) 0#32)) 0#32) = 1#1
/-- It holds exactly at the points whose position is a multiple of 16. -/
theorem hcond1_0 : ∀ t : Fin cfg1.N, cond1_0 (grid1.coords t) ↔ t.val % 16 = 0 :=
  (by decide +kernel : ∀ t : Fin grid1.N, cond1_0 (grid1.coords t) ↔ t.val % 16 = 0)

/-- The second branch: the key-tile coordinate is the last one. -/
abbrev cond1_2 (i : grid1.Coords) : Prop := k1_cond2 i = 1#1
/-- It holds exactly at the points whose position is 15 modulo 16. -/
theorem hcond1_2 : ∀ t : Fin cfg1.N, cond1_2 (grid1.coords t) ↔ t.val % 16 = 15 :=
  (by decide +kernel : ∀ t : Fin grid1.N, cond1_2 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key tile the output window is idle and not written back. -/
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
/-- At the last key tile it is live. -/
theorem liveAt1_3 : ∀ t : Fin cfg1.N, cond1_2 (grid1.coords t) → cfg1.idle 3 (grid1.coords t) = false := by decide +kernel

/-! ## The memrefs the body is called with -/

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The three scratch arrays: running maximum, running denominator, running numerator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2

/-! ## The launch's invariant, split -/

/-- The scoped buffers that are neither this launch's staging buffers nor its scratch: the first launch's staging
    buffers, each at some contents. -/
def Oth (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- The launch's invariant is those buffers, the three scratch arrays at some contents each, and the generator
    register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

theorem PhiA1_split (c : Dev nD) :
    (Pipeline.ΦA spec1 c : sProp 𝕄)
      ⊢ iprop(Oth c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  rw [PhiA1_eq]; unfold Oth
  iintro ⟨⟨H1, H2, H3, H4, H5, H6, H7, H8, H9, H10, H11, H12, H13, H14, HS0, HS1, HS2⟩, Hg⟩
  isplitl [H1 H2 H3 H4 H5 H6 H7 H8 H9 H10 H11 H12 H13 H14]
  · iframe
  iframe

theorem PhiA1_join (c : Dev nD) :
    iprop(Oth c ∗ (∃ d, owns (c : Thread nD τ) scM1_0 fullShare d) ∗ (∃ d, owns (c : Thread nD τ) scM1_1 fullShare d) ∗ (∃ d, owns (c : Thread nD τ) scM1_2 fullShare d) ∗ (∃ r, prngReg c r))
      ⊢ (Pipeline.ΦA spec1 c : sProp 𝕄) := by
  rw [PhiA1_eq]; unfold Oth
  iintro ⟨⟨H1, H2, H3, H4, H5, H6, H7, H8, H9, H10, H11, H12, H13, H14⟩, HS0, HS1, HS2, Hg⟩
  isplitr [Hg]
  · iframe
  iframe

section Region1
variable (V : (c : Dev nD) → (b : Ref sig .tc) → Buf (Elt F) ((c : Thread nD τ).loc b))

/-! ## The windows' blocks -/

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not: unfetched, the block index
    has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The three running arrays after each point -/

/-- The three running arrays: maxima, denominators, numerators. -/
abbrev St (F : FTy → Type) [FloatOps F] : Type := Vec F S1024x1 .f32 × Vec F S1024x1 .f32 × Vec F S1024x1024 .f32

/-- What the first key tile of a query tile resets them to: −∞, 0, 0. -/
def reset : St F := (k1_pay4, k1_pay5, k1_pay6)

/-- One key tile's update. -/
def step (qb : Vec F S1024x1024 .f32) (kb : Vec F S512x1024 .f32) (vb : Vec F S512x1024 .bf16) (s : St F) : St F :=
  (stepM qb kb s.1, stepL qb kb s.1 s.2.1, stepA qb kb vb s.1 s.2.2)

/-- The running arrays after the body at position n: the update at the point's blocks, of the reset contents at the first
    key tile of a query tile and of what the point before left elsewhere. -/
def scAt (c : Dev nD) : (n : ℕ) → n < cfg1.N → St F
  | 0, hn => step (iblk1 V c 0 ⟨0, hn⟩) (iblk1 V c 1 ⟨0, hn⟩) (iblk1 V c 2 ⟨0, hn⟩) reset
  | n + 1, hn => step (iblk1 V c 0 ⟨n + 1, hn⟩) (iblk1 V c 1 ⟨n + 1, hn⟩) (iblk1 V c 2 ⟨n + 1, hn⟩)
      (if (n + 1) % 16 = 0 then reset else scAt c n (Nat.lt_of_succ_lt hn))

/-- At the first key tile of a query tile: the update of the reset contents. -/
theorem scAt_first (c : Dev nD) (t : Fin cfg1.N) (h : t.val % 16 = 0) :
    scAt V c t.val t.isLt = step (iblk1 V c 0 t) (iblk1 V c 1 t) (iblk1 V c 2 t) reset := by
  obtain ⟨n, hn⟩ := t
  cases n with
  | zero => rfl
  | succ n => exact congrArg (step _ _ _) (if_pos h)

/-- Elsewhere: the update of what the point before left. -/
theorem scAt_next (c : Dev nD) (t : Fin cfg1.N) (h : ¬t.val % 16 = 0) :
    scAt V c t.val t.isLt = step (iblk1 V c 0 t) (iblk1 V c 1 t) (iblk1 V c 2 t)
      (scAt V c (t.val - 1) (Nat.lt_of_le_of_lt (Nat.sub_le _ _) t.isLt)) := by
  obtain ⟨n, hn⟩ := t
  cases n with
  | zero => exact absurd (Nat.zero_mod _) h
  | succ n => exact congrArg (step _ _ _) (if_neg h)

/-! ## The invariant -/

/-- Before position n: at the launch's start the launch's own invariant; afterwards the other scoped buffers at some
    contents, the three running arrays at what the point before left, the generator register at some state. -/
def PhiS (c : Dev nD) : (n : ℕ) → n ≤ cfg1.N → sProp 𝕄
  | 0, _ => Pipeline.ΦA spec1 c
  | n + 1, hn => iprop(Oth c ∗ owns (c : Thread nD τ) scM1_0 fullShare (scAt V c n hn).1 ∗ owns (c : Thread nD τ) scM1_1 fullShare (scAt V c n hn).2.1
      ∗ owns (c : Thread nD τ) scM1_2 fullShare (scAt V c n hn).2.2 ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(Oth c ∗ owns (c : Thread nD τ) scM1_0 fullShare (scAt V c n hn).1 ∗ owns (c : Thread nD τ) scM1_1 fullShare (scAt V c n hn).2.1
      ∗ owns (c : Thread nD τ) scM1_2 fullShare (scAt V c n hn).2.2 ∗ (∃ r, prngReg c r)) := rfl

theorem PhiS_pos (c : Dev nD) (n : ℕ) (h : n ≤ cfg1.N) (hz : n ≠ 0) :
    PhiS V c n h = iprop(Oth c ∗ owns (c : Thread nD τ) scM1_0 fullShare (scAt V c (n - 1) (by omega)).1 ∗ owns (c : Thread nD τ) scM1_1 fullShare (scAt V c (n - 1) (by omega)).2.1
      ∗ owns (c : Thread nD τ) scM1_2 fullShare (scAt V c (n - 1) (by omega)).2.2 ∗ (∃ r, prngReg c r)) := by
  cases n with
  | zero => exact absurd rfl hz
  | succ n => rfl

/-! ## The proof data -/

/-- The launch's proof data on core c: the arrays as the launch finds them; after the body at point t each input's buffer
    at its block and the output's at the numerator over the denominator as they stand after t (consulted only at the last
    key tile of a query tile: elsewhere the window is idle); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (scAt V c t.val t.isLt).2.2 (scAt V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (scAt V c t.val t.isLt).2.2 (scAt V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Region1

end Cert.KernelIdeal.Frame

end
-- ==== Proof.Region1Runs.lean ====
/-
  The body of the attention launch on whole staging and scratch buffers, in each of the three situations the grid meets:
  the first key tile of a query tile (the running arrays are reset, then updated), a middle key tile (updated), the last key
  tile (updated, and the quotient stored into the output block).  In each the inputs' buffers end as they were, the
  running arrays at the update of Steps.lean, and the output buffer untouched except at the last key tile.
-/
import proofs.«163872_j37400575213830_2_alg».proof.Proof.Gen.KernelIdeal.Launch
import proofs.«163872_j37400575213830_2_alg».proof.Proof.Gen.KernelIdeal.Skeleton
import proofs.«163872_j37400575213830_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«163872_j37400575213830_2_alg».proof.Proof.Region1Data

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A store through the whole buffer, last, leaves its payload, whatever the buffer held and whatever was stored before. -/
theorem read_write_whole' {S : Shape} {e : EltTy} (v : View sig .tc .vmem S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

set_option maxHeartbeats 4000000 in
/-- A middle key tile. -/
theorem runB (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole)
    (hc0 : ¬cond1_0 i) (hc2 : ¬cond1_2 i)
    (x0 : Vec F S1024x1024 .f32) (x1 : Vec F S512x1024 .f32) (x2 : Vec F S512x1024 .bf16) (xi : Vec F S1024x1024 .f32)
    (sm sl : Vec F S1024x1 .f32) (sa : Vec F S1024x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi
        ∗ owns (c : Thread nD τ) arg6 fullShare sm ∗ owns (c : Thread nD τ) arg7 fullShare sl ∗ owns (c : Thread nD τ) arg8 fullShare sa
        ∗ (iprop(owns (c : Thread nD τ) arg2 fullShare x0 ∗ owns (c : Thread nD τ) arg3 fullShare x1 ∗ owns (c : Thread nD τ) arg4 fullShare x2 ∗ owns (c : Thread nD τ) arg5 fullShare xi
            ∗ owns (c : Thread nD τ) arg6 fullShare (stepM x0 x1 sm) ∗ owns (c : Thread nD τ) arg7 fullShare (stepL x0 x1 sm sl) ∗ owns (c : Thread nD τ) arg8 fullShare (stepA x0 x1 x2 sm sa)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3
  obtain rfl := harg6.eq_unread hf6; obtain rfl := harg7.eq_unread hf7; obtain rfl := harg8.eq_unread hf8
  sl_exec (disch := first | exact hc0 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    refine (read_write_whole' _ _ hz2 _ _ _).trans ?_
    sl_unfold_run_names
    simp only [View.readAt_eq_ld, Memref.IsWhole.read_unread, View.readCov_unit_zero (S := S1024x1) _ hz2, View.readCov_unit_zero (S := S1024x1024) _ hz2, View.ld_unit_zero (S := S1024x1024) hz2, View.ld_unit_zero (S := S512x1024) hz2, View.ld_unit_zero (S := S1024x1) hz2]
    rfl
  isplitl [H7]
  · iexists _; isplitr
    swap; · iexact H7
    ipureintro
    refine (read_write_whole' _ _ hz2 _ _ _).trans ?_
    sl_unfold_run_names
    simp only [View.readAt_eq_ld, Memref.IsWhole.read_unread, View.readCov_unit_zero (S := S1024x1) _ hz2, View.readCov_unit_zero (S := S1024x1024) _ hz2, View.ld_unit_zero (S := S1024x1024) hz2, View.ld_unit_zero (S := S512x1024) hz2, View.ld_unit_zero (S := S1024x1) hz2]
    rfl
  iexists _; isplitr
  swap; · iexact H8
  ipureintro
  refine (read_write_whole' _ _ hz2 _ _ _).trans ?_
  sl_unfold_run_names
  simp only [View.readAt_eq_ld, Memref.IsWhole.read_unread, View.readCov_unit_zero (S := S1024x1) _ hz2, View.readCov_unit_zero (S := S1024x1024) _ hz2, View.ld_unit_zero (S := S1024x1024) hz2, View.ld_unit_zero (S := S512x1024) hz2, View.ld_unit_zero (S := S1024x1) hz2]
  rfl

set_option maxHeartbeats 4000000 in
/-- The first key tile of a query tile: whatever the running arrays held, they end at the update of the reset contents. -/
theorem runA (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole)
    (hc0 : cond1_0 i) (hc2 : ¬cond1_2 i)
    (x0 : Vec F S1024x1024 .f32) (x1 : Vec F S512x1024 .f32) (x2 : Vec F S512x1024 .bf16) (xi : Vec F S1024x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi
            ∗ owns (c : Thread nD τ) arg6 fullShare (stepM x0 x1 (k1_pay4 (F := F))) ∗ owns (c : Thread nD τ) arg7 fullShare (stepL x0 x1 (k1_pay4 (F := F)) (k1_pay5 (F := F)))
            ∗ owns (c : Thread nD τ) arg8 fullShare (stepA x0 x1 x2 (k1_pay4 (F := F)) (k1_pay6 (F := F)))) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3
  sl_exec (disch := first | exact hc0 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    refine (read_write_whole' _ _ hz2 _ _ _).trans ?_
    sl_unfold_run_names
    simp only [View.readAt_eq_ld, Memref.IsWhole.read_unread, View.readCov_unit_zero (S := S1024x1) _ hz2, View.readCov_unit_zero (S := S1024x1024) _ hz2, View.ld_unit_zero (S := S1024x1024) hz2, View.ld_unit_zero (S := S512x1024) hz2, View.ld_unit_zero (S := S1024x1) hz2]
    rfl
  isplitl [H7]
  · iexists _; isplitr
    swap; · iexact H7
    ipureintro
    refine (read_write_whole' _ _ hz2 _ _ _).trans ?_
    sl_unfold_run_names
    simp only [View.readAt_eq_ld, Memref.IsWhole.read_unread, View.readCov_unit_zero (S := S1024x1) _ hz2, View.readCov_unit_zero (S := S1024x1024) _ hz2, View.ld_unit_zero (S := S1024x1024) hz2, View.ld_unit_zero (S := S512x1024) hz2, View.ld_unit_zero (S := S1024x1) hz2]
    rfl
  iexists _; isplitr
  swap; · iexact H8
  ipureintro
  refine (read_write_whole' _ _ hz2 _ _ _).trans ?_
  sl_unfold_run_names
  simp only [View.readAt_eq_ld, Memref.IsWhole.read_unread, View.readCov_unit_zero (S := S1024x1) _ hz2, View.readCov_unit_zero (S := S1024x1024) _ hz2, View.ld_unit_zero (S := S1024x1024) hz2, View.ld_unit_zero (S := S512x1024) hz2, View.ld_unit_zero (S := S1024x1) hz2]
  rfl

set_option maxHeartbeats 4000000 in
/-- The last key tile of a query tile: the running arrays updated, and the output buffer, whatever it held, at the new
    numerator over the new denominator. -/
theorem runC (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole)
    (hc0 : ¬cond1_0 i) (hc2 : cond1_2 i)
    (x0 : Vec F S1024x1024 .f32) (x1 : Vec F S512x1024 .f32) (x2 : Vec F S512x1024 .bf16)
    (sm sl : Vec F S1024x1 .f32) (sa : Vec F S1024x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ owns (c : Thread nD τ) arg6 fullShare sm ∗ owns (c : Thread nD τ) arg7 fullShare sl ∗ owns (c : Thread nD τ) arg8 fullShare sa
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (stepA x0 x1 x2 sm sa) (stepL x0 x1 sm sl))
            ∗ owns (c : Thread nD τ) arg6 fullShare (stepM x0 x1 sm) ∗ owns (c : Thread nD τ) arg7 fullShare (stepL x0 x1 sm sl) ∗ owns (c : Thread nD τ) arg8 fullShare (stepA x0 x1 x2 sm sa)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg6.eq_unread hf6; obtain rfl := harg7.eq_unread hf7; obtain rfl := harg8.eq_unread hf8
  sl_exec (disch := first | exact hc0 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (read_write_whole' _ _ hz2 _ _ _).trans ?_
    sl_unfold_run_names
    simp only [View.readAt_eq_ld, Memref.IsWhole.read_unread, View.readCov_unit_zero (S := S1024x1) _ hz2, View.readCov_unit_zero (S := S1024x1024) _ hz2, View.ld_unit_zero (S := S1024x1024) hz2, View.ld_unit_zero (S := S512x1024) hz2, View.ld_unit_zero (S := S1024x1) hz2]
    rfl
  isplitl [H6]
  · iexists _; isplitr
    swap; · iexact H6
    ipureintro
    refine (read_write_whole' _ _ hz2 _ _ _).trans ?_
    sl_unfold_run_names
    simp only [View.readAt_eq_ld, Memref.IsWhole.read_unread, View.readCov_unit_zero (S := S1024x1) _ hz2, View.readCov_unit_zero (S := S1024x1024) _ hz2, View.ld_unit_zero (S := S1024x1024) hz2, View.ld_unit_zero (S := S512x1024) hz2, View.ld_unit_zero (S := S1024x1) hz2]
    rfl
  isplitl [H7]
  · iexists _; isplitr
    swap; · iexact H7
    ipureintro
    refine (read_write_whole' _ _ hz2 _ _ _).trans ?_
    sl_unfold_run_names
    simp only [View.readAt_eq_ld, Memref.IsWhole.read_unread, View.readCov_unit_zero (S := S1024x1) _ hz2, View.readCov_unit_zero (S := S1024x1024) _ hz2, View.ld_unit_zero (S := S1024x1024) hz2, View.ld_unit_zero (S := S512x1024) hz2, View.ld_unit_zero (S := S1024x1) hz2]
    rfl
  iexists _; isplitr
  swap; · iexact H8
  ipureintro
  refine (read_write_whole' _ _ hz2 _ _ _).trans ?_
  sl_unfold_run_names
  simp only [View.readAt_eq_ld, Memref.IsWhole.read_unread, View.readCov_unit_zero (S := S1024x1) _ hz2, View.readCov_unit_zero (S := S1024x1024) _ hz2, View.ld_unit_zero (S := S1024x1024) hz2, View.ld_unit_zero (S := S512x1024) hz2, View.ld_unit_zero (S := S1024x1) hz2]
  rfl

end Cert.KernelIdeal.Frame

end
-- ==== Proof.Region1.lean ====
/-
  The body obligation of the attention launch at every grid point, and how the launch's invariant is entered and left.

  At a point the body finds every input window's buffer at its block.  Which of the three situations the point is in is
  decided by its position modulo 16: 0 is the first key tile of a query tile (the running arrays are reset; whatever
  they held is forgotten), 15 the last (the output block is stored), the rest are middle tiles.  In each the body's run
  hands the running arrays back at the update of what the point before left, which is what the invariant states for the
  next point; away from the last key tile the output window's buffer is handed back as it was found.
-/
import proofs.«163872_j37400575213830_2_alg».proof.Proof.Gen.KernelIdeal.Launch
import proofs.«163872_j37400575213830_2_alg».proof.Proof.Gen.KernelIdeal.Skeleton
import proofs.«163872_j37400575213830_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«163872_j37400575213830_2_alg».proof.Proof.Region1Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  have hN : t.val < 128 := lt_of_lt_of_eq t.isLt (show cfg1.N = 128 from N_1)
  by_cases h2 : t.val % 16 = 15
  · -- the last key tile of a query tile
    have hc2 : cond1_2 (grid1.coords t) := (hcond1_2 t).mpr h2
    have h0 : ¬t.val % 16 = 0 := by omega
    have hc0 : ¬cond1_0 (grid1.coords t) := fun h => h0 ((hcond1_0 t).mp h)
    have hz : t.val ≠ 0 := by omega
    rw [show (dat1 V c).leavesExact 3 t = owns (c : Thread nD τ) (ms1_3 t) fullShare ((dat1 V c).after 3 t) from by
      unfold Dat.leavesExact; rw [liveAt1_3 t hc2], after1_3]
    rw [scAt_next V c t h0]
    dsimp only [step]
    rw [PhiS_castSucc V c t, PhiS_pos V c _ _ hz]
    iintro ⟨⟨HO, HS0, HS1, HS2, Hg⟩, Ho, ⟨%d0, H0⟩, ⟨%d1, H1⟩, ⟨%d2, H2⟩, ⟨%d3, H3⟩⟩
    iapply (runC c (grid1.coords t) _ _ _ _ _ _ _ _ _ _ _ _ _ _ hc0 hc2 (iblk1 V c 0 t) (iblk1 V c 1 t) (iblk1 V c 2 t) _ _ _ Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, H3, HS0, HS1, HS2⟩
    isplitl [HO HS0 HS1 HS2 Hg]
    · isplitl [HO]; · iexact HO
      isplitl [HS0]; · iexact HS0
      isplitl [HS1]; · iexact HS1
      isplitl [HS2]; · iexact HS2
      iexact Hg
    isplitl [Ho]; · iexact Ho
    isplitl [H0]; · iexact H0
    isplitl [H1]; · iexact H1
    isplitl [H2]; · iexact H2
    iexact H3
  · have hc2 : ¬cond1_2 (grid1.coords t) := fun h => h2 ((hcond1_2 t).mp h)
    rw [Dat.leavesExact_idle (dat1 V c) 3 t (idleAt1_3 t hc2) (noFlush1_3 t hc2)]
    by_cases h0 : t.val % 16 = 0
    · -- the first key tile of a query tile
      have hc0 : cond1_0 (grid1.coords t) := (hcond1_0 t).mpr h0
      rw [scAt_first V c t h0]
      dsimp only [step, reset]
      by_cases hz : t.val = 0
      · rw [PhiS_castSucc V c t, PhiS_zero V c _ _ hz]
        iintro ⟨HΦ, Ho, ⟨%d0, H0⟩, ⟨%d1, H1⟩, ⟨%d2, H2⟩, ⟨%d3, H3⟩⟩
        ihave HΦ' := (PhiA1_split (F := F) c) $$ HΦ
        icases HΦ' with ⟨HO, HS0, HS1, HS2, Hg⟩
        iapply (runA c (grid1.coords t) _ _ _ _ _ _ _ _ _ _ _ _ _ _ hc0 hc2 (iblk1 V c 0 t) (iblk1 V c 1 t) (iblk1 V c 2 t) ((dat1 V c).before 3 t d3) Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HO HS0 HS1 HS2 Hg]
        · isplitl [HO]; · iexact HO
          isplitl [HS0]; · iexact HS0
          isplitl [HS1]; · iexact HS1
          isplitl [HS2]; · iexact HS2
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨HO, HS0, HS1, HS2, Hg⟩, Ho, ⟨%d0, H0⟩, ⟨%d1, H1⟩, ⟨%d2, H2⟩, ⟨%d3, H3⟩⟩
        iapply (runA c (grid1.coords t) _ _ _ _ _ _ _ _ _ _ _ _ _ _ hc0 hc2 (iblk1 V c 0 t) (iblk1 V c 1 t) (iblk1 V c 2 t) ((dat1 V c).before 3 t d3) Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, HS0, HS1, HS2⟩
        isplitl [HO HS0 HS1 HS2 Hg]
        · isplitl [HO]; · iexact HO
          isplitl [HS0]; · iexact HS0
          isplitl [HS1]; · iexact HS1
          isplitl [HS2]; · iexact HS2
          iexact Hg
        isplitl [Ho]; · iexact Ho
        isplitl [H0]; · iexact H0
        isplitl [H1]; · iexact H1
        isplitl [H2]; · iexact H2
        iexists _; iexact H3
    · -- a middle key tile
      have hc0 : ¬cond1_0 (grid1.coords t) := fun h => h0 ((hcond1_0 t).mp h)
      have hz : t.val ≠ 0 := by omega
      rw [scAt_next V c t h0]
      dsimp only [step]
      rw [PhiS_castSucc V c t, PhiS_pos V c _ _ hz]
      iintro ⟨⟨HO, HS0, HS1, HS2, Hg⟩, Ho, ⟨%d0, H0⟩, ⟨%d1, H1⟩, ⟨%d2, H2⟩, ⟨%d3, H3⟩⟩
      iapply (runB c (grid1.coords t) _ _ _ _ _ _ _ _ _ _ _ _ _ _ hc0 hc2 (iblk1 V c 0 t) (iblk1 V c 1 t) (iblk1 V c 2 t) ((dat1 V c).before 3 t d3) _ _ _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HO HS0 HS1 HS2 Hg]
      · isplitl [HO]; · iexact HO
        isplitl [HS0]; · iexact HS0
        isplitl [HS1]; · iexact HS1
        isplitl [HS2]; · iexact HS2
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the launch's back: the running arrays' contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  iintro ⟨HO, HS0, HS1, HS2, Hg⟩
  iapply (PhiA1_join (F := F) c)
  isplitl [HO]; · iexact HO
  isplitl [HS0]; · iexists _; iexact HS0
  isplitl [HS1]; · iexists _; iexact HS1
  isplitl [HS2]; · iexists _; iexact HS2
  iexact Hg

theorem hout1 (c : Dev nD) : (dat1 V c).Φ (Fin.last cfg1.N) ⊢ Pipeline.ΦA spec1 c :=
  Phi_out1 V c _ (by rw [Fin.val_last]; have : cfg1.N = 128 := N_1; omega)

end Region1

end Cert.KernelIdeal.Frame

end
-- ==== Proof.Run.lean ====
/-
  The whole program as three items in order — six host operations (three weight arrays narrowed, three bias vectors
  reshaped to rows), the projection launch, the attention launch — and what every unscoped buffer holds between them: the
  launch memory; then the host operations applied; then the projection's three output arrays at what its write-backs
  leave; then the attention's output array at what its write-backs leave.  Each launch is entered with its arrays split
  out of the buffers and left with them put back at their final contents; the generator register and the core's empty
  debts ride along.  The run of the three items is the program's run, so every weakly fair execution ends with every
  unscoped buffer at the last of these valuations: in particular each argument array as launched (no item writes one),
  and the result array at what the attention launch's write-backs leave.
-/
import proofs.«163872_j37400575213830_2_alg».proof.Proof.Gen.KernelIdeal.Launch
import proofs.«163872_j37400575213830_2_alg».proof.Proof.Gen.KernelIdeal.Skeleton
import proofs.«163872_j37400575213830_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«163872_j37400575213830_2_alg».proof.Proof.Region0
import proofs.«163872_j37400575213830_2_alg».proof.Proof.Region1

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At launch. -/
abbrev W0 : Dev nD → Valuation τ sig (Elt F) := fun c b => m ((c : Dev nD), b)
/-- After the host operations. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection launch: its arrays at what the write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the attention launch. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## No item writes an argument -/

/-- The host operations write only their six results. -/
theorem W1_of_not_written (c : Dev nD) (b : Ref sig .tc)
    (hb : b ∉ ([main_v0, main_v1, main_v2, main_v3, main_v4, main_v5] : List (Ref sig .tc))) :
    W1 m c (Proc.devRef .tc b) = W0 m c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    refine ⟨?_, ?_, ?_, ?_, ?_, ?_⟩
    · exact StableHlo.devRef_ne_of_ne (List.ne_of_not_mem_cons hb)
    · exact StableHlo.devRef_ne_of_ne (List.ne_of_not_mem_cons (List.not_mem_of_not_mem_cons hb))
    · exact StableHlo.devRef_ne_of_ne (List.ne_of_not_mem_cons (List.not_mem_of_not_mem_cons (List.not_mem_of_not_mem_cons hb)))
    · exact StableHlo.devRef_ne_of_ne (List.ne_of_not_mem_cons (List.not_mem_of_not_mem_cons (List.not_mem_of_not_mem_cons (List.not_mem_of_not_mem_cons hb))))
    · exact StableHlo.devRef_ne_of_ne (List.ne_of_not_mem_cons (List.not_mem_of_not_mem_cons (List.not_mem_of_not_mem_cons (List.not_mem_of_not_mem_cons (List.not_mem_of_not_mem_cons hb)))))
    · exact StableHlo.devRef_ne_of_ne (List.ne_of_not_mem_cons (List.not_mem_of_not_mem_cons (List.not_mem_of_not_mem_cons (List.not_mem_of_not_mem_cons (List.not_mem_of_not_mem_cons (List.not_mem_of_not_mem_cons hb))))))))

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of_not_written m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := W1_of_not_written m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := W1_of_not_written m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := W1_of_not_written m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := W1_of_not_written m c main_arg4 (by decide)
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := W1_of_not_written m c main_arg5 (by decide)
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := W1_of_not_written m c main_arg6 (by decide)
    _ = m ((c : Thread nD τ).loc main_arg6) := rfl

/-- The result array ends at what the attention launch's write-backs leave. -/
theorem W3_main_v7 (c : Dev nD) : W3 m c (Proc.devRef .tc main_v7) = (dat1 (V2 m) c).arrAt 3 cfg1.N := W3_arr m c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state and the core's empty debts. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The launches as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    refine (hout1 (V2 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the run -/

abbrev segs : List (Pipeline.Seg (pcfgs (F := F)) adm (pdats m) () defs₀ 𝒱₀ L lv) :=
  [ .host (hseg hostOps0 hostOps0_sub hostOps0_fresh' (W0 m)),
    .region (reg0 m),
    .region (reg1 m) ]
theorem main_run (c : Dev nD) : main (F := F) c = Pipeline.Seg.run (segs m) := (main_chain c).trans (by chain_rfl)

set_option backward.isDefEq.respectTransparency.types false in
/-- Every weakly fair execution of the program from memory m terminates, nothing faulting, and every final state has
    every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c)⟩) (run_all m ρ)

/-- The result array ends at what the attention launch's write-backs leave, and the argument arrays as launched. -/
theorem run_value : θ_run defs (onTc (τ := τ) (main (F := F))) ⟨m, fun _ => 0, ρ⟩ (fun r => ∀ c : Dev nD,
      r.2.mem ((c.tc : Thread nD τ).loc main_v7) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v7 (by decide))).trans (W3_main_v7 m c),
    (h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c)⟩) (run_all m ρ)

end Cert.KernelIdeal.Frame

end
-- ==== Proof.LibAttnSwap.lean ====
/-
  Scaled dot-product attention for one query row on the extended reals: dividing once after weighing the values equals
  dividing every weight first, when all scores and values are real numbers.

  For a query row `q` of length `d` and `n` key rows the scaled score against key `c` is `(∑ j, q j · k c j) · scale`, with
  `scale` the float pattern of one eighth.  With `M` the largest score, the shifted exponentials are `e c = exp (s c − M)`.
  One arrangement weighs the value rows by the exponentials and divides the total once by their sum,
  `(∑ c, e c · v c) / ∑ c, e c`; the other divides every exponential by the sum first, `∑ c, (e c / ∑ c', e c') · v c`.
  On the extended reals the two differ at infinities.  When every score and value is a real number the largest score is one
  of the scores, hence real; every shifted exponential is the coercion of a positive real, and so is their sum `Z`;
  division by the nonzero real `Z` is multiplication by `1 / Z`; both arrangements are then coercions of real sums and the
  identity between them is distributivity in the reals.  Also here: real-valuedness is closed under products and finite
  sums, the scale is the real 1/8, and the coercion of the reals commutes with finite sums.
-/
import Idealize.ShloMosaic.PureOps.Ideal

noncomputable section

namespace Cert.Lib.AttnSwap

open Idealize.ShloMosaic
open scoped BigOperators

/-- An extended real that is a real number. -/
def IsReal (x : EReal) : Prop := ∃ r : ℝ, x = (r : EReal)

/-- The scale one eighth, as the float pattern both programs carry. -/
def scale : EReal := Ideal.ofBits .f32 0x3E000000#32

/-- The scaled score of one query row against key row `c`. -/
def score {n d : ℕ} (q : Fin d → EReal) (k : Fin n → Fin d → EReal) (c : Fin n) : EReal :=
  (∑ j : Fin d, q j * k c j) * scale

/-- The exponential of a score shifted by the largest score. -/
def expShift {n : ℕ} (s : Fin n → EReal) (c : Fin n) : EReal :=
  Ideal.exp (s c - (Finset.univ : Finset (Fin n)).sup s)

/-- Weigh by the shifted exponentials, then divide once by their sum. -/
def attnDivAfter {n : ℕ} (s v : Fin n → EReal) : EReal :=
  Ideal.div (∑ c : Fin n, expShift s c * v c) (∑ c : Fin n, expShift s c)

/-- Divide every shifted exponential by their sum, then weigh. -/
def attnDivBefore {n : ℕ} (s v : Fin n → EReal) : EReal :=
  ∑ c : Fin n, Ideal.div (expShift s c) (∑ c' : Fin n, expShift s c') * v c

/-! ### Real-valuedness is closed under the ring operations and finite sums -/

theorem isReal_coe (r : ℝ) : IsReal (r : EReal) := ⟨r, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The coercion of the reals into the extended reals commutes with finite sums. -/
theorem coe_finset_sum {ι : Type*} (t : Finset ι) (f : ι → ℝ) :
    ((∑ i ∈ t, f i : ℝ) : EReal) = ∑ i ∈ t, (f i : EReal) := by
  classical
  refine Finset.induction_on t ?_ ?_
  · simp
  · intro a t ha ih
    rw [Finset.sum_insert ha, Finset.sum_insert ha, EReal.coe_add, ih]

theorem isReal_finset_sum {ι : Type*} (t : Finset ι) (f : ι → EReal) (hf : ∀ i, IsReal (f i)) :
    IsReal (∑ i ∈ t, f i) := by
  choose φ hφ using hf
  refine ⟨∑ i ∈ t, φ i, ?_⟩
  rw [coe_finset_sum]
  exact Finset.sum_congr rfl fun i _ => hφ i

/-! ### The scale, the dot product, the score -/

/-- The float pattern of the scale denotes one eighth: sign 0, biased exponent 124, fraction 0, that is
    `2 ^ 23 · 2 ^ (124 − 127 − 23) = 2 ^ (−3)`. -/
theorem scale_eq : scale = ((1 / 8 : ℝ) : EReal) := by
  simp [scale, Ideal.ofBits, Ideal.ieee]
  rw [← EReal.coe_mul]
  congr 1
  norm_num

theorem isReal_scale : IsReal scale := ⟨1 / 8, scale_eq⟩

theorem isReal_sum_mul {K : ℕ} (f g : Fin K → EReal) (hf : ∀ k, IsReal (f k)) (hg : ∀ k, IsReal (g k)) :
    IsReal (∑ k, f k * g k) :=
  isReal_finset_sum _ _ fun k => (hf k).mul (hg k)

theorem isReal_score {n d : ℕ} (q : Fin d → EReal) (k : Fin n → Fin d → EReal) (hq : ∀ j, IsReal (q j))
    (hk : ∀ c j, IsReal (k c j)) (c : Fin n) : IsReal (score q k c) :=
  (isReal_sum_mul q (k c) hq (hk c)).mul isReal_scale

/-! ### The two arrangements agree on real scores and values -/

theorem attn_div_swap {n : ℕ} (hn : 0 < n) (s v : Fin n → EReal) (hs : ∀ c, IsReal (s c)) (hv : ∀ c, IsReal (v c)) :
    attnDivAfter s v = attnDivBefore s v := by
  choose σ hσ using hs
  choose ν hν using hv
  -- the largest score is attained, so it is a real number
  have hne : (Finset.univ : Finset (Fin n)).Nonempty := ⟨⟨0, hn⟩, Finset.mem_univ _⟩
  obtain ⟨c₀, -, hM⟩ := Finset.exists_mem_eq_sup (Finset.univ : Finset (Fin n)) hne s
  -- every shifted exponential is the coercion of a positive real
  have he : ∀ c, expShift s c = ((Real.exp (σ c - σ c₀) : ℝ) : EReal) := by
    intro c
    rw [expShift, hM, hσ c, hσ c₀, ← EReal.coe_sub, Ideal.exp_coe]
  -- their sum is a positive real
  have hZpos : 0 < ∑ c : Fin n, Real.exp (σ c - σ c₀) :=
    Finset.sum_pos (fun c _ => Real.exp_pos _) hne
  have hZ : (∑ c : Fin n, expShift s c) = ((∑ c : Fin n, Real.exp (σ c - σ c₀) : ℝ) : EReal) := by
    rw [coe_finset_sum]
    exact Finset.sum_congr rfl fun c _ => he c
  -- both sides are coercions of real sums
  rw [attnDivAfter, attnDivBefore, hZ]
  simp only [Ideal.div_coe hZpos.ne', he, hν, ← EReal.coe_mul, ← coe_finset_sum]
  -- distributivity in the reals
  rw [Finset.sum_mul]
  congr 1
  exact Finset.sum_congr rfl fun c _ => by ring

end Cert.Lib.AttnSwap

end
-- ==== Proof.LibTiles.lean ====
/-
  A running total taken tile by tile is the total.

  Let f be a function on the natural numbers with values in a commutative additive monoid (the extended reals are one),
  and B a tile width.  Start from 0 + (the sum of f over the first tile) and, tile after tile, add the sum of f over
  the next B arguments: after tile k the running total is the sum of f over the first (k + 1) · B naturals.  Only
  0 + x = x and the associativity of addition are used, so nothing needs to be finite.
  A function given on `Fin n` is carried to the naturals by extending it with zero; with (k + 1) · B = n the running
  total of the extension is the sum over `Fin n`, and the sum over `Fin (T · B)` is the double sum over tiles and
  places in a tile.  The two tilings used are spelt out: 32 tiles of width 1024 and 4 tiles of width 2048.
-/
import Idealize.ShloMosaic.PureOps.Ideal

noncomputable section

namespace Cert.Lib.Tiles

open scoped BigOperators

variable {M : Type*} [AddCommMonoid M]

/-- The running total after tile `k`: tile 0 is added to zero, every later tile to the total so far. -/
def runTot (f : ℕ → M) (B : ℕ) : ℕ → M
  | 0 => 0 + ∑ j : Fin B, f (0 * B + j.val)
  | k + 1 => runTot f B k + ∑ j : Fin B, f ((k + 1) * B + j.val)

theorem runTot_zero (f : ℕ → M) (B : ℕ) : runTot f B 0 = 0 + ∑ j : Fin B, f (0 * B + j.val) := rfl

theorem runTot_succ (f : ℕ → M) (B k : ℕ) :
    runTot f B (k + 1) = runTot f B k + ∑ j : Fin B, f ((k + 1) * B + j.val) := rfl

/-- After tile `k` the running total is the sum over the first `(k + 1) · B` naturals. -/
theorem runTot_eq (f : ℕ → M) (B : ℕ) : ∀ k : ℕ, runTot f B k = ∑ j ∈ Finset.range ((k + 1) * B), f j
  | 0 => by
    rw [runTot_zero, zero_add, Nat.zero_add, Nat.one_mul, Finset.sum_range]
    exact Finset.sum_congr rfl fun j _ => by rw [Nat.zero_mul, Nat.zero_add]
  | k + 1 => by
    rw [runTot_succ, runTot_eq f B k, Nat.succ_mul (k + 1) B, Finset.sum_range_add,
      Finset.sum_range (fun x => f ((k + 1) * B + x))]

/-- A function on `Fin n` extended by zero to all naturals. -/
def ext {n : ℕ} (g : Fin n → M) (j : ℕ) : M := if h : j < n then g ⟨j, h⟩ else 0

theorem ext_of_lt {n : ℕ} (g : Fin n → M) {j : ℕ} (h : j < n) : ext g j = g ⟨j, h⟩ := dif_pos h

/-- The sum over `Fin n` is the sum of the extension over the first `n` naturals. -/
theorem sum_ext {n : ℕ} (g : Fin n → M) : ∑ j ∈ Finset.range n, ext g j = ∑ j : Fin n, g j := by
  rw [Finset.sum_range]
  exact Finset.sum_congr rfl fun j _ => ext_of_lt g j.isLt

/-- With `(k + 1) · B = n`, the running total of the extension after tile `k` is the sum over `Fin n`. -/
theorem runTot_ext {n : ℕ} (g : Fin n → M) (B k : ℕ) (h : (k + 1) * B = n) :
    runTot (ext g) B k = ∑ j : Fin n, g j := by
  rw [runTot_eq, h, sum_ext]

/-- The sum of `f` over `T` consecutive tiles of width `B` is its sum over the first `T · B` naturals. -/
theorem sum_tiles (f : ℕ → M) (B : ℕ) :
    ∀ T : ℕ, ∑ s ∈ Finset.range T, ∑ k : Fin B, f (s * B + k.val) = ∑ j ∈ Finset.range (T * B), f j
  | 0 => by simp
  | T + 1 => by
    rw [Finset.sum_range_succ, sum_tiles f B T, Nat.succ_mul, Finset.sum_range_add,
      Finset.sum_range (fun x => f (T * B + x))]

/-- The sum over `Fin (T · B)` is the double sum over the tile and the place in the tile. -/
theorem sum_fin_tiles (T B : ℕ) (g : Fin (T * B) → M) :
    ∑ j : Fin (T * B), g j = ∑ s : Fin T, ∑ k : Fin B, ext g (s.val * B + k.val) := by
  rw [← sum_ext g, ← Finset.sum_range (fun s => ∑ k : Fin B, ext g (s * B + k.val))]
  exact (sum_tiles (ext g) B T).symm

/-- 32 tiles of width 1024: the running total after the last tile is the sum over all 32768 places. -/
theorem runTot_32x1024 (g : Fin 32768 → M) : runTot (ext g) 1024 31 = ∑ j : Fin 32768, g j :=
  runTot_ext g 1024 31 (by norm_num)

/-- 4 tiles of width 2048: the running total after the last tile is the sum over all 8192 places. -/
theorem runTot_4x2048 (g : Fin 8192 → M) : runTot (ext g) 2048 3 = ∑ j : Fin 8192, g j :=
  runTot_ext g 2048 3 (by norm_num)

/-- Place `j` of tile `s` among 32 tiles of width 1024, read from the extension. -/
theorem ext_32x1024 (g : Fin 32768 → M) (s : Fin 32) (j : Fin 1024) :
    ext g (s.val * 1024 + j.val) = g ⟨s.val * 1024 + j.val, by have := s.isLt; have := j.isLt; omega⟩ :=
  ext_of_lt g _

/-- Place `j` of tile `s` among 4 tiles of width 2048, read from the extension. -/
theorem ext_4x2048 (g : Fin 8192 → M) (s : Fin 4) (j : Fin 2048) :
    ext g (s.val * 2048 + j.val) = g ⟨s.val * 2048 + j.val, by have := s.isLt; have := j.isLt; omega⟩ :=
  ext_of_lt g _

end Cert.Lib.Tiles

end
-- ==== Proof.LibOnlineSoftmax.lean ====
/-
  The online-softmax identity on the extended reals.

  Cut N = T · B real scores and values into T tiles of width B.  Going through the tiles keep a running maximum m, a
  running denominator l and a running numerator a,
      m' = max m (sup of the tile),  l' = exp (m − m') · l + ∑ exp (s − m'),  a' = exp (m − m') · a + ∑ exp (s − m') · v,
  from m = −∞, l = 0, a = 0.  By induction on the number n ≥ 1 of tiles seen, m is a real number, the largest score of
  the first n tiles, and l = ∑ exp (s − m), a = ∑ exp (s − m) · v, the sums over the first n tiles: the step is
  exp (m − m') · exp (s − m) = exp (s − m') in the reals; in the first step the old l and a are zero, so the factor
  exp (−∞ − m') does not matter.  After the last tile m is the largest of all N scores, the double sums over
  (tile, place) are the sums over all N places, and a / l is 'weigh, then divide once', which on real scores and values is
  'divide every weight, then weigh'.

  The definitions come first: the shifted softmax weights of a finite family against values (softRow), the three
  recursions (onM, onL, onA), and a family over Fin N cut into tiles of width B (tiled, through its extension by zero to
  the natural numbers).  The identity is stated for T = n + 1 tiles of any positive width (online_general) and at
  16 tiles of width 512 (online_tiles).
-/
import Idealize.ShloMosaic.PureOps.Ideal
import proofs.«163872_j37400575213830_2_alg».proof.Proof.LibAttnSwap
import proofs.«163872_j37400575213830_2_alg».proof.Proof.LibTiles

noncomputable section

namespace Cert.Attn

open Idealize.ShloMosaic
open Cert.Lib.AttnSwap (IsReal coe_finset_sum)
open scoped BigOperators

/-! ### Definitions -/

/-- Softmax weights of a finite family of scores against values, every weight divided by the sum first. -/
def softRow {n : ℕ} (S Vc : Fin n → EReal) : EReal :=
  ∑ j : Fin n, Ideal.div (Ideal.exp (S j - (Finset.univ : Finset (Fin n)).sup S))
    (∑ j' : Fin n, Ideal.exp (S j' - (Finset.univ : Finset (Fin n)).sup S)) * Vc j

/-- The running maximum after the first n tiles. -/
def onM {B : ℕ} (s : ℕ → Fin B → EReal) : ℕ → EReal
  | 0 => ⊥
  | n + 1 => max (onM s n) ((Finset.univ : Finset (Fin B)).sup (s n))

/-- The running denominator after the first n tiles. -/
def onL {B : ℕ} (s : ℕ → Fin B → EReal) : ℕ → EReal
  | 0 => 0
  | n + 1 => Ideal.exp (onM s n - onM s (n + 1)) * onL s n + ∑ j : Fin B, Ideal.exp (s n j - onM s (n + 1))

/-- The running numerator after the first n tiles. -/
def onA {B : ℕ} (s v : ℕ → Fin B → EReal) : ℕ → EReal
  | 0 => 0
  | n + 1 => Ideal.exp (onM s n - onM s (n + 1)) * onA s v n + ∑ j : Fin B, Ideal.exp (s n j - onM s (n + 1)) * v n j

/-- A family indexed by Fin N read at a natural number: the entry in range, zero outside. -/
def ext {N : ℕ} (f : Fin N → EReal) (k : ℕ) : EReal := if h : k < N then f ⟨k, h⟩ else 0

/-- A family over Fin N cut into tiles of width B: tile n, position j. -/
def tiled {N : ℕ} (B : ℕ) (f : Fin N → EReal) (n : ℕ) (j : Fin B) : EReal := ext f (n * B + j.val)

/-! ### The recursions, one step at a time -/

theorem onM_zero {B : ℕ} (s : ℕ → Fin B → EReal) : onM s 0 = ⊥ := rfl

theorem onM_succ {B : ℕ} (s : ℕ → Fin B → EReal) (n : ℕ) :
    onM s (n + 1) = max (onM s n) ((Finset.univ : Finset (Fin B)).sup (s n)) := rfl

theorem onL_zero {B : ℕ} (s : ℕ → Fin B → EReal) : onL s 0 = 0 := rfl

theorem onL_succ {B : ℕ} (s : ℕ → Fin B → EReal) (n : ℕ) :
    onL s (n + 1) = Ideal.exp (onM s n - onM s (n + 1)) * onL s n + ∑ j : Fin B, Ideal.exp (s n j - onM s (n + 1)) := rfl

theorem onA_zero {B : ℕ} (s v : ℕ → Fin B → EReal) : onA s v 0 = 0 := rfl

theorem onA_succ {B : ℕ} (s v : ℕ → Fin B → EReal) (n : ℕ) :
    onA s v (n + 1) = Ideal.exp (onM s n - onM s (n + 1)) * onA s v n
      + ∑ j : Fin B, Ideal.exp (s n j - onM s (n + 1)) * v n j := rfl

/-! ### The closed forms on real tiles -/

/-- The largest entry of a nonempty tile of real numbers is a real number. -/
theorem tile_sup_real {B : ℕ} (hB : 0 < B) (s : Fin B → EReal) (σ : Fin B → ℝ) (hs : ∀ j, s j = (σ j : EReal)) :
    ∃ t : ℝ, (Finset.univ : Finset (Fin B)).sup s = (t : EReal) := by
  obtain ⟨j₀, -, h⟩ := Finset.exists_mem_eq_sup (Finset.univ : Finset (Fin B)) ⟨⟨0, hB⟩, Finset.mem_univ _⟩ s
  exact ⟨σ j₀, h.trans (hs j₀)⟩

/-- The sum over a tile of the exponentials shifted by a real number is the coercion of the real sum. -/
theorem tile_exp_sum {B : ℕ} (s : Fin B → EReal) (σ : Fin B → ℝ) (hs : ∀ j, s j = (σ j : EReal)) (m : ℝ) :
    ∑ j : Fin B, Ideal.exp (s j - (m : EReal)) = ((∑ j : Fin B, Real.exp (σ j - m) : ℝ) : EReal) := by
  rw [coe_finset_sum]
  exact Finset.sum_congr rfl fun j _ => by rw [hs j, ← EReal.coe_sub, Ideal.exp_coe]

/-- The same with every exponential weighing a real value. -/
theorem tile_exp_mul_sum {B : ℕ} (s v : Fin B → EReal) (σ ν : Fin B → ℝ) (hs : ∀ j, s j = (σ j : EReal))
    (hv : ∀ j, v j = (ν j : EReal)) (m : ℝ) :
    ∑ j : Fin B, Ideal.exp (s j - (m : EReal)) * v j = ((∑ j : Fin B, Real.exp (σ j - m) * ν j : ℝ) : EReal) := by
  rw [coe_finset_sum]
  exact Finset.sum_congr rfl fun j _ => by rw [hs j, hv j, ← EReal.coe_sub, Ideal.exp_coe, ← EReal.coe_mul]

/-- After n + 1 tiles of real scores and values: the running maximum is a real number m, the running denominator is
    ∑ exp (s − m) and the running numerator ∑ exp (s − m) · v, the sums over the first n + 1 tiles. -/
theorem closed_forms {B : ℕ} (hB : 0 < B) (s v : ℕ → Fin B → EReal) (σ ν : ℕ → Fin B → ℝ)
    (hs : ∀ k j, s k j = (σ k j : EReal)) (hv : ∀ k j, v k j = (ν k j : EReal)) :
    ∀ n : ℕ, ∃ m : ℝ, onM s (n + 1) = (m : EReal)
      ∧ onL s (n + 1) = ((∑ k ∈ Finset.range (n + 1), ∑ j : Fin B, Real.exp (σ k j - m) : ℝ) : EReal)
      ∧ onA s v (n + 1) = ((∑ k ∈ Finset.range (n + 1), ∑ j : Fin B, Real.exp (σ k j - m) * ν k j : ℝ) : EReal)
  | 0 => by
    obtain ⟨t, ht⟩ := tile_sup_real hB (s 0) (σ 0) (hs 0)
    have hm : onM s (0 + 1) = (t : EReal) := by
      rw [onM_succ, onM_zero, ht]
      exact max_eq_right bot_le
    refine ⟨t, hm, ?_, ?_⟩
    · rw [onL_succ, onL_zero, mul_zero, zero_add, hm, tile_exp_sum (s 0) (σ 0) (hs 0) t, Finset.sum_range_one]
    · rw [onA_succ, onA_zero, mul_zero, zero_add, hm, tile_exp_mul_sum (s 0) (v 0) (σ 0) (ν 0) (hs 0) (hv 0) t,
        Finset.sum_range_one]
  | n + 1 => by
    obtain ⟨m, hm, hL, hA⟩ := closed_forms hB s v σ ν hs hv n
    obtain ⟨t, ht⟩ := tile_sup_real hB (s (n + 1)) (σ (n + 1)) (hs (n + 1))
    have hm' : onM s (n + 1 + 1) = ((max m t : ℝ) : EReal) := by
      rw [onM_succ, hm, ht]
      exact (EReal.coe_strictMono.monotone.map_max).symm
    -- the step in the reals: exp (m − m') · exp (x − m) = exp (x − m')
    have hstep : ∀ x : ℝ, Real.exp (m - max m t) * Real.exp (x - m) = Real.exp (x - max m t) := by
      intro x
      rw [← Real.exp_add]
      congr 1
      ring
    refine ⟨max m t, hm', ?_, ?_⟩
    · rw [onL_succ, hm', hm, hL, tile_exp_sum (s (n + 1)) (σ (n + 1)) (hs (n + 1)) (max m t), ← EReal.coe_sub,
        Ideal.exp_coe, ← EReal.coe_mul, ← EReal.coe_add]
      congr 1
      rw [Finset.sum_range_succ _ (n + 1), Finset.mul_sum]
      congr 1
      refine Finset.sum_congr rfl fun k _ => ?_
      rw [Finset.mul_sum]
      exact Finset.sum_congr rfl fun j _ => hstep _
    · rw [onA_succ, hm', hm, hA,
        tile_exp_mul_sum (s (n + 1)) (v (n + 1)) (σ (n + 1)) (ν (n + 1)) (hs (n + 1)) (hv (n + 1)) (max m t),
        ← EReal.coe_sub, Ideal.exp_coe, ← EReal.coe_mul, ← EReal.coe_add]
      congr 1
      rw [Finset.sum_range_succ _ (n + 1), Finset.mul_sum]
      congr 1
      refine Finset.sum_congr rfl fun k _ => ?_
      rw [Finset.mul_sum]
      exact Finset.sum_congr rfl fun j _ => by rw [← mul_assoc, hstep]

/-! ### The running maximum is the largest entry seen -/

theorem onM_eq_sup {B : ℕ} (s : ℕ → Fin B → EReal) :
    ∀ n : ℕ, onM s n = (Finset.range n).sup fun k => (Finset.univ : Finset (Fin B)).sup (s k)
  | 0 => by rw [onM_zero, Finset.range_zero, Finset.sup_empty]
  | n + 1 => by rw [onM_succ, onM_eq_sup s n, Finset.range_add_one, Finset.sup_insert, max_comm]

/-! ### Tiles of a family over Fin N -/

theorem tile_lt {T B N k : ℕ} (hN : T * B = N) (hk : k < T) (j : Fin B) : k * B + j.val < N := by
  rw [← hN]
  exact Nat.lt_of_lt_of_le (Nat.add_lt_add_left j.isLt _) (by rw [← Nat.succ_mul]; exact Nat.mul_le_mul_right B hk)

theorem tiled_of_lt {N B : ℕ} (f : Fin N → EReal) {k : ℕ} (j : Fin B) (h : k * B + j.val < N) :
    tiled B f k j = f ⟨k * B + j.val, h⟩ := dif_pos h

/-- Every entry of a tile of a real family is real (outside the range it is zero). -/
theorem isReal_tiled {N B : ℕ} (f : Fin N → EReal) (hf : ∀ c, IsReal (f c)) (k : ℕ) (j : Fin B) :
    IsReal (tiled B f k j) := by
  unfold tiled ext
  split_ifs with h
  · exact hf _
  · exact ⟨0, EReal.coe_zero.symm⟩

/-- The largest entry over all tiles is the largest entry. -/
theorem sup_tiled {T B N : ℕ} (hB : 0 < B) (hN : T * B = N) (f : Fin N → EReal) :
    ((Finset.range T).sup fun k => (Finset.univ : Finset (Fin B)).sup (tiled B f k))
      = (Finset.univ : Finset (Fin N)).sup f := by
  apply le_antisymm
  · refine Finset.sup_le fun k hk => Finset.sup_le fun j _ => ?_
    rw [tiled_of_lt f j (tile_lt hN (Finset.mem_range.mp hk) j)]
    exact Finset.le_sup (f := f) (Finset.mem_univ _)
  · refine Finset.sup_le fun c _ => ?_
    have hk : c.val / B < T := by
      rw [Nat.div_lt_iff_lt_mul hB, hN]
      exact c.isLt
    have hc : c.val / B * B + c.val % B = c.val := Nat.div_add_mod' c.val B
    have hlt : c.val / B * B + (⟨c.val % B, Nat.mod_lt _ hB⟩ : Fin B).val < N := by
      show c.val / B * B + c.val % B < N
      rw [hc]
      exact c.isLt
    have hfc : f c = tiled B f (c.val / B) ⟨c.val % B, Nat.mod_lt _ hB⟩ := by
      rw [tiled_of_lt f _ hlt]
      congr 1
      exact Fin.ext hc.symm
    rw [hfc]
    exact le_trans (Finset.le_sup (f := tiled B f (c.val / B)) (Finset.mem_univ _))
      (Finset.le_sup (f := fun k => (Finset.univ : Finset (Fin B)).sup (tiled B f k)) (Finset.mem_range.mpr hk))

/-- The sum over Fin N is the double sum over the tile and the place in the tile. -/
theorem sum_tiled {T B N : ℕ} (hN : T * B = N) (g : Fin N → EReal) :
    ∑ c : Fin N, g c = ∑ k ∈ Finset.range T, ∑ j : Fin B, tiled B g k j := by
  have h1 : ∑ c : Fin N, g c = ∑ c ∈ Finset.range N, ext g c := by
    rw [Finset.sum_range]
    refine Finset.sum_congr rfl fun c _ => ?_
    show g c = ext g c.val
    rw [ext, dif_pos c.isLt]
  rw [h1]
  subst hN
  exact (Cert.Lib.Tiles.sum_tiles (ext g) B T).symm

/-! ### The assembly -/

/-- T = n + 1 tiles of width B of real scores and values: the running numerator over the running denominator after
    the last tile is softmax attention. -/
theorem online_general {N B : ℕ} (n : ℕ) (hB : 0 < B) (hN : (n + 1) * B = N) (S Vc : Fin N → EReal)
    (hS : ∀ j, IsReal (S j)) (hV : ∀ j, IsReal (Vc j)) :
    Ideal.div (onA (tiled B S) (tiled B Vc) (n + 1)) (onL (tiled B S) (n + 1)) = softRow S Vc := by
  have hN0 : 0 < N := by
    rw [← hN]
    exact Nat.mul_pos (Nat.succ_pos n) hB
  -- real witnesses of all tiles
  choose σ hσ using isReal_tiled (B := B) S hS
  choose ν hν using isReal_tiled (B := B) Vc hV
  obtain ⟨m, hm, hL, hA⟩ := closed_forms hB (tiled B S) (tiled B Vc) σ ν hσ hν n
  -- the running maximum after the last tile is the largest score
  have hM : (Finset.univ : Finset (Fin N)).sup S = (m : EReal) := by
    rw [← hm, onM_eq_sup, sup_tiled hB hN]
  -- the denominator: the sum over all places, tile by tile
  have hden : ∑ c : Fin N, Ideal.exp (S c - (Finset.univ : Finset (Fin N)).sup S)
      = ((∑ k ∈ Finset.range (n + 1), ∑ j : Fin B, Real.exp (σ k j - m) : ℝ) : EReal) := by
    rw [sum_tiled hN, coe_finset_sum]
    refine Finset.sum_congr rfl fun k hk => ?_
    rw [coe_finset_sum]
    refine Finset.sum_congr rfl fun j _ => ?_
    have h := tile_lt hN (Finset.mem_range.mp hk) j
    rw [tiled_of_lt _ j h, hM, ← tiled_of_lt S j h, hσ, ← EReal.coe_sub, Ideal.exp_coe]
  -- the numerator
  have hnum : ∑ c : Fin N, Ideal.exp (S c - (Finset.univ : Finset (Fin N)).sup S) * Vc c
      = ((∑ k ∈ Finset.range (n + 1), ∑ j : Fin B, Real.exp (σ k j - m) * ν k j : ℝ) : EReal) := by
    rw [sum_tiled hN, coe_finset_sum]
    refine Finset.sum_congr rfl fun k hk => ?_
    rw [coe_finset_sum]
    refine Finset.sum_congr rfl fun j _ => ?_
    have h := tile_lt hN (Finset.mem_range.mp hk) j
    rw [tiled_of_lt _ j h, hM, ← tiled_of_lt S j h, ← tiled_of_lt Vc j h, hσ, hν, ← EReal.coe_sub, Ideal.exp_coe,
      ← EReal.coe_mul]
  -- divide once = divide every weight
  have hsoft : softRow S Vc
      = Ideal.div (∑ c : Fin N, Ideal.exp (S c - (Finset.univ : Finset (Fin N)).sup S) * Vc c)
          (∑ c : Fin N, Ideal.exp (S c - (Finset.univ : Finset (Fin N)).sup S)) :=
    (Cert.Lib.AttnSwap.attn_div_swap hN0 S Vc hS hV).symm
  rw [hsoft, hnum, hden, hL, hA]

/-- 16 tiles of width 512 over 8192 keys. -/
theorem online_tiles (S Vc : Fin 8192 → EReal) (hS : ∀ j, Cert.Lib.AttnSwap.IsReal (S j))
    (hV : ∀ j, Cert.Lib.AttnSwap.IsReal (Vc j)) :
    Ideal.div (onA (tiled 512 S) (tiled 512 Vc) 16) (onL (tiled 512 S) 16) = softRow S Vc :=
  online_general 15 (by norm_num) (by norm_num) S Vc hS hV

end Cert.Attn

end
-- ==== Proof.Spec.lean ====
/-
  Attention of every query row against all key rows, as plain functions on the extended reals.

  A projection is a matrix product plus a bias row: entry (i, d) of x·W + b is (∑ k, x i k · W k d) + b d.  The score of
  query row i against key row j is the inner product ∑ d, Q i d · K j d (no scaling).  Full softmax attention weighs value
  row j by exp (S i j − M i) / ∑ j', exp (S i j' − M i), with M i the largest score of row i: the shifted softmax weights
  of the row of scores against column c of the values.
-/
import Idealize.ShloMosaic.PureOps.Ideal
import Idealize.ShloMosaic.Lib.ValueIdx
import proofs.«163872_j37400575213830_2_alg».proof.Proof.LibOnlineSoftmax

noncomputable section

namespace Cert.Attn

open Idealize.ShloMosaic Idealize.ShloMosaic.ValueIdx
open scoped BigOperators

/-- Entry (i, d) of x·W + b for x : [8192, 1024], W : [1024, 1024], b : [1024]. -/
def proj (x : (⟨2, ![8192, 1024]⟩ : Shape).Idx → EReal) (W : (⟨2, ![1024, 1024]⟩ : Shape).Idx → EReal)
    (b : (⟨1, ![1024]⟩ : Shape).Idx → EReal) (i : Fin 8192) (d : Fin 1024) : EReal :=
  (∑ k : Fin 1024, x (ix2 i k) * W (ix2 k d)) + b (ix1 d)

/-- The unscaled score of query row i against key row j. -/
def scoreAt (Q K : Fin 8192 → Fin 1024 → EReal) (i j : Fin 8192) : EReal := ∑ d : Fin 1024, Q i d * K j d

/-- Full softmax attention, entry (i, c). -/
def attnOut (Q K V : Fin 8192 → Fin 1024 → EReal) (i : Fin 8192) (c : Fin 1024) : EReal :=
  softRow (scoreAt Q K i) (fun j => V j c)

end Cert.Attn

end
-- ==== Proof.LibMinMaxInf.lean ====
/-
  `<minimumf>` and `<maximumf>` reductions read at the ideal instance as infima and suprema.

  Over the extended reals `minimumf` is `min` and `maximumf` is `max`, so a reduction from an initial value `b` over a finite
  family `f` is `b ⊓ ⨅ f` (`b ⊔ ⨆ f`), whatever the order the program folds in. Stated here for a kernel's
  `vector.multi_reduction` over one axis and for the host's one-operand `stablehlo.reduce` over one axis, at any rank and extents,
  with the two literals such reductions start from (`+inf` is `⊤`, `-inf` is `⊥`). A kernel that reduces lanes, then rows, then
  keeps a running minimum across grid points computes the same infimum as one reduction over the flattened axis: the last
  lemmas re-index an infimum through a bijection, over a product, and over `Fin (m * n)` as `Fin m × Fin n`
  (row `i`, column `j` at `j + n * i`).
-/
import Idealize.ShloMosaic.PureOps.Ideal
import Idealize.ShloMosaic.PureOps.Ideal.Laws
import Idealize.ShloMosaic.PureOps.Reduce
import Idealize.ShloMosaic.PureOps.Contract

noncomputable section

namespace Cert.Lib.MinMaxInf

open Idealize.ShloMosaic

variable {φ : FTy}

/-- The f32 pattern of `+inf` is the top of the extended reals. -/
theorem ofBits_posInf_f32 : Ideal.ofBits .f32 0x7F800000#32 = (⊤ : EReal) := by simp [Ideal.ofBits, Ideal.ieee]
/-- The f32 pattern of `-inf` is the bottom of the extended reals. -/
theorem ofBits_negInf_f32 : Ideal.ofBits .f32 0xFF800000#32 = (⊥ : EReal) := by simp [Ideal.ofBits, Ideal.ieee]

open Classical in
/-- A fold of `min` from `b` over a finite family is `b` met with the family's infimum. -/
theorem fold_min_eq_inf {ι : Type*} (s : Finset ι) (b : EReal) (f : ι → EReal) : s.fold min b f = b ⊓ s.inf f := by
  induction s using Finset.induction_on with
  | empty => simp
  | insert a s ha ih => rw [Finset.fold_insert ha, Finset.inf_insert, ih]; exact inf_left_comm _ _ _

open Classical in
/-- A fold of `max` from `b` over a finite family is `b` joined with the family's supremum. -/
theorem fold_max_eq_sup {ι : Type*} (s : Finset ι) (b : EReal) (f : ι → EReal) : s.fold max b f = b ⊔ s.sup f := by
  induction s using Finset.induction_on with
  | empty => simp
  | insert a s ha ih => rw [Finset.fold_insert ha, Finset.sup_insert, ih]; exact sup_left_comm _ _ _

/-- A float `vector.multi_reduction <minimumf>` over one axis, at the ideal instance: the accumulator's value met with the
    infimum over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Ideal.ofBits φ acc ⊓ (Finset.univ : Finset (Fin (s.size a))).inf (src ∘ h.lift j) : EReal) := by
  rw [multiReduction_minimumf_eq_fold, h.fold_filter_drop_single _ _ src j]
  exact fold_min_eq_inf _ _ _

/-- A float `vector.multi_reduction <maximumf>` over one axis, at the ideal instance: the accumulator's value joined with the
    supremum over that axis's coordinates. -/
theorem multiReduction_maximumf_single {s t : Shape} {a : Fin s.rank} (src : FVec Ideal s φ) (acc : BitVec φ.bits)
    (h : s.Reduces [a] t) (hφ : FKind.Formats φ) (hacc : acc = FKind.maximumf.neutral φ hφ) (j : t.Idx) :
    multiReduction .maximumf [a] t src acc h hφ hacc j
      = (Ideal.ofBits φ acc ⊔ (Finset.univ : Finset (Fin (s.size a))).sup (src ∘ h.lift j) : EReal) := by
  rw [multiReduction_maximumf_eq_fold, h.fold_filter_drop_single _ _ src j]
  exact fold_max_eq_sup _ _ _

/-- The host's `stablehlo.reduce` with a `minimum` body over one axis, at the ideal instance: the initial value met with
    the infimum over that axis's coordinates. -/
theorem hostReduce_minimumf_single {s t u : Shape} {a : Fin s.rank} (x : FVec Ideal s φ) (init : FVec Ideal u φ)
    (h' : s.ReducesTo [a] t) (h : s.Reduces [a] t) (hu : 0 < u.numel) (j : t.Idx) :
    Host.reduce (FloatOps.minimumf (F := Ideal) (φ := φ)) x init h' hu j
      = (init (Shape.Idx.first hu) ⊓ (Finset.univ : Finset (Fin (s.size a))).inf (x ∘ h.lift j) : EReal) := by
  rw [Host.reduce_eq_fold_single (FloatOps.minimumf (F := Ideal) (φ := φ)) x init h' h hu j]
  exact fold_min_eq_inf _ _ _

/-- The host's `stablehlo.reduce` with a `maximum` body over one axis, at the ideal instance: the initial value joined with
    the supremum over that axis's coordinates. -/
theorem hostReduce_maximumf_single {s t u : Shape} {a : Fin s.rank} (x : FVec Ideal s φ) (init : FVec Ideal u φ)
    (h' : s.ReducesTo [a] t) (h : s.Reduces [a] t) (hu : 0 < u.numel) (j : t.Idx) :
    Host.reduce (FloatOps.maximumf (F := Ideal) (φ := φ)) x init h' hu j
      = (init (Shape.Idx.first hu) ⊔ (Finset.univ : Finset (Fin (s.size a))).sup (x ∘ h.lift j) : EReal) := by
  rw [Host.reduce_eq_fold_single (FloatOps.maximumf (F := Ideal) (φ := φ)) x init h' h hu j]
  exact fold_max_eq_sup _ _ _

/-! ## Re-indexing an infimum or a supremum -/

/-- An infimum over a finite type does not change under a bijection of the index. -/
theorem inf_comp_equiv {ι κ : Type*} [Fintype ι] [Fintype κ] (e : ι ≃ κ) (f : κ → EReal) :
    (Finset.univ : Finset ι).inf (f ∘ e) = (Finset.univ : Finset κ).inf f :=
  calc (Finset.univ : Finset ι).inf (f ∘ e) = ((Finset.univ : Finset ι).map e.toEmbedding).inf f := (Finset.inf_map (Finset.univ : Finset ι) e.toEmbedding f).symm
    _ = (Finset.univ : Finset κ).inf f := by rw [Finset.map_univ_equiv]

/-- A supremum over a finite type does not change under a bijection of the index. -/
theorem sup_comp_equiv {ι κ : Type*} [Fintype ι] [Fintype κ] (e : ι ≃ κ) (f : κ → EReal) :
    (Finset.univ : Finset ι).sup (f ∘ e) = (Finset.univ : Finset κ).sup f :=
  calc (Finset.univ : Finset ι).sup (f ∘ e) = ((Finset.univ : Finset ι).map e.toEmbedding).sup f := (Finset.sup_map (Finset.univ : Finset ι) e.toEmbedding f).symm
    _ = (Finset.univ : Finset κ).sup f := by rw [Finset.map_univ_equiv]

/-- The infimum over pairs is the infimum of the infima. -/
theorem inf_prod {ι κ : Type*} [Fintype ι] [Fintype κ] (f : ι × κ → EReal) :
    (Finset.univ : Finset (ι × κ)).inf f = (Finset.univ : Finset ι).inf fun a => (Finset.univ : Finset κ).inf fun b => f (a, b) := by
  rw [← Finset.univ_product_univ, Finset.inf_product_left]

/-- The supremum over pairs is the supremum of the suprema. -/
theorem sup_prod {ι κ : Type*} [Fintype ι] [Fintype κ] (f : ι × κ → EReal) :
    (Finset.univ : Finset (ι × κ)).sup f = (Finset.univ : Finset ι).sup fun a => (Finset.univ : Finset κ).sup fun b => f (a, b) := by
  rw [← Finset.univ_product_univ, Finset.sup_product_left]

/-- An infimum over `m * n` consecutive positions, taken row by row: position `j + n * i` is column `j` of row `i`
    (`finProdFinEquiv_apply_val`). What joins a reduction over a flattened axis to a reduction tile by tile. -/
theorem inf_fin_mul {m n : Nat} (f : Fin (m * n) → EReal) :
    (Finset.univ : Finset (Fin (m * n))).inf f
      = (Finset.univ : Finset (Fin m)).inf fun i => (Finset.univ : Finset (Fin n)).inf fun j => f (finProdFinEquiv (i, j)) := by
  rw [← inf_comp_equiv finProdFinEquiv f, inf_prod]; rfl

/-- A supremum over `m * n` consecutive positions, taken row by row. -/
theorem sup_fin_mul {m n : Nat} (f : Fin (m * n) → EReal) :
    (Finset.univ : Finset (Fin (m * n))).sup f
      = (Finset.univ : Finset (Fin m)).sup fun i => (Finset.univ : Finset (Fin n)).sup fun j => f (finProdFinEquiv (i, j)) := by
  rw [← sup_comp_equiv finProdFinEquiv f, sup_prod]; rfl

end Cert.Lib.MinMaxInf

end
-- ==== Proof.LibHostRowMax.lean ====
/-
  The host's maximum of a matrix along its second axis, on the extended reals, read at a row.

  `stablehlo.reduce` with a `maximum` body over axis 1 of an [a, b] array, started from −∞ (the initial value's word is the
  bottom of the extended reals), is at row i the supremum of the entries (i, k): the rank-2 companion of the lane reduction
  `jnp.max(x, axis=-1)` inside a kernel.  No finiteness is needed.
-/
import proofs.«163872_j37400575213830_2_alg».proof.Proof.LibMinMaxInf
import Idealize.ShloMosaic.Lib.ValueIdx

noncomputable section

namespace Cert.Lib.HostRowMax

open Idealize.ShloMosaic Idealize.ShloMosaic.ValueIdx

/-- The host's maximum of an [a, b] array along its second axis, started from −∞, is at row i the supremum of that row. -/
theorem hostRowMax_apply {a b : ℕ} {u : Shape} (x : FVec Ideal ⟨2, ![a, b]⟩ .f32) (init : FVec Ideal u .f32)
    (h' : (⟨2, ![a, b]⟩ : Shape).ReducesTo [(1 : Fin 2)] ⟨1, ![a]⟩)
    (h : (⟨2, ![a, b]⟩ : Shape).Reduces [(1 : Fin 2)] ⟨1, ![a]⟩) (hu : 0 < u.numel)
    (hinit : init (Shape.Idx.first hu) = Ideal.ofBits .f32 0xFF800000#32) (i : Fin a) :
    Host.reduce (FloatOps.maximumf (F := Ideal) (φ := .f32)) x init h' hu (ix1 i)
      = (Finset.univ : Finset (Fin b)).sup fun k => x (ix2 i k) := by
  refine (Cert.Lib.MinMaxInf.hostReduce_maximumf_single x init h' h hu (ix1 i)).trans ?_
  rw [hinit, Cert.Lib.MinMaxInf.ofBits_negInf_f32, bot_sup_eq]
  exact Finset.sup_congr rfl fun k _ => congrArg x (funext fun c => Fin.ext (by
    match c with
    | ⟨0, _⟩ => rfl
    | ⟨1, _⟩ => rfl))

end Cert.Lib.HostRowMax

end
-- ==== Proof.RefSpec.lean ====
/-
  The reference program's result, read at an index, is full softmax attention of the three projections.

  The program forms q = x·Wq + bq, k = x·Wk + bk, v = x·Wv + bv, the scores q·kᵀ, a softmax along every row of the scores
  (row maximum started from −∞ and joined with −∞ once more, subtraction, exponential, row sum started from 0, quotient), and
  the product of the weights with v.  Read entry by entry on the extended reals:
    * entry (i, d) of a projection is (∑ k, x i k · W k d) + b d;
    * entry (i, j) of the scores is ∑ d, q i d · k j d (the transpose only swaps the two coordinates of k);
    * the row maximum is the supremum of the row, since max ⊥ y = y;
    * the row sum is the sum of the shifted exponentials, since 0 + y = y;
    * entry (i, c) of the result is ∑ j, (e i j / ∑ j', e i j') · v j c with e i j = exp (s i j − sup s i).
  No finiteness is used: the two unit laws hold on all of the extended reals.
-/
import proofs.«163872_j37400575213830_2_alg».proof.Proof.Gen.ReferenceIdeal.Run
import proofs.«163872_j37400575213830_2_alg».proof.Proof.Gen.ReferenceIdeal.Read
import proofs.«163872_j37400575213830_2_alg».proof.Proof.Spec
import proofs.«163872_j37400575213830_2_alg».proof.Proof.LibHostRowMax

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem
open scoped BigOperators

variable (a0 : (⟨S8192x1024, .f32⟩ : BufTy).Contents (Elt Ideal)) (a1 : (⟨S1024x1024, .f32⟩ : BufTy).Contents (Elt Ideal))
  (a2 : (⟨S1024, .f32⟩ : BufTy).Contents (Elt Ideal)) (a3 : (⟨S1024x1024, .f32⟩ : BufTy).Contents (Elt Ideal))
  (a4 : (⟨S1024, .f32⟩ : BufTy).Contents (Elt Ideal)) (a5 : (⟨S1024x1024, .f32⟩ : BufTy).Contents (Elt Ideal))
  (a6 : (⟨S1024, .f32⟩ : BufTy).Contents (Elt Ideal))

/-! ## The three projections -/

/-- Entry (i, d) of x·Wq + bq. -/
theorem v3_eq (i : Fin 8192) (d : Fin 1024) :
    val_main_v3 (F := Ideal) a0 a1 a2 (ix2 i d) = Cert.Attn.proj a0 a1 a2 i d := by
  rw [val_main_v3_apply, val_main_v0_apply, val_main_v2_apply, val_main_v1_apply]
  simp only [Ideal.addf_def]
  unfold Cert.Attn.proj
  refine congrArg₂ (· + ·) (Finset.sum_congr rfl fun k _ => congrArg₂ (· * ·) (congrArg a0 ?_) (congrArg a1 ?_)) (congrArg a2 ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- Entry (i, d) of x·Wk + bk. -/
theorem v7_eq (i : Fin 8192) (d : Fin 1024) :
    val_main_v7 (F := Ideal) a0 a3 a4 (ix2 i d) = Cert.Attn.proj a0 a3 a4 i d := by
  rw [val_main_v7_apply, val_main_v4_apply, val_main_v6_apply, val_main_v5_apply]
  simp only [Ideal.addf_def]
  unfold Cert.Attn.proj
  refine congrArg₂ (· + ·) (Finset.sum_congr rfl fun k _ => congrArg₂ (· * ·) (congrArg a0 ?_) (congrArg a3 ?_)) (congrArg a4 ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- Entry (i, d) of x·Wv + bv. -/
theorem v11_eq (i : Fin 8192) (d : Fin 1024) :
    val_main_v11 (F := Ideal) a0 a5 a6 (ix2 i d) = Cert.Attn.proj a0 a5 a6 i d := by
  rw [val_main_v11_apply, val_main_v8_apply, val_main_v10_apply, val_main_v9_apply]
  simp only [Ideal.addf_def]
  unfold Cert.Attn.proj
  refine congrArg₂ (· + ·) (Finset.sum_congr rfl fun k _ => congrArg₂ (· * ·) (congrArg a0 ?_) (congrArg a5 ?_)) (congrArg a6 ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-! ## The scores, their row maximum, the shifted exponentials and their row sum -/

/-- Entry (i, j) of q·kᵀ is the inner product of query row i and key row j. -/
theorem v13_eq (i j : Fin 8192) :
    val_main_v13 (F := Ideal) a0 a1 a2 a3 a4 (ix2 i j)
      = Cert.Attn.scoreAt (Cert.Attn.proj a0 a1 a2) (Cert.Attn.proj a0 a3 a4) i j := by
  rw [val_main_v13_apply]
  unfold Cert.Attn.scoreAt
  refine Finset.sum_congr rfl fun k _ => ?_
  rw [val_main_v12_apply]
  have e1 : lidx_main_v13 (ix2 i j) k = ix2 i k :=
    funext fun a => Fin.ext (by match a with | ⟨0, _⟩ => rfl | ⟨1, _⟩ => rfl)
  have e2 : idx_main_v12 (ridx_main_v13 (ix2 i j) k) = ix2 j k :=
    funext fun a => Fin.ext (by match a with | ⟨0, _⟩ => rfl | ⟨1, _⟩ => rfl)
  rw [e1, e2, v3_eq, v7_eq]

/-- The row maximum, started from −∞ and joined with −∞ once more, is the supremum of the row of scores. -/
theorem v16_eq (i : Fin 8192) :
    val_main_v16 (F := Ideal) a0 a1 a2 a3 a4 (ix1 i)
      = (Finset.univ : Finset (Fin 8192)).sup (Cert.Attn.scoreAt (Cert.Attn.proj a0 a1 a2) (Cert.Attn.proj a0 a3 a4) i) := by
  rw [val_main_v16_apply, val_main_v15_apply, val_main_cst_0_apply]
  simp only [Ideal.maximumf_def, Ideal.ofBits_def]
  rw [Cert.Lib.MinMaxInf.ofBits_negInf_f32, max_eq_right bot_le]
  unfold val_main_v14
  refine (Cert.Lib.HostRowMax.hostRowMax_apply (val_main_v13 (F := Ideal) a0 a1 a2 a3 a4) (val_main_cst (F := Ideal))
    reducesTo_S8192x8192_S8192_d1 (by decide) h_S_ rfl i).trans ?_
  exact Finset.sup_congr rfl fun k _ => v13_eq a0 a1 a2 a3 a4 i k

/-- Entry (i, j) of the shifted exponentials. -/
theorem v20_eq (i j : Fin 8192) :
    val_main_v20 (F := Ideal) a0 a1 a2 a3 a4 (ix2 i j)
      = Ideal.exp (Cert.Attn.scoreAt (Cert.Attn.proj a0 a1 a2) (Cert.Attn.proj a0 a3 a4) i j
          - (Finset.univ : Finset (Fin 8192)).sup (Cert.Attn.scoreAt (Cert.Attn.proj a0 a1 a2) (Cert.Attn.proj a0 a3 a4) i)) := by
  rw [val_main_v20_apply, val_main_v19_apply, val_main_v18_apply, val_main_v17_apply]
  simp only [Ideal.hostUnary_exp_def, Ideal.subf_def]
  have e : idx_main_v17 (idx_main_v18 (ix2 i j)) = ix1 i :=
    funext fun a => Fin.ext (by match a with | ⟨0, _⟩ => rfl)
  rw [e, v13_eq, v16_eq]

/-- The row sum of the shifted exponentials, started from 0. -/
theorem v21_eq (i : Fin 8192) :
    val_main_v21 (F := Ideal) a0 a1 a2 a3 a4 (ix1 i)
      = ∑ j' : Fin 8192, Ideal.exp (Cert.Attn.scoreAt (Cert.Attn.proj a0 a1 a2) (Cert.Attn.proj a0 a3 a4) i j'
          - (Finset.univ : Finset (Fin 8192)).sup (Cert.Attn.scoreAt (Cert.Attn.proj a0 a1 a2) (Cert.Attn.proj a0 a3 a4) i)) := by
  rw [val_main_v21_apply, val_main_cst_1_apply]
  simp only [Ideal.ofBits_def]
  rw [Ideal.ofBits_zero_f32, zero_add]
  refine Finset.sum_congr rfl fun k _ => ?_
  have e : idx_main_v21 (ix1 i) k = ix2 i k :=
    funext fun a => Fin.ext (by match a with | ⟨0, _⟩ => rfl | ⟨1, _⟩ => rfl)
  rw [e, v20_eq]

/-- Entry (i, j) of the softmax weights. -/
theorem v24_eq (i j : Fin 8192) :
    val_main_v24 (F := Ideal) a0 a1 a2 a3 a4 (ix2 i j)
      = Ideal.div
          (Ideal.exp (Cert.Attn.scoreAt (Cert.Attn.proj a0 a1 a2) (Cert.Attn.proj a0 a3 a4) i j
            - (Finset.univ : Finset (Fin 8192)).sup (Cert.Attn.scoreAt (Cert.Attn.proj a0 a1 a2) (Cert.Attn.proj a0 a3 a4) i)))
          (∑ j' : Fin 8192, Ideal.exp (Cert.Attn.scoreAt (Cert.Attn.proj a0 a1 a2) (Cert.Attn.proj a0 a3 a4) i j'
            - (Finset.univ : Finset (Fin 8192)).sup (Cert.Attn.scoreAt (Cert.Attn.proj a0 a1 a2) (Cert.Attn.proj a0 a3 a4) i))) := by
  rw [val_main_v24_apply, val_main_v23_apply, val_main_v22_apply]
  simp only [Ideal.hostDivf_def]
  have e : idx_main_v22 (idx_main_v23 (ix2 i j)) = ix1 i :=
    funext fun a => Fin.ext (by match a with | ⟨0, _⟩ => rfl)
  rw [e, v20_eq, v21_eq]

/-! ## The result -/

/-- Entry (i, c) of the reference's result is full softmax attention of the three projections. -/
theorem ref_eq (i : Fin 8192) (c : Fin 1024) :
    val_main_v25 (F := Ideal) a0 a1 a2 a3 a4 a5 a6 (ix2 i c)
      = Cert.Attn.attnOut (Cert.Attn.proj a0 a1 a2) (Cert.Attn.proj a0 a3 a4) (Cert.Attn.proj a0 a5 a6) i c := by
  rw [val_main_v25_apply]
  unfold Cert.Attn.attnOut Cert.Attn.softRow
  refine Finset.sum_congr rfl fun k _ => ?_
  have e1 : lidx_main_v25 (ix2 i c) k = ix2 i k :=
    funext fun a => Fin.ext (by match a with | ⟨0, _⟩ => rfl | ⟨1, _⟩ => rfl)
  have e2 : ridx_main_v25 (ix2 i c) k = ix2 k c :=
    funext fun a => Fin.ext (by match a with | ⟨0, _⟩ => rfl | ⟨1, _⟩ => rfl)
  rw [e1, e2, v24_eq, v11_eq]

/-- The same, for the term the reference's run states for its result buffer, read from a memory. -/
theorem ref_run_eq (m : (ℓ : Loc nD τ sig) → Buf (Elt Ideal) ℓ) (d : Dev nD) (i : Fin 8192) (c : Fin 1024) :
    Cert.ReferenceIdeal.Value.res_main_v25 (F := Ideal) m d (ix2 i c)
      = Cert.Attn.attnOut
          (Cert.Attn.proj (m ((d.tc : Thread nD τ).loc main_arg0)) (m ((d.tc : Thread nD τ).loc main_arg1)) (m ((d.tc : Thread nD τ).loc main_arg2)))
          (Cert.Attn.proj (m ((d.tc : Thread nD τ).loc main_arg0)) (m ((d.tc : Thread nD τ).loc main_arg3)) (m ((d.tc : Thread nD τ).loc main_arg4)))
          (Cert.Attn.proj (m ((d.tc : Thread nD τ).loc main_arg0)) (m ((d.tc : Thread nD τ).loc main_arg5)) (m ((d.tc : Thread nD τ).loc main_arg6))) i c := by
  rw [val_main_v25_eq]
  exact ref_eq _ _ _ _ _ _ _ i c

end Cert.ReferenceIdeal.RefValue

end
-- ==== Proof.HostVals.lean ====
/-
  What the kernel program's first six host operations leave in their result buffers, on the extended reals.

  The three conversions to a narrower float format are the identity on the extended reals, so each converted weight
  matrix is the argument matrix it was converted from.  The three reshapes of a bias vector [1024] to a one-row matrix
  [1, 1024] keep the entries in row-major order: entry (0, d) of the row is entry d of the vector.  No host operation
  writes an argument buffer, so all seven hold their launch contents.
-/
import proofs.«163872_j37400575213830_2_alg».proof.Proof.Gen.KernelIdeal.Launch
import Idealize.ShloMosaic.Lib.StableHlo.Run
import Idealize.ShloMosaic.Lib.ValueLayout
import Idealize.ShloMosaic.PureOps.Ideal

noncomputable section

namespace Cert.KernelIdeal.Frame

open Cert.KernelIdeal Cert.KernelIdeal.Gen Idealize.ShloMosaic Idealize.ShloMosaic.TcCoe Idealize.ShloMosaic.ValueIdx
  Idealize.ShloMosaic.StableHlo Idealize.SL.Sem

variable (m : (ℓ : Loc nD τ sig) → Buf (Elt Ideal) ℓ) (c : Dev nD)

/-- No host operation writes argument main_arg0. -/
theorem W1_main_arg0 :
    StableHlo.after (hostOps0 (F := Ideal)) (fun b => m (c, b)) (Proc.devRef .tc main_arg0) = m ((c : Thread nD τ).loc main_arg0) := by
  dsimp only [hostOps0]; after_results; all_goals rfl

/-- No host operation writes argument main_arg1. -/
theorem W1_main_arg1 :
    StableHlo.after (hostOps0 (F := Ideal)) (fun b => m (c, b)) (Proc.devRef .tc main_arg1) = m ((c : Thread nD τ).loc main_arg1) := by
  dsimp only [hostOps0]; after_results; all_goals rfl

/-- No host operation writes argument main_arg2. -/
theorem W1_main_arg2 :
    StableHlo.after (hostOps0 (F := Ideal)) (fun b => m (c, b)) (Proc.devRef .tc main_arg2) = m ((c : Thread nD τ).loc main_arg2) := by
  dsimp only [hostOps0]; after_results; all_goals rfl

/-- No host operation writes argument main_arg3. -/
theorem W1_main_arg3 :
    StableHlo.after (hostOps0 (F := Ideal)) (fun b => m (c, b)) (Proc.devRef .tc main_arg3) = m ((c : Thread nD τ).loc main_arg3) := by
  dsimp only [hostOps0]; after_results; all_goals rfl

/-- No host operation writes argument main_arg4. -/
theorem W1_main_arg4 :
    StableHlo.after (hostOps0 (F := Ideal)) (fun b => m (c, b)) (Proc.devRef .tc main_arg4) = m ((c : Thread nD τ).loc main_arg4) := by
  dsimp only [hostOps0]; after_results; all_goals rfl

/-- No host operation writes argument main_arg5. -/
theorem W1_main_arg5 :
    StableHlo.after (hostOps0 (F := Ideal)) (fun b => m (c, b)) (Proc.devRef .tc main_arg5) = m ((c : Thread nD τ).loc main_arg5) := by
  dsimp only [hostOps0]; after_results; all_goals rfl

/-- No host operation writes argument main_arg6. -/
theorem W1_main_arg6 :
    StableHlo.after (hostOps0 (F := Ideal)) (fun b => m (c, b)) (Proc.devRef .tc main_arg6) = m ((c : Thread nD τ).loc main_arg6) := by
  dsimp only [hostOps0]; after_results; all_goals rfl

/-- The converted query weights are the query weights: conversion to a narrower format is the identity on the extended
    reals. -/
theorem W1_main_v0 :
    @Eq (S1024x1024.Idx → EReal) (StableHlo.after (hostOps0 (F := Ideal)) (fun b => m (c, b)) (Proc.devRef .tc main_v0)) (m ((c : Thread nD τ).loc main_arg1)) := by
  have e : @Eq (S1024x1024.Idx → EReal) (StableHlo.after (hostOps0 (F := Ideal)) (fun b => m (c, b)) (Proc.devRef .tc main_v0))
      (truncf (F := Ideal) (φ := .f32) .bf16 (m ((c : Thread nD τ).loc main_arg1)) bitsLt_bf16_f32) := by
    dsimp only [hostOps0]; after_results; all_goals rfl
  exact e.trans rfl

/-- The same, entry by entry. -/
theorem W1_main_v0_apply (idx : S1024x1024.Idx) :
    StableHlo.after (hostOps0 (F := Ideal)) (fun b => m (c, b)) (Proc.devRef .tc main_v0) idx = m ((c : Thread nD τ).loc main_arg1) idx :=
  congrFun (W1_main_v0 m c) idx

/-- The converted key weights are the key weights: conversion to a narrower format is the identity on the extended
    reals. -/
theorem W1_main_v1 :
    @Eq (S1024x1024.Idx → EReal) (StableHlo.after (hostOps0 (F := Ideal)) (fun b => m (c, b)) (Proc.devRef .tc main_v1)) (m ((c : Thread nD τ).loc main_arg3)) := by
  have e : @Eq (S1024x1024.Idx → EReal) (StableHlo.after (hostOps0 (F := Ideal)) (fun b => m (c, b)) (Proc.devRef .tc main_v1))
      (truncf (F := Ideal) (φ := .f32) .bf16 (m ((c : Thread nD τ).loc main_arg3)) bitsLt_bf16_f32) := by
    dsimp only [hostOps0]; after_results; all_goals rfl
  exact e.trans rfl

/-- The same, entry by entry. -/
theorem W1_main_v1_apply (idx : S1024x1024.Idx) :
    StableHlo.after (hostOps0 (F := Ideal)) (fun b => m (c, b)) (Proc.devRef .tc main_v1) idx = m ((c : Thread nD τ).loc main_arg3) idx :=
  congrFun (W1_main_v1 m c) idx

/-- The converted value weights are the value weights: conversion to a narrower format is the identity on the extended
    reals. -/
theorem W1_main_v2 :
    @Eq (S1024x1024.Idx → EReal) (StableHlo.after (hostOps0 (F := Ideal)) (fun b => m (c, b)) (Proc.devRef .tc main_v2)) (m ((c : Thread nD τ).loc main_arg5)) := by
  have e : @Eq (S1024x1024.Idx → EReal) (StableHlo.after (hostOps0 (F := Ideal)) (fun b => m (c, b)) (Proc.devRef .tc main_v2))
      (truncf (F := Ideal) (φ := .f32) .bf16 (m ((c : Thread nD τ).loc main_arg5)) bitsLt_bf16_f32) := by
    dsimp only [hostOps0]; after_results; all_goals rfl
  exact e.trans rfl

/-- The same, entry by entry. -/
theorem W1_main_v2_apply (idx : S1024x1024.Idx) :
    StableHlo.after (hostOps0 (F := Ideal)) (fun b => m (c, b)) (Proc.devRef .tc main_v2) idx = m ((c : Thread nD τ).loc main_arg5) idx :=
  congrFun (W1_main_v2 m c) idx

/-- The query bias as a one-row matrix: entry (0, d) of the row is entry d of the vector. -/
theorem W1_main_v3 (d : Fin 1024) :
    StableHlo.after (hostOps0 (F := Ideal)) (fun b => m (c, b)) (Proc.devRef .tc main_v3) (ix2 (0 : Fin 1) d) = m ((c : Thread nD τ).loc main_arg2) (ix1 d) := by
  have e : @Eq (S1x1024.Idx → EReal) (StableHlo.after (hostOps0 (F := Ideal)) (fun b => m (c, b)) (Proc.devRef .tc main_v3))
      (shapeCast S1x1024 (m ((c : Thread nD τ).loc main_arg2)) shapeCasts_S1024_S1x1024) := by
    dsimp only [hostOps0]; after_results; all_goals rfl
  exact (congrFun e (ix2 (0 : Fin 1) d)).trans (shapeCast_a_1a_apply _ _ 0 d)

/-- The key bias as a one-row matrix: entry (0, d) of the row is entry d of the vector. -/
theorem W1_main_v4 (d : Fin 1024) :
    StableHlo.after (hostOps0 (F := Ideal)) (fun b => m (c, b)) (Proc.devRef .tc main_v4) (ix2 (0 : Fin 1) d) = m ((c : Thread nD τ).loc main_arg4) (ix1 d) := by
  have e : @Eq (S1x1024.Idx → EReal) (StableHlo.after (hostOps0 (F := Ideal)) (fun b => m (c, b)) (Proc.devRef .tc main_v4))
      (shapeCast S1x1024 (m ((c : Thread nD τ).loc main_arg4)) shapeCasts_S1024_S1x1024) := by
    dsimp only [hostOps0]; after_results; all_goals rfl
  exact (congrFun e (ix2 (0 : Fin 1) d)).trans (shapeCast_a_1a_apply _ _ 0 d)

/-- The value bias as a one-row matrix: entry (0, d) of the row is entry d of the vector. -/
theorem W1_main_v5 (d : Fin 1024) :
    StableHlo.after (hostOps0 (F := Ideal)) (fun b => m (c, b)) (Proc.devRef .tc main_v5) (ix2 (0 : Fin 1) d) = m ((c : Thread nD τ).loc main_arg6) (ix1 d) := by
  have e : @Eq (S1x1024.Idx → EReal) (StableHlo.after (hostOps0 (F := Ideal)) (fun b => m (c, b)) (Proc.devRef .tc main_v5))
      (shapeCast S1x1024 (m ((c : Thread nD τ).loc main_arg6)) shapeCasts_S1024_S1x1024) := by
    dsimp only [hostOps0]; after_results; all_goals rfl
  exact (congrFun e (ix2 (0 : Fin 1) d)).trans (shapeCast_a_1a_apply _ _ 0 d)

end Cert.KernelIdeal.Frame

end
-- ==== Proof.LibDense.lean ====
/-
  Dense layers on the extended reals, index by index.

  A matrix product with one contracted axis, however the contraction's index type is presented, is at entry (p, q)
  the sum over k of x(p, k) · w(k, q).  This file fixes that reading for the plain two-dimensional product
  [M, K] × [K, N] → [M, N] (left axis 1 against right axis 0), both for the matrix unit's product into a zero
  accumulator and for the host's general dot product, and adds the bias row and the activation:
    dense x w b (p, q)     = (∑ k, x(p, k) · w(k, q)) + b(q)
  No finiteness is needed anywhere: only the definitions of the operations and a re-indexing of the sum.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.Lib.Dense

open Idealize.ShloMosaic Idealize.ShloMosaic.ValueIdx
open scoped BigOperators

/-- Row `p` of `x` against column `q` of `w`. -/
def rowDot {M K N : ℕ} (x : (⟨2, ![M, K]⟩ : Shape).Idx → EReal) (w : (⟨2, ![K, N]⟩ : Shape).Idx → EReal)
    (p : Fin M) (q : Fin N) : EReal :=
  ∑ k : Fin K, x (ix2 p k) * w (ix2 k q)

/-- A contraction over one axis is the sum over that axis's coordinate. -/
theorem contr_sum {sl sr so : Shape} (D : DotDims sl sr so) (K : ℕ) (hr : D.contr.rank = 1)
    (hs : D.contr.size ⟨0, by omega⟩ = K) (f : sl.Idx → EReal) (g : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, f (D.lhsIdx j k) * g (D.rhsIdx j k) = ∑ k : Fin K, f (L k) * g (R k) := by
  rw [← Equiv.sum_comp (contrEquiv1 D K hr hs).symm]
  exact Finset.sum_congr rfl fun k _ => by rw [hL k, hR k]

section Plain

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc in
theorem plain_rank : D.contr.rank = 1 := by rw [D.rank_contr, hlc]; rfl

include hlc in
theorem plain_size : D.contr.size ⟨0, by rw [plain_rank D hlc]; exact Nat.one_pos⟩ = K := by
  have := D.size_contr 0 (by rw [hlc]; exact Nat.one_pos)
  rw [this]
  simp [hlc]

include hln hlb in
/-- The left operand's free coordinate is the result's row. -/
theorem plain_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate is the result's column. -/
theorem plain_rhs1 (j : (⟨2, ![M, N]⟩ : Shape).Idx) (k : D.contr.Idx) : (D.rhsIdx j k 1).val = (j 1).val := by
  have hb : (1 : Fin 2) ∉ D.rhsBatch := by rw [hrb]; simp
  have hn : (1 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction of a plain product at entry `(p, q)` is the row of `x` against the column of `w`. -/
theorem plain_sum (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = rowDot f g p q := by
  refine contr_sum D K (plain_rank D hlc) (plain_size D hlc) f g (ix2 p q) (fun k => ix2 p k) (fun k => ix2 k q) (fun k => ?_) (fun k => ?_)
  · funext a; apply Fin.ext
    match a with
    | ⟨0, _⟩ => exact plain_lhs0 D hln hlb (ix2 p q) _
    | ⟨1, _⟩ => exact (D.lhsIdx_val_of_single hlc (ix2 p q) _).trans (contrEquiv1_symm_val D K (plain_rank D hlc) (plain_size D hlc) k)
  · funext a; apply Fin.ext
    match a with
    | ⟨0, _⟩ => exact (D.rhsIdx_val_of_single hrc (ix2 p q) _).trans (contrEquiv1_symm_val D K (plain_rank D hlc) (plain_size D hlc) k)
    | ⟨1, _⟩ => exact plain_rhs1 D hln hrn hlb hrb (ix2 p q) _

include hlc hrc hln hrn hlb hrb in
/-- The matrix unit's product into a zero accumulator, at entry `(p, q)`. -/
theorem matmul_zero_at {φ₁ φ₂ : FTy} (x : FVec Ideal ⟨2, ![M, K]⟩ φ₁) (w : FVec Ideal ⟨2, ![K, N]⟩ φ₂) (p : Fin M) (q : Fin N) :
    matmul D none x w (constant ⟨2, ![M, N]⟩ .f32 0x00000000#32) (ix2 p q) = rowDot x w p q :=
  (Ideal.matmul_constant_zero_apply D none x w (ix2 p q)).trans (plain_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![K, N]⟩ φ₂) (p : Fin M) (q : Fin N) :
    Host.dotGeneral D none x w (ix2 p q) = rowDot x w p q :=
  (Ideal.dotGeneral_apply D none .single x w (ix2 p q)).trans (plain_sum D hlc hrc hln hrn hlb hrb x w p q)

end Plain

/-- A dense layer as one function of whole arrays: entry `(p, q)` is `act` of row `p` of `x` against column `q` of
    `w` plus the bias row's entry `q`. -/
def dense {M K N : ℕ} (act : EReal → EReal) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => act (rowDot x w (i 0) (i 1) + b (ix2 (0 : Fin 1) (i 1)))

theorem dense_ix2 {M K N : ℕ} (act : EReal → EReal) (x : (⟨2, ![M, K]⟩ : Shape).Idx → EReal) (w : (⟨2, ![K, N]⟩ : Shape).Idx → EReal)
    (b : (⟨2, ![1, N]⟩ : Shape).Idx → EReal) (p : Fin M) (q : Fin N) :
    dense act x w b (ix2 p q) = act (rowDot x w p q + b (ix2 (0 : Fin 1) q)) := rfl

/-- The combine step as one function of whole arrays: entry `(p, q)` is
    `tanh((a(p, q) + h(p, q) · d(p, 0)) + b(0, q))`. -/
def combine {M N : ℕ} (a h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => Ideal.tanh ((a i + h i * d (ix2 (i 0) (0 : Fin 1))) + b (ix2 (0 : Fin 1) (i 1)))

theorem combine_ix2 {M N : ℕ} (a h : (⟨2, ![M, N]⟩ : Shape).Idx → EReal) (d : (⟨2, ![M, 1]⟩ : Shape).Idx → EReal)
    (b : (⟨2, ![1, N]⟩ : Shape).Idx → EReal) (p : Fin M) (q : Fin N) :
    combine a h d b (ix2 p q)
      = Ideal.tanh ((a (ix2 p q) + h (ix2 p q) * d (ix2 p (0 : Fin 1))) + b (ix2 (0 : Fin 1) q)) := rfl

end Cert.Lib.Dense

end
-- ==== Proof.ValueR0.lean ====
/-
  The arrays the first pipeline (the projection kernel) leaves, on the extended reals, over the contents V the pipeline
  is entered with.

  Each grid point t computes, from the block of 512 rows of x at row offset 512·t, the whole weight array and the whole
  bias row, the block  x·W + b  of 512 rows and writes it back at row offset 512·t of its output array; the sixteen
  blocks tile the 8192 rows.  On the extended reals narrowing to bf16 is the identity and a product accumulated from
  zero is the plain sum over the contracted coordinate, so the entry (p, q) of a point's block is row p of its x block
  against column q of W, plus b(q), which is entry (512·t + p, q) of the whole-array function
      G X W b (i, d) = (∑ k, X(i, k) · W(k, d)) + b(0, d).
  Every point writes back its block of G, and every row lies in the block of point  row / 512 ; so each output array
  ends holding G of the input arrays.
-/
import proofs.«163872_j37400575213830_2_alg».proof.Proof.Region0
import proofs.«163872_j37400575213830_2_alg».proof.Proof.LibDense
import Idealize.ShloMosaic.Lib.Pipeline.Value
import Idealize.ShloMosaic.Lib.ValueLayout
import Idealize.ShloMosaic.Lib.ValueIdx

set_option maxRecDepth 16384

noncomputable section

namespace Cert.KernelIdeal.Frame

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The whole-array function and the payloads at an entry -/

/-- Entry (i, d) of X·W + b, the bias a single row. -/
def projG (X : S8192x1024.Idx → EReal) (W : S1024x1024.Idx → EReal) (b : S1x1024.Idx → EReal) : S8192x1024.Idx → EReal :=
  fun I => (∑ k : Fin 1024, X (ix2 (I 0) k) * W (ix2 k (I 1))) + b (ix2 (0 : Fin 1) (I 1))

theorem projG_ix2 (X : S8192x1024.Idx → EReal) (W : S1024x1024.Idx → EReal) (b : S1x1024.Idx → EReal) (i : Fin 8192) (d : Fin 1024) :
    projG X W b (ix2 i d) = (∑ k : Fin 1024, X (ix2 i k) * W (ix2 k d)) + b (ix2 (0 : Fin 1) d) := rfl

/-- The payload of the store into output window 7, at entry (p, q): row p of the x block against column q of the
    weights, plus the bias row's entry q. -/
theorem pay7_apply (x : Vec Ideal S512x1024 .f32) (W : Vec Ideal S1024x1024 .bf16) (b : Vec Ideal S1x1024 .f32) (p : Fin 512) (q : Fin 1024) :
    k0_pay2 x W b (ix2 p q) = (∑ k : Fin 1024, x (ix2 p k) * W (ix2 k q)) + b (ix2 (0 : Fin 1) q) := by
  show addf (F := Ideal) (matmul dot_S512x1024_S1024x1024_S512x1024_1_0_0_1_n_n none (truncf .bf16 x bitsLt_bf16_f32)
      (shapeCast S1024x1024 W shapeCasts_S1024x1024_S1024x1024) (constant S512x1024 .f32 0x00000000#32))
    (broadcastTo S512x1024 (shapeCast S1x1024 b shapeCasts_S1x1024_S1x1024) broadcasts_S1x1024_S512x1024) (ix2 p q) = _
  rw [shapeCast_self, shapeCast_self]
  refine congrArg₂ (fun u v : EReal => u + v) ?_ ?_
  · exact Cert.Lib.Dense.matmul_zero_at dot_S512x1024_S1024x1024_S512x1024_1_0_0_1_n_n rfl rfl rfl rfl rfl rfl
      (truncf .bf16 x bitsLt_bf16_f32) W p q
  · exact broadcastTo_1b_ab_apply b broadcasts_S1x1024_S512x1024 p q

/-- The same at a block index j, against whole arrays whose rows and columns the blocks are. -/
theorem pay7_block (xb : Vec Ideal S512x1024 .f32) (Wb : Vec Ideal S1024x1024 .bf16) (bb : Vec Ideal S1x1024 .f32)
    (X : S8192x1024.Idx → EReal) (W : S1024x1024.Idx → EReal) (b : S1x1024.Idx → EReal)
    (j : S512x1024.Idx) (I : S8192x1024.Idx)
    (hx : ∀ k : Fin 1024, xb (ix2 (j 0) k) = X (ix2 (I 0) k))
    (hW : ∀ k : Fin 1024, Wb (ix2 k (j 1)) = W (ix2 k (I 1)))
    (hb : bb (ix2 (0 : Fin 1) (j 1)) = b (ix2 (0 : Fin 1) (I 1))) :
    k0_pay2 xb Wb bb j = projG X W b I := by
  refine ((congrArg (k0_pay2 xb Wb bb) (eq_ix2 j)).trans (pay7_apply xb Wb bb (j 0) (j 1))).trans ?_
  show (∑ k : Fin 1024, xb (ix2 (j 0) k) * Wb (ix2 k (j 1))) + bb (ix2 (0 : Fin 1) (j 1))
    = (∑ k : Fin 1024, X (ix2 (I 0) k) * W (ix2 k (I 1))) + b (ix2 (0 : Fin 1) (I 1))
  rw [hb]
  exact congrArg (fun z : EReal => z + b (ix2 (0 : Fin 1) (I 1))) (Finset.sum_congr rfl fun k _ => by rw [hx k, hW k])

/-- The payload of the store into output window 8, at entry (p, q): row p of the x block against column q of the
    weights, plus the bias row's entry q. -/
theorem pay8_apply (x : Vec Ideal S512x1024 .f32) (W : Vec Ideal S1024x1024 .bf16) (b : Vec Ideal S1x1024 .f32) (p : Fin 512) (q : Fin 1024) :
    k0_pay3 x W b (ix2 p q) = (∑ k : Fin 1024, x (ix2 p k) * W (ix2 k q)) + b (ix2 (0 : Fin 1) q) := by
  show addf (F := Ideal) (matmul dot_S512x1024_S1024x1024_S512x1024_1_0_0_1_n_n none (truncf .bf16 x bitsLt_bf16_f32)
      (shapeCast S1024x1024 W shapeCasts_S1024x1024_S1024x1024) (constant S512x1024 .f32 0x00000000#32))
    (broadcastTo S512x1024 (shapeCast S1x1024 b shapeCasts_S1x1024_S1x1024) broadcasts_S1x1024_S512x1024) (ix2 p q) = _
  rw [shapeCast_self, shapeCast_self]
  refine congrArg₂ (fun u v : EReal => u + v) ?_ ?_
  · exact Cert.Lib.Dense.matmul_zero_at dot_S512x1024_S1024x1024_S512x1024_1_0_0_1_n_n rfl rfl rfl rfl rfl rfl
      (truncf .bf16 x bitsLt_bf16_f32) W p q
  · exact broadcastTo_1b_ab_apply b broadcasts_S1x1024_S512x1024 p q

/-- The same at a block index j, against whole arrays whose rows and columns the blocks are. -/
theorem pay8_block (xb : Vec Ideal S512x1024 .f32) (Wb : Vec Ideal S1024x1024 .bf16) (bb : Vec Ideal S1x1024 .f32)
    (X : S8192x1024.Idx → EReal) (W : S1024x1024.Idx → EReal) (b : S1x1024.Idx → EReal)
    (j : S512x1024.Idx) (I : S8192x1024.Idx)
    (hx : ∀ k : Fin 1024, xb (ix2 (j 0) k) = X (ix2 (I 0) k))
    (hW : ∀ k : Fin 1024, Wb (ix2 k (j 1)) = W (ix2 k (I 1)))
    (hb : bb (ix2 (0 : Fin 1) (j 1)) = b (ix2 (0 : Fin 1) (I 1))) :
    k0_pay3 xb Wb bb j = projG X W b I := by
  refine ((congrArg (k0_pay3 xb Wb bb) (eq_ix2 j)).trans (pay8_apply xb Wb bb (j 0) (j 1))).trans ?_
  show (∑ k : Fin 1024, xb (ix2 (j 0) k) * Wb (ix2 k (j 1))) + bb (ix2 (0 : Fin 1) (j 1))
    = (∑ k : Fin 1024, X (ix2 (I 0) k) * W (ix2 k (I 1))) + b (ix2 (0 : Fin 1) (I 1))
  rw [hb]
  exact congrArg (fun z : EReal => z + b (ix2 (0 : Fin 1) (I 1))) (Finset.sum_congr rfl fun k _ => by rw [hx k, hW k])

/-- The payload of the store into output window 9, at entry (p, q): row p of the x block against column q of the
    weights, plus the bias row's entry q (narrowed to bf16 at the end, the identity here). -/
theorem pay9_apply (x : Vec Ideal S512x1024 .f32) (W : Vec Ideal S1024x1024 .bf16) (b : Vec Ideal S1x1024 .f32) (p : Fin 512) (q : Fin 1024) :
    k0_pay4 x W b (ix2 p q) = (∑ k : Fin 1024, x (ix2 p k) * W (ix2 k q)) + b (ix2 (0 : Fin 1) q) := by
  show truncf .bf16 (addf (F := Ideal) (matmul dot_S512x1024_S1024x1024_S512x1024_1_0_0_1_n_n none (truncf .bf16 x bitsLt_bf16_f32)
      (shapeCast S1024x1024 W shapeCasts_S1024x1024_S1024x1024) (constant S512x1024 .f32 0x00000000#32))
    (broadcastTo S512x1024 (shapeCast S1x1024 b shapeCasts_S1x1024_S1x1024) broadcasts_S1x1024_S512x1024)) bitsLt_bf16_f32 (ix2 p q) = _
  rw [shapeCast_self, shapeCast_self]
  refine congrArg₂ (fun u v : EReal => u + v) ?_ ?_
  · exact Cert.Lib.Dense.matmul_zero_at dot_S512x1024_S1024x1024_S512x1024_1_0_0_1_n_n rfl rfl rfl rfl rfl rfl
      (truncf .bf16 x bitsLt_bf16_f32) W p q
  · exact broadcastTo_1b_ab_apply b broadcasts_S1x1024_S512x1024 p q

/-- The same at a block index j, against whole arrays whose rows and columns the blocks are. -/
theorem pay9_block (xb : Vec Ideal S512x1024 .f32) (Wb : Vec Ideal S1024x1024 .bf16) (bb : Vec Ideal S1x1024 .f32)
    (X : S8192x1024.Idx → EReal) (W : S1024x1024.Idx → EReal) (b : S1x1024.Idx → EReal)
    (j : S512x1024.Idx) (I : S8192x1024.Idx)
    (hx : ∀ k : Fin 1024, xb (ix2 (j 0) k) = X (ix2 (I 0) k))
    (hW : ∀ k : Fin 1024, Wb (ix2 k (j 1)) = W (ix2 k (I 1)))
    (hb : bb (ix2 (0 : Fin 1) (j 1)) = b (ix2 (0 : Fin 1) (I 1))) :
    k0_pay4 xb Wb bb j = projG X W b I := by
  refine ((congrArg (k0_pay4 xb Wb bb) (eq_ix2 j)).trans (pay9_apply xb Wb bb (j 0) (j 1))).trans ?_
  show (∑ k : Fin 1024, xb (ix2 (j 0) k) * Wb (ix2 k (j 1))) + bb (ix2 (0 : Fin 1) (j 1))
    = (∑ k : Fin 1024, X (ix2 (I 0) k) * W (ix2 k (I 1))) + b (ix2 (0 : Fin 1) (I 1))
  rw [hb]
  exact congrArg (fun z : EReal => z + b (ix2 (0 : Fin 1) (I 1))) (Finset.sum_congr rfl fun k _ => by rw [hx k, hW k])

-- the TensorCore's buffer contents when the pipeline is entered, on the extended reals
variable (V : (c : Dev nD) → (b : Ref sig .tc) → Buf (Elt Ideal) ((c : Thread nD τ).loc b))

/-! ## Output window 7 -/

/-- The index maps over the grid: the x window moves with the output's row block; the weights and the bias row stay. -/
theorem idx_facts7 : ∀ t : Fin cfg0.N, win0_0.index t (0 : Fin 2) = win0_7.index t (0 : Fin 2)
    ∧ win0_0.index t (1 : Fin 2) = 0
    ∧ win0_1.index t (0 : Fin 2) = 0 ∧ win0_1.index t (1 : Fin 2) = 0
    ∧ win0_4.index t (0 : Fin 2) = 0 ∧ win0_4.index t (1 : Fin 2) = 0
    ∧ win0_7.index t (0 : Fin 2) = t.val ∧ win0_7.index t (1 : Fin 2) = 0 :=
  (by decide +kernel : ∀ t : Fin grid0.N, _)

/-- What point t writes back is block t of the whole-array function of the arrays as the pipeline finds them. -/
theorem flushed7_eq (c : Dev nD) (t : Fin cfg0.N) :
    (dat0 V c).flushed 7 t = ((cfg0.win 7).blk t).view.read (Elt Ideal) (projG (V c main_arg0) (V c main_v0) (V c main_v3)) := by
  show (cfg0.win 7).cut (grid0.coords t) ((dat0 V c).after 7 t) = _
  rw [after0_7, out0_7_eq]
  obtain ⟨e0, e1, e2, e3, e4, e5, e6, e7⟩ := idx_facts7 t
  funext j
  refine pay7_block (iblk0 V c 0 t) (iblk0 V c 1 t) (iblk0 V c 4 t) (V c main_arg0) (V c main_v0) (V c main_v3) j
    (((cfg0.win 7).blk t).view.emb j) (fun k => ?_) (fun k => ?_) ?_
  · show V c main_arg0 (((cfg0.win 0).blk t).view.emb (ix2 (j 0) k)) = V c main_arg0 (ix2 ((((cfg0.win 7).blk t).view.emb j) 0) k)
    refine congrArg (V c main_arg0) ?_
    funext a; apply Fin.ext
    match a with
    | ⟨0, _⟩ => show win0_0.index t (0 : Fin 2) * 512 + 1 * (j 0).val = win0_7.index t (0 : Fin 2) * 512 + 1 * (j 0).val; omega
    | ⟨1, _⟩ => show win0_0.index t (1 : Fin 2) * 1024 + 1 * k.val = k.val; omega
  · show V c main_v0 (((cfg0.win 1).blk t).view.emb (ix2 k (j 1))) = V c main_v0 (ix2 k ((((cfg0.win 7).blk t).view.emb j) 1))
    refine congrArg (V c main_v0) ?_
    funext a; apply Fin.ext
    match a with
    | ⟨0, _⟩ => show win0_1.index t (0 : Fin 2) * 1024 + 1 * k.val = k.val; omega
    | ⟨1, _⟩ => show win0_1.index t (1 : Fin 2) * 1024 + 1 * (j 1).val = win0_7.index t (1 : Fin 2) * 1024 + 1 * (j 1).val; omega
  · show V c main_v3 (((cfg0.win 4).blk t).view.emb (ix2 (0 : Fin 1) (j 1))) = V c main_v3 (ix2 (0 : Fin 1) ((((cfg0.win 7).blk t).view.emb j) 1))
    refine congrArg (V c main_v3) ?_
    funext a; apply Fin.ext
    match a with
    | ⟨0, _⟩ => show win0_4.index t (0 : Fin 2) * 1 + 1 * 0 = 0; omega
    | ⟨1, _⟩ => show win0_4.index t (1 : Fin 2) * 1024 + 1 * (j 1).val = win0_7.index t (1 : Fin 2) * 1024 + 1 * (j 1).val; omega

/-- An index of the array is in point t's block iff each coordinate is in the block's range on its axis. -/
theorem mem_blk7 (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v6_0).slice (win0_7.rect t)).set ↔ _
  rw [View.set_slice_whole, Rect.mem_set_unit]
  exact Iff.rfl

/-- Every index of the array is in the block of the point  row / 512 . -/
theorem cover7 (i : S8192x1024.Idx) :
    ∃ t : Fin cfg0.N, (cfg0.win 7).flush t = true ∧ i ∈ ((cfg0.win 7).blk t).view.set := by
  have hi0 : (i 0).val < 8192 := (i 0).isLt
  have hi1 : (i 1).val < 1024 := (i 1).isLt
  have hN : (i 0).val / 512 < cfg0.N := by show _ < grid0.N; rw [N_0]; omega
  obtain ⟨e0, e1, e2, e3, e4, e5, e6, e7⟩ := idx_facts7 ⟨(i 0).val / 512, hN⟩
  have e6' : win0_7.index ⟨(i 0).val / 512, hN⟩ (0 : Fin 2) = (i 0).val / 512 := e6
  refine ⟨⟨(i 0).val / 512, hN⟩, flush0_7 _, ?_⟩
  rw [mem_blk7]
  intro a
  match a with
  | ⟨0, _⟩ => show win0_7.index ⟨(i 0).val / 512, hN⟩ (0 : Fin 2) * 512 ≤ (i 0).val ∧ (i 0).val < win0_7.index ⟨(i 0).val / 512, hN⟩ (0 : Fin 2) * 512 + 512; omega
  | ⟨1, _⟩ => show win0_7.index ⟨(i 0).val / 512, hN⟩ (1 : Fin 2) * 1024 ≤ (i 1).val ∧ (i 1).val < win0_7.index ⟨(i 0).val / 512, hN⟩ (1 : Fin 2) * 1024 + 1024; omega

/-- The array of window 7 after the pipeline, whole. -/
theorem arr7_eq (c : Dev nD) : (dat0 V c).arrAt 7 cfg0.N = projG (V c main_arg0) (V c main_v0) (V c main_v3) :=
  (dat0 V c).arrAt_eq_of_cover 7 (projG (V c main_arg0) (V c main_v0) (V c main_v3)) (fun t _ => flushed7_eq V c t) cover7

/-- Entry (i, d) of the array of window 7 (main_v6_0) after the pipeline: the whole-array function of main_arg0, main_v0 and the
    row main_v3 (projG_ix2 spells it: row i of the first against column d of the second, plus the row at d). -/
theorem final0_7 (c : Dev nD) (i : Fin 8192) (d : Fin 1024) :
    (dat0 V c).arrAt 7 cfg0.N (ix2 i d) = projG (V c main_arg0) (V c main_v0) (V c main_v3) (ix2 i d) := by
  rw [arr7_eq]

/-- The same with the three arrays named: row i of X against column d of W, plus b(0, d). -/
theorem final0_7_sum (c : Dev nD) (X : S8192x1024.Idx → EReal) (W : S1024x1024.Idx → EReal) (b : S1x1024.Idx → EReal)
    (hX : V c main_arg0 = X) (hW : V c main_v0 = W) (hb : V c main_v3 = b) (i : Fin 8192) (d : Fin 1024) :
    (dat0 V c).arrAt 7 cfg0.N (ix2 i d) = (∑ k : Fin 1024, X (ix2 i k) * W (ix2 k d)) + b (ix2 (0 : Fin 1) d) := by
  rw [final0_7, hX, hW, hb, projG_ix2]

/-! ## Output window 8 -/

/-- The index maps over the grid: the x window moves with the output's row block; the weights and the bias row stay. -/
theorem idx_facts8 : ∀ t : Fin cfg0.N, win0_0.index t (0 : Fin 2) = win0_8.index t (0 : Fin 2)
    ∧ win0_0.index t (1 : Fin 2) = 0
    ∧ win0_2.index t (0 : Fin 2) = 0 ∧ win0_2.index t (1 : Fin 2) = 0
    ∧ win0_5.index t (0 : Fin 2) = 0 ∧ win0_5.index t (1 : Fin 2) = 0
    ∧ win0_8.index t (0 : Fin 2) = t.val ∧ win0_8.index t (1 : Fin 2) = 0 :=
  (by decide +kernel : ∀ t : Fin grid0.N, _)

/-- What point t writes back is block t of the whole-array function of the arrays as the pipeline finds them. -/
theorem flushed8_eq (c : Dev nD) (t : Fin cfg0.N) :
    (dat0 V c).flushed 8 t = ((cfg0.win 8).blk t).view.read (Elt Ideal) (projG (V c main_arg0) (V c main_v1) (V c main_v4)) := by
  show (cfg0.win 8).cut (grid0.coords t) ((dat0 V c).after 8 t) = _
  rw [after0_8, out0_8_eq]
  obtain ⟨e0, e1, e2, e3, e4, e5, e6, e7⟩ := idx_facts8 t
  funext j
  refine pay8_block (iblk0 V c 0 t) (iblk0 V c 2 t) (iblk0 V c 5 t) (V c main_arg0) (V c main_v1) (V c main_v4) j
    (((cfg0.win 8).blk t).view.emb j) (fun k => ?_) (fun k => ?_) ?_
  · show V c main_arg0 (((cfg0.win 0).blk t).view.emb (ix2 (j 0) k)) = V c main_arg0 (ix2 ((((cfg0.win 8).blk t).view.emb j) 0) k)
    refine congrArg (V c main_arg0) ?_
    funext a; apply Fin.ext
    match a with
    | ⟨0, _⟩ => show win0_0.index t (0 : Fin 2) * 512 + 1 * (j 0).val = win0_8.index t (0 : Fin 2) * 512 + 1 * (j 0).val; omega
    | ⟨1, _⟩ => show win0_0.index t (1 : Fin 2) * 1024 + 1 * k.val = k.val; omega
  · show V c main_v1 (((cfg0.win 2).blk t).view.emb (ix2 k (j 1))) = V c main_v1 (ix2 k ((((cfg0.win 8).blk t).view.emb j) 1))
    refine congrArg (V c main_v1) ?_
    funext a; apply Fin.ext
    match a with
    | ⟨0, _⟩ => show win0_2.index t (0 : Fin 2) * 1024 + 1 * k.val = k.val; omega
    | ⟨1, _⟩ => show win0_2.index t (1 : Fin 2) * 1024 + 1 * (j 1).val = win0_8.index t (1 : Fin 2) * 1024 + 1 * (j 1).val; omega
  · show V c main_v4 (((cfg0.win 5).blk t).view.emb (ix2 (0 : Fin 1) (j 1))) = V c main_v4 (ix2 (0 : Fin 1) ((((cfg0.win 8).blk t).view.emb j) 1))
    refine congrArg (V c main_v4) ?_
    funext a; apply Fin.ext
    match a with
    | ⟨0, _⟩ => show win0_5.index t (0 : Fin 2) * 1 + 1 * 0 = 0; omega
    | ⟨1, _⟩ => show win0_5.index t (1 : Fin 2) * 1024 + 1 * (j 1).val = win0_8.index t (1 : Fin 2) * 1024 + 1 * (j 1).val; omega

/-- An index of the array is in point t's block iff each coordinate is in the block's range on its axis. -/
theorem mem_blk8 (t : Fin cfg0.N) (i : S8192x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v6_1).slice (win0_8.rect t)).set ↔ _
  rw [View.set_slice_whole, Rect.mem_set_unit]
  exact Iff.rfl

/-- Every index of the array is in the block of the point  row / 512 . -/
theorem cover8 (i : S8192x1024.Idx) :
    ∃ t : Fin cfg0.N, (cfg0.win 8).flush t = true ∧ i ∈ ((cfg0.win 8).blk t).view.set := by
  have hi0 : (i 0).val < 8192 := (i 0).isLt
  have hi1 : (i 1).val < 1024 := (i 1).isLt
  have hN : (i 0).val / 512 < cfg0.N := by show _ < grid0.N; rw [N_0]; omega
  obtain ⟨e0, e1, e2, e3, e4, e5, e6, e7⟩ := idx_facts8 ⟨(i 0).val / 512, hN⟩
  have e6' : win0_8.index ⟨(i 0).val / 512, hN⟩ (0 : Fin 2) = (i 0).val / 512 := e6
  refine ⟨⟨(i 0).val / 512, hN⟩, flush0_8 _, ?_⟩
  rw [mem_blk8]
  intro a
  match a with
  | ⟨0, _⟩ => show win0_8.index ⟨(i 0).val / 512, hN⟩ (0 : Fin 2) * 512 ≤ (i 0).val ∧ (i 0).val < win0_8.index ⟨(i 0).val / 512, hN⟩ (0 : Fin 2) * 512 + 512; omega
  | ⟨1, _⟩ => show win0_8.index ⟨(i 0).val / 512, hN⟩ (1 : Fin 2) * 1024 ≤ (i 1).val ∧ (i 1).val < win0_8.index ⟨(i 0).val / 512, hN⟩ (1 : Fin 2) * 1024 + 1024; omega

/-- The array of window 8 after the pipeline, whole. -/
theorem arr8_eq (c : Dev nD) : (dat0 V c).arrAt 8 cfg0.N = projG (V c main_arg0) (V c main_v1) (V c main_v4) :=
  (dat0 V c).arrAt_eq_of_cover 8 (projG (V c main_arg0) (V c main_v1) (V c main_v4)) (fun t _ => flushed8_eq V c t) cover8

/-- Entry (i, d) of the array of window 8 (main_v6_1) after the pipeline: the whole-array function of main_arg0, main_v1 and the
    row main_v4 (projG_ix2 spells it: row i of the first against column d of the second, plus the row at d). -/
theorem final0_8 (c : Dev nD) (i : Fin 8192) (d : Fin 1024) :
    (dat0 V c).arrAt 8 cfg0.N (ix2 i d) = projG (V c main_arg0) (V c main_v1) (V c main_v4) (ix2 i d) := by
  rw [arr8_eq]

/-- The same with the three arrays named: row i of X against column d of W, plus b(0, d). -/
theorem final0_8_sum (c : Dev nD) (X : S8192x1024.Idx → EReal) (W : S1024x1024.Idx → EReal) (b : S1x1024.Idx → EReal)
    (hX : V c main_arg0 = X) (hW : V c main_v1 = W) (hb : V c main_v4 = b) (i : Fin 8192) (d : Fin 1024) :
    (dat0 V c).arrAt 8 cfg0.N (ix2 i d) = (∑ k : Fin 1024, X (ix2 i k) * W (ix2 k d)) + b (ix2 (0 : Fin 1) d) := by
  rw [final0_8, hX, hW, hb, projG_ix2]

/-! ## Output window 9 -/

/-- The index maps over the grid: the x window moves with the output's row block; the weights and the bias row stay. -/
theorem idx_facts9 : ∀ t : Fin cfg0.N, win0_0.index t (0 : Fin 2) = win0_9.index t (0 : Fin 2)
    ∧ win0_0.index t (1 : Fin 2) = 0
    ∧ win0_3.index t (0 : Fin 2) = 0 ∧ win0_3.index t (1 : Fin 2) = 0
    ∧ win0_6.index t (0 : Fin 2) = 0 ∧ win0_6.index t (1 : Fin 2) = 0
    ∧ win0_9.index t (0 : Fin 2) = t.val ∧ win0_9.index t (1 : Fin 2) = 0 :=
  (by decide +kernel : ∀ t : Fin grid0.N, _)

/-- What point t writes back is block t of the whole-array function of the arrays as the pipeline finds them. -/
theorem flushed9_eq (c : Dev nD) (t : Fin cfg0.N) :
    (dat0 V c).flushed 9 t = ((cfg0.win 9).blk t).view.read (Elt Ideal) (projG (V c main_arg0) (V c main_v2) (V c main_v5)) := by
  show (cfg0.win 9).cut (grid0.coords t) ((dat0 V c).after 9 t) = _
  rw [after0_9, out0_9_eq]
  obtain ⟨e0, e1, e2, e3, e4, e5, e6, e7⟩ := idx_facts9 t
  funext j
  refine pay9_block (iblk0 V c 0 t) (iblk0 V c 3 t) (iblk0 V c 6 t) (V c main_arg0) (V c main_v2) (V c main_v5) j
    (((cfg0.win 9).blk t).view.emb j) (fun k => ?_) (fun k => ?_) ?_
  · show V c main_arg0 (((cfg0.win 0).blk t).view.emb (ix2 (j 0) k)) = V c main_arg0 (ix2 ((((cfg0.win 9).blk t).view.emb j) 0) k)
    refine congrArg (V c main_arg0) ?_
    funext a; apply Fin.ext
    match a with
    | ⟨0, _⟩ => show win0_0.index t (0 : Fin 2) * 512 + 1 * (j 0).val = win0_9.index t (0 : Fin 2) * 512 + 1 * (j 0).val; omega
    | ⟨1, _⟩ => show win0_0.index t (1 : Fin 2) * 1024 + 1 * k.val = k.val; omega
  · show V c main_v2 (((cfg0.win 3).blk t).view.emb (ix2 k (j 1))) = V c main_v2 (ix2 k ((((cfg0.win 9).blk t).view.emb j) 1))
    refine congrArg (V c main_v2) ?_
    funext a; apply Fin.ext
    match a with
    | ⟨0, _⟩ => show win0_3.index t (0 : Fin 2) * 1024 + 1 * k.val = k.val; omega
    | ⟨1, _⟩ => show win0_3.index t (1 : Fin 2) * 1024 + 1 * (j 1).val = win0_9.index t (1 : Fin 2) * 1024 + 1 * (j 1).val; omega
  · show V c main_v5 (((cfg0.win 6).blk t).view.emb (ix2 (0 : Fin 1) (j 1))) = V c main_v5 (ix2 (0 : Fin 1) ((((cfg0.win 9).blk t).view.emb j) 1))
    refine congrArg (V c main_v5) ?_
    funext a; apply Fin.ext
    match a with
    | ⟨0, _⟩ => show win0_6.index t (0 : Fin 2) * 1 + 1 * 0 = 0; omega
    | ⟨1, _⟩ => show win0_6.index t (1 : Fin 2) * 1024 + 1 * (j 1).val = win0_9.index t (1 : Fin 2) * 1024 + 1 * (j 1).val; omega

/-- An index of the array is in point t's block iff each coordinate is in the block's range on its axis. -/
theorem mem_blk9 (t : Fin cfg0.N) (i : S8192x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v6_2).slice (win0_9.rect t)).set ↔ _
  rw [View.set_slice_whole, Rect.mem_set_unit]
  exact Iff.rfl

/-- Every index of the array is in the block of the point  row / 512 . -/
theorem cover9 (i : S8192x1024.Idx) :
    ∃ t : Fin cfg0.N, (cfg0.win 9).flush t = true ∧ i ∈ ((cfg0.win 9).blk t).view.set := by
  have hi0 : (i 0).val < 8192 := (i 0).isLt
  have hi1 : (i 1).val < 1024 := (i 1).isLt
  have hN : (i 0).val / 512 < cfg0.N := by show _ < grid0.N; rw [N_0]; omega
  obtain ⟨e0, e1, e2, e3, e4, e5, e6, e7⟩ := idx_facts9 ⟨(i 0).val / 512, hN⟩
  have e6' : win0_9.index ⟨(i 0).val / 512, hN⟩ (0 : Fin 2) = (i 0).val / 512 := e6
  refine ⟨⟨(i 0).val / 512, hN⟩, flush0_9 _, ?_⟩
  rw [mem_blk9]
  intro a
  match a with
  | ⟨0, _⟩ => show win0_9.index ⟨(i 0).val / 512, hN⟩ (0 : Fin 2) * 512 ≤ (i 0).val ∧ (i 0).val < win0_9.index ⟨(i 0).val / 512, hN⟩ (0 : Fin 2) * 512 + 512; omega
  | ⟨1, _⟩ => show win0_9.index ⟨(i 0).val / 512, hN⟩ (1 : Fin 2) * 1024 ≤ (i 1).val ∧ (i 1).val < win0_9.index ⟨(i 0).val / 512, hN⟩ (1 : Fin 2) * 1024 + 1024; omega

/-- The array of window 9 after the pipeline, whole. -/
theorem arr9_eq (c : Dev nD) : (dat0 V c).arrAt 9 cfg0.N = projG (V c main_arg0) (V c main_v2) (V c main_v5) :=
  (dat0 V c).arrAt_eq_of_cover 9 (projG (V c main_arg0) (V c main_v2) (V c main_v5)) (fun t _ => flushed9_eq V c t) cover9

/-- Entry (i, d) of the array of window 9 (main_v6_2) after the pipeline: the whole-array function of main_arg0, main_v2 and the
    row main_v5 (projG_ix2 spells it: row i of the first against column d of the second, plus the row at d). -/
theorem final0_9 (c : Dev nD) (i : Fin 8192) (d : Fin 1024) :
    (dat0 V c).arrAt 9 cfg0.N (ix2 i d) = projG (V c main_arg0) (V c main_v2) (V c main_v5) (ix2 i d) := by
  rw [arr9_eq]

/-- The same with the three arrays named: row i of X against column d of W, plus b(0, d). -/
theorem final0_9_sum (c : Dev nD) (X : S8192x1024.Idx → EReal) (W : S1024x1024.Idx → EReal) (b : S1x1024.Idx → EReal)
    (hX : V c main_arg0 = X) (hW : V c main_v2 = W) (hb : V c main_v5 = b) (i : Fin 8192) (d : Fin 1024) :
    (dat0 V c).arrAt 9 cfg0.N (ix2 i d) = (∑ k : Fin 1024, X (ix2 i k) * W (ix2 k d)) + b (ix2 (0 : Fin 1) d) := by
  rw [final0_9, hX, hW, hb, projG_ix2]

end Cert.KernelIdeal.Frame

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.LibSoftmaxRows.lean ====
/-
  The softmax of each row of a matrix, in its shifted form, on the extended reals, read at an index.

  For a row `s` of `b` extended reals the shifted softmax is
      softmaxRow s k = exp (s k − sup s) / ∑ k', exp (s k' − sup s),
  the supremum over the finite family, the quotient the extended reals' division.  A kernel computes it over an `[a, b]`
  tile with two lane reductions whose results are kept as a column `[a, 1]` and spread back over the `b` columns
  (`jnp.max(s, axis=-1, keepdims=True)`, `jnp.sum(p, axis=-1, keepdims=True)`): this file reads that chain at entry `(r, k)`
  as `softmaxRow` of row `r`.  Also here: a row maximum from `-inf` is the row's supremum, for the kernel's lane
  reduction of a matrix and for the host's reduction of a rank-3 array along its last axis; and a reduced vector kept
  as a column and spread over the columns reads, at `(r, k)`, the vector's entry `r`.  No finiteness is needed.
-/
import proofs.«163872_j37400575213830_2_alg».proof.Proof.LibMinMaxInf
import proofs.«163872_j37400575213830_2_alg».proof.Proof.LibKeepdims

noncomputable section

namespace Cert.Lib.SoftmaxRows

open Idealize.ShloMosaic Idealize.ShloMosaic.ValueIdx
open scoped BigOperators

/-- The shifted softmax of a finite family of extended reals. -/
def softmaxRow {b : ℕ} (s : Fin b → EReal) (k : Fin b) : EReal :=
  Ideal.div (Ideal.exp (s k - (Finset.univ : Finset (Fin b)).sup s))
    (∑ k' : Fin b, Ideal.exp (s k' - (Finset.univ : Finset (Fin b)).sup s))

/-- A vector `[a]` kept as a column `[a, 1]` and spread over `b` columns reads, at `(r, k)`, its entry `r`. -/
theorem spread_apply {α : Type} {a b : ℕ} (v : (⟨1, ![a]⟩ : Shape).Idx → α)
    (hcast : (⟨1, ![a]⟩ : Shape).ShapeCasts ⟨2, ![a, 1]⟩) (hb : (⟨2, ![a, 1]⟩ : Shape).Broadcasts ⟨2, ![a, b]⟩)
    (r : Fin a) (k : Fin b) :
    broadcastTo ⟨2, ![a, b]⟩ (shapeCast ⟨2, ![a, 1]⟩ v hcast) hb (ix2 r k) = v (ix1 r) :=
  (Cert.Lib.Keepdims.broadcastTo_a1_ab_apply _ hb r k).trans (Cert.Lib.Keepdims.shapeCast_a_a1_apply v hcast r 0)

/-- The lane maximum of an `[a, b]` matrix along its second axis, started from `-inf`, is at row `i` the supremum of that
    row's entries. -/
theorem rowMax_apply {a b : ℕ} (src : FVec Ideal ⟨2, ![a, b]⟩ .f32)
    (h : (⟨2, ![a, b]⟩ : Shape).Reduces [(1 : Fin 2)] ⟨1, ![a]⟩) (hφ : FKind.Formats .f32)
    (hacc : (0xFF800000#32 : BitVec 32) = FKind.maximumf.neutral .f32 hφ) (i : Fin a) :
    multiReduction .maximumf [(1 : Fin 2)] ⟨1, ![a]⟩ src 0xFF800000#32 h hφ hacc (ix1 i)
      = (Finset.univ : Finset (Fin b)).sup fun k => src (ix2 i k) := by
  refine (Cert.Lib.MinMaxInf.multiReduction_maximumf_single src _ h hφ hacc (ix1 i)).trans ?_
  rw [Cert.Lib.MinMaxInf.ofBits_negInf_f32, bot_sup_eq]
  exact Finset.sup_congr rfl fun k _ => congrArg src (funext fun c => Fin.ext (by
    match c with
    | ⟨0, _⟩ => rfl
    | ⟨1, _⟩ => rfl))

/-- The host's maximum of an `[n, a, b]` array along its last axis, started from `-inf`, is at `(p, i)` the supremum of the
    entries `(p, i, k)`. -/
theorem hostMaxLast3_apply {n a b : ℕ} {u : Shape} (x : FVec Ideal ⟨3, ![n, a, b]⟩ .f32) (init : FVec Ideal u .f32)
    (h' : (⟨3, ![n, a, b]⟩ : Shape).ReducesTo [(2 : Fin 3)] ⟨2, ![n, a]⟩)
    (h : (⟨3, ![n, a, b]⟩ : Shape).Reduces [(2 : Fin 3)] ⟨2, ![n, a]⟩) (hu : 0 < u.numel)
    (hinit : init (Shape.Idx.first hu) = Ideal.ofBits .f32 0xFF800000#32) (p : Fin n) (i : Fin a) :
    Host.reduce (FloatOps.maximumf (F := Ideal) (φ := .f32)) x init h' hu (ix2 p i)
      = (Finset.univ : Finset (Fin b)).sup fun k => x (ix3 p i k) := by
  refine (Cert.Lib.MinMaxInf.hostReduce_maximumf_single x init h' h hu (ix2 p i)).trans ?_
  rw [hinit, Cert.Lib.MinMaxInf.ofBits_negInf_f32, bot_sup_eq]
  exact Finset.sup_congr rfl fun k _ => congrArg x (funext fun c => Fin.ext (by
    match c with
    | ⟨0, _⟩ => rfl
    | ⟨1, _⟩ => rfl
    | ⟨2, _⟩ => rfl))

/-- The kernel's softmax of each row of an `[a, b]` tile — the row maxima and the row sums of the exponentials each kept
    as a column and spread back over the columns — reads, at `(r, k)`, the shifted softmax of row `r` at `k`. -/
theorem softmax_apply {a b : ℕ} (s : FVec Ideal ⟨2, ![a, b]⟩ .f32)
    (hred : (⟨2, ![a, b]⟩ : Shape).Reduces [(1 : Fin 2)] ⟨1, ![a]⟩)
    (hcast : (⟨1, ![a]⟩ : Shape).ShapeCasts ⟨2, ![a, 1]⟩) (hb : (⟨2, ![a, 1]⟩ : Shape).Broadcasts ⟨2, ![a, b]⟩)
    (hφ : FKind.Formats .f32) (hmax : (0xFF800000#32 : BitVec 32) = FKind.maximumf.neutral .f32 hφ)
    (hadd : (0x00000000#32 : BitVec 32) = FKind.add.neutral .f32 hφ) (r : Fin a) (k : Fin b) :
    divf
      (exp (subf s (broadcastTo ⟨2, ![a, b]⟩ (shapeCast ⟨2, ![a, 1]⟩
        (multiReduction .maximumf [(1 : Fin 2)] ⟨1, ![a]⟩ s 0xFF800000#32 hred hφ hmax) hcast) hb)))
      (broadcastTo ⟨2, ![a, b]⟩ (shapeCast ⟨2, ![a, 1]⟩
        (multiReduction .add [(1 : Fin 2)] ⟨1, ![a]⟩
          (exp (subf s (broadcastTo ⟨2, ![a, b]⟩ (shapeCast ⟨2, ![a, 1]⟩
            (multiReduction .maximumf [(1 : Fin 2)] ⟨1, ![a]⟩ s 0xFF800000#32 hred hφ hmax) hcast) hb)))
          0x00000000#32 hred hφ hadd) hcast) hb)
      (ix2 r k)
    = softmaxRow (fun k' => s (ix2 r k')) k := by
  have hmx : ∀ k' : Fin b, (broadcastTo ⟨2, ![a, b]⟩ (shapeCast ⟨2, ![a, 1]⟩
      (multiReduction .maximumf [(1 : Fin 2)] ⟨1, ![a]⟩ s 0xFF800000#32 hred hφ hmax) hcast) hb) (ix2 r k')
        = (Finset.univ : Finset (Fin b)).sup fun k'' => s (ix2 r k'') :=
    fun k' => (spread_apply _ hcast hb r k').trans (rowMax_apply s hred hφ hmax r)
  generalize (broadcastTo ⟨2, ![a, b]⟩ (shapeCast ⟨2, ![a, 1]⟩
      (multiReduction .maximumf [(1 : Fin 2)] ⟨1, ![a]⟩ s 0xFF800000#32 hred hφ hmax) hcast) hb) = MX at hmx ⊢
  have he : ∀ k' : Fin b, exp (subf s MX) (ix2 r k')
      = Ideal.exp (s (ix2 r k') - (Finset.univ : Finset (Fin b)).sup fun k'' => s (ix2 r k'')) := fun k' => by
    show Ideal.exp (s (ix2 r k') - MX (ix2 r k')) = _
    rw [hmx k']
  have hs : (broadcastTo ⟨2, ![a, b]⟩ (shapeCast ⟨2, ![a, 1]⟩
      (multiReduction .add [(1 : Fin 2)] ⟨1, ![a]⟩ (exp (subf s MX)) 0x00000000#32 hred hφ hadd) hcast) hb) (ix2 r k)
        = ∑ k' : Fin b, exp (subf s MX) (ix2 r k') :=
    (spread_apply _ hcast hb r k).trans (Cert.Lib.Keepdims.rowSum_apply (exp (subf s MX)) 0x00000000#32 hred hφ hadd r)
  show Ideal.div (exp (subf s MX) (ix2 r k)) _ = _
  rw [hs, he k]
  unfold softmaxRow
  exact congrArg (Ideal.div _) (Finset.sum_congr rfl fun k' _ => he k')

end Cert.Lib.SoftmaxRows

end
-- ==== Proof.Payloads.lean ====
/-
  The kernel bodies' pure values read at an index, at the extended reals.

  The projection kernel computes, for a block x of 512 rows, a weight matrix W and a bias row b, the entry
      (∑ k, x(p, k) · W(k, q)) + b(0, q)
  three times (queries, keys, values).  The attention kernel, for a block of 1024 query rows and a tile of 512 key rows,
  computes the scores s(r, j) = ∑ d, q(r, d) · k(j, d), the new running maximum m'(r) = max (m(r)) (sup over j of s(r, j)),
  the rescaling factor exp (m(r) − m'(r)), the weights exp (s(r, j) − m'(r)), the new denominator
  factor · l(r) + ∑ j, weight(r, j), the rescaled numerator factor · acc(r, c) and the tile's contribution
  ∑ j, weight(r, j) · v(j, c); the first tile starts from m = −∞, l = 0, acc = 0 and the last divides acc by l.
  Every statement below reads one of these values at an index built from literal coordinates.  No finiteness is needed:
  only the definitions of the operations and a re-indexing of the sums.
-/
import proofs.«163872_j37400575213830_2_alg».proof.Proof.Gen.KernelIdeal.Skeleton
import proofs.«163872_j37400575213830_2_alg».proof.Proof.LibDense
import proofs.«163872_j37400575213830_2_alg».proof.Proof.LibKeepdims
import proofs.«163872_j37400575213830_2_alg».proof.Proof.LibSoftmaxRows
import Idealize.ShloMosaic.Lib.ValueLayout
import Idealize.ShloMosaic.Lib.ValueIdx
import Idealize.ShloMosaic.Lib.Pipeline.Value
import Idealize.ShloMosaic.PureOps.Ideal.Laws

set_option synthInstance.maxSize 4096

noncomputable section

namespace Cert.KernelIdeal.PayAt

open Idealize.ShloMosaic Idealize.ShloMosaic.ValueIdx
open Cert.KernelIdeal Cert.KernelIdeal.Gen
open scoped BigOperators

/-! ## The simple values: a sum, a copy, the final quotient, the three initial values -/

/-- The numerator's update: the rescaled numerator plus the tile's contribution, entry by entry. -/
theorem k1_pay1_at (a b : FVec Ideal S1024x1024 .f32) (r c : Fin 1024) :
    k1_pay1 (F := Ideal) a b (ix2 r c) = a (ix2 r c) + b (ix2 r c) := by
  unfold k1_pay1
  rw [shapeCast_self]
  rfl

/-- The running maximum is stored as it is. -/
theorem k1_pay2_eq (m : FVec Ideal S1024x1 .f32) : k1_pay2 (F := Ideal) m = m := by
  unfold k1_pay2
  exact shapeCast_self _ _

theorem k1_pay2_at (m : FVec Ideal S1024x1 .f32) (r : Fin 1024) :
    k1_pay2 (F := Ideal) m (ix2 r (0 : Fin 1)) = m (ix2 r (0 : Fin 1)) := by
  rw [k1_pay2_eq]

/-- The result: the numerator divided by the denominator of its row. -/
theorem k1_pay3_at (acc : Vec Ideal S1024x1024 .f32) (l : Vec Ideal S1024x1 .f32) (r c : Fin 1024) :
    k1_pay3 (F := Ideal) acc l (ix2 r c) = Ideal.div (acc (ix2 r c)) (l (ix2 r (0 : Fin 1))) := by
  unfold k1_pay3
  show Ideal.div (acc (ix2 r c)) (broadcastTo S1024x1024 l broadcasts_S1024x1_S1024x1024 (ix2 r c)) = _
  rw [Cert.Lib.Keepdims.broadcastTo_a1_ab_apply]

/-- The running maximum starts at −∞. -/
theorem k1_pay4_at (r : Fin 1024) : k1_pay4 (F := Ideal) (ix2 r (0 : Fin 1)) = (⊥ : EReal) := by
  unfold k1_pay4
  rw [shapeCast_self]
  exact Cert.Lib.MinMaxInf.ofBits_negInf_f32

/-- The running denominator starts at 0. -/
theorem k1_pay5_at (r : Fin 1024) : k1_pay5 (F := Ideal) (ix2 r (0 : Fin 1)) = (0 : EReal) := by
  unfold k1_pay5
  rw [shapeCast_self]
  exact Ideal.ofBits_zero_f32

/-- The running numerator starts at 0. -/
theorem k1_pay6_at (r c : Fin 1024) : k1_pay6 (F := Ideal) (ix2 r c) = (0 : EReal) := by
  unfold k1_pay6
  rw [shapeCast_self]
  exact Ideal.ofBits_zero_f32

/-! ## The scores -/

/-- The score of query row r against key row j of the tile: the tile is transposed and contracted along the features. -/
theorem k1_pay7_at (qb : Vec Ideal S1024x1024 .f32) (kb : Vec Ideal S512x1024 .f32) (r : Fin 1024) (j : Fin 512) :
    k1_pay7 (F := Ideal) qb kb (ix2 r j) = ∑ d : Fin 1024, qb (ix2 r d) * kb (ix2 j d) := by
  unfold k1_pay7
  rw [shapeCast_self, shapeCast_self]
  refine (Ideal.matmul_constant_zero_apply _ _ _ _ (ix2 r j)).trans ?_
  refine (Cert.Lib.Dense.plain_sum dot_S1024x1024_S1024x512_S1024x512_1_0_0_1_n_n rfl rfl rfl rfl rfl rfl _ _ r j).trans ?_
  unfold Cert.Lib.Dense.rowDot
  exact Finset.sum_congr rfl fun d _ => by rw [transpose_ix2_apply]

/-! ## The running maximum, the rescaling factor and the weights -/

/-- The new running maximum of row r: the old one against the largest score of the tile. -/
theorem k1_pay8_at (qb : Vec Ideal S1024x1024 .f32) (kb : Vec Ideal S512x1024 .f32) (m : Vec Ideal S1024x1 .f32) (r : Fin 1024) :
    k1_pay8 (F := Ideal) qb kb m (ix2 r (0 : Fin 1))
      = max (m (ix2 r (0 : Fin 1))) ((Finset.univ : Finset (Fin 512)).sup fun j => k1_pay7 (F := Ideal) qb kb (ix2 r j)) := by
  unfold k1_pay8
  refine (maximumf_apply _ _ _).trans ?_
  refine congrArg (max _) ?_
  refine (Cert.Lib.Keepdims.shapeCast_a_a1_apply _ _ r 0).trans ?_
  exact Cert.Lib.SoftmaxRows.rowMax_apply (k1_pay7 (F := Ideal) qb kb) reduces_S1024x512_S1024 _ _ r

/-- The weights of the tile: the exponential of each score less the new running maximum of its row. -/
theorem k1_pay10_at (qb : Vec Ideal S1024x1024 .f32) (kb : Vec Ideal S512x1024 .f32) (m : Vec Ideal S1024x1 .f32)
    (r : Fin 1024) (j : Fin 512) :
    k1_pay10 (F := Ideal) qb kb m (ix2 r j)
      = Ideal.exp (k1_pay7 (F := Ideal) qb kb (ix2 r j) - k1_pay8 (F := Ideal) qb kb m (ix2 r (0 : Fin 1))) := by
  unfold k1_pay10
  show Ideal.exp (k1_pay7 (F := Ideal) qb kb (ix2 r j)
      - broadcastTo S1024x512 (k1_pay8 (F := Ideal) qb kb m) broadcasts_S1024x1_S1024x512 (ix2 r j)) = _
  rw [Cert.Lib.Keepdims.broadcastTo_a1_ab_apply]

/-- The rescaling factor of row r: the exponential of a stored maximum less the new running maximum. -/
theorem k1_pay9_at (qb : Vec Ideal S1024x1024 .f32) (kb : Vec Ideal S512x1024 .f32) (m m' : Vec Ideal S1024x1 .f32) (r : Fin 1024) :
    k1_pay9 (F := Ideal) qb kb m m' (ix2 r (0 : Fin 1))
      = Ideal.exp (m' (ix2 r (0 : Fin 1)) - k1_pay8 (F := Ideal) qb kb m (ix2 r (0 : Fin 1))) := rfl

/-! ## The denominator, the rescaled numerator and the tile's contribution -/

/-- The new denominator of row r: the old one rescaled, plus the tile's weights. -/
theorem k1_pay11_at (qb : Vec Ideal S1024x1024 .f32) (kb : Vec Ideal S512x1024 .f32) (m m' l : Vec Ideal S1024x1 .f32) (r : Fin 1024) :
    k1_pay11 (F := Ideal) qb kb m m' l (ix2 r (0 : Fin 1))
      = k1_pay9 (F := Ideal) qb kb m m' (ix2 r (0 : Fin 1)) * l (ix2 r (0 : Fin 1))
        + ∑ j : Fin 512, k1_pay10 (F := Ideal) qb kb m (ix2 r j) := by
  unfold k1_pay11
  rw [shapeCast_self]
  show k1_pay9 (F := Ideal) qb kb m m' (ix2 r (0 : Fin 1)) * l (ix2 r (0 : Fin 1))
      + shapeCast S1024x1 _ shapeCasts_S1024_S1024x1 (ix2 r (0 : Fin 1)) = _
  rw [Cert.Lib.Keepdims.shapeCast_a_a1_apply]
  exact congrArg (_ + ·) (Cert.Lib.Keepdims.rowSum_apply (k1_pay10 (F := Ideal) qb kb m) _ reduces_S1024x512_S1024 _ _ r)

/-- The old numerator rescaled, entry by entry. -/
theorem k1_pay12_at (qb : Vec Ideal S1024x1024 .f32) (kb : Vec Ideal S512x1024 .f32) (m m' : Vec Ideal S1024x1 .f32)
    (acc : Vec Ideal S1024x1024 .f32) (r c : Fin 1024) :
    k1_pay12 (F := Ideal) qb kb m m' acc (ix2 r c)
      = k1_pay9 (F := Ideal) qb kb m m' (ix2 r (0 : Fin 1)) * acc (ix2 r c) := by
  unfold k1_pay12
  show broadcastTo S1024x1024 (k1_pay9 (F := Ideal) qb kb m m') broadcasts_S1024x1_S1024x1024 (ix2 r c) * acc (ix2 r c) = _
  rw [Cert.Lib.Keepdims.broadcastTo_a1_ab_apply]

/-- The tile's contribution to the numerator: the weights against the tile's value rows. -/
theorem k1_pay13_at (qb : Vec Ideal S1024x1024 .f32) (kb : Vec Ideal S512x1024 .f32) (vb : Vec Ideal S512x1024 .bf16)
    (m : Vec Ideal S1024x1 .f32) (r c : Fin 1024) :
    k1_pay13 (F := Ideal) qb kb vb m (ix2 r c)
      = ∑ j : Fin 512, (k1_pay10 (F := Ideal) qb kb m (ix2 r j) : EReal) * (vb (ix2 j c) : EReal) := by
  unfold k1_pay13
  rw [shapeCast_self]
  exact Cert.Lib.Dense.matmul_zero_at dot_S1024x512_S512x1024_S1024x1024_1_0_0_1_n_n rfl rfl rfl rfl rfl rfl _ _ r c

/-! ## The projections -/

/-- The query projection of the block: entry (p, q) of x·W + b. -/
theorem k0_pay2_at (x : Vec Ideal S512x1024 .f32) (W : Vec Ideal S1024x1024 .bf16) (b : Vec Ideal S1x1024 .f32)
    (p : Fin 512) (q : Fin 1024) :
    k0_pay2 (F := Ideal) x W b (ix2 p q)
      = (∑ k : Fin 1024, (x (ix2 p k) : EReal) * (W (ix2 k q) : EReal)) + b (ix2 (0 : Fin 1) q) := by
  unfold k0_pay2
  rw [shapeCast_self, shapeCast_self]
  show matmul dot_S512x1024_S1024x1024_S512x1024_1_0_0_1_n_n none (k0_pay1 (F := Ideal) x) W (constant S512x1024 .f32 0x00000000#32) (ix2 p q)
      + broadcastTo S512x1024 b broadcasts_S1x1024_S512x1024 (ix2 p q) = _
  rw [broadcastTo_1b_ab_apply]
  exact congrArg (· + _) (Cert.Lib.Dense.matmul_zero_at dot_S512x1024_S1024x1024_S512x1024_1_0_0_1_n_n rfl rfl rfl rfl rfl rfl _ _ p q)

/-- The key projection of the block. -/
theorem k0_pay3_at (x : Vec Ideal S512x1024 .f32) (W : Vec Ideal S1024x1024 .bf16) (b : Vec Ideal S1x1024 .f32)
    (p : Fin 512) (q : Fin 1024) :
    k0_pay3 (F := Ideal) x W b (ix2 p q)
      = (∑ k : Fin 1024, (x (ix2 p k) : EReal) * (W (ix2 k q) : EReal)) + b (ix2 (0 : Fin 1) q) := by
  unfold k0_pay3
  rw [shapeCast_self, shapeCast_self]
  show matmul dot_S512x1024_S1024x1024_S512x1024_1_0_0_1_n_n none (k0_pay1 (F := Ideal) x) W (constant S512x1024 .f32 0x00000000#32) (ix2 p q)
      + broadcastTo S512x1024 b broadcasts_S1x1024_S512x1024 (ix2 p q) = _
  rw [broadcastTo_1b_ab_apply]
  exact congrArg (· + _) (Cert.Lib.Dense.matmul_zero_at dot_S512x1024_S1024x1024_S512x1024_1_0_0_1_n_n rfl rfl rfl rfl rfl rfl _ _ p q)

/-- The value projection of the block; the change of format that stores it is the identity on extended reals. -/
theorem k0_pay4_at (x : Vec Ideal S512x1024 .f32) (W : Vec Ideal S1024x1024 .bf16) (b : Vec Ideal S1x1024 .f32)
    (p : Fin 512) (q : Fin 1024) :
    k0_pay4 (F := Ideal) x W b (ix2 p q)
      = (∑ k : Fin 1024, (x (ix2 p k) : EReal) * (W (ix2 k q) : EReal)) + b (ix2 (0 : Fin 1) q) := by
  unfold k0_pay4
  rw [shapeCast_self, shapeCast_self]
  show matmul dot_S512x1024_S1024x1024_S512x1024_1_0_0_1_n_n none (k0_pay1 (F := Ideal) x) W (constant S512x1024 .f32 0x00000000#32) (ix2 p q)
      + broadcastTo S512x1024 b broadcasts_S1x1024_S512x1024 (ix2 p q) = _
  rw [broadcastTo_1b_ab_apply]
  exact congrArg (· + _) (Cert.Lib.Dense.matmul_zero_at dot_S512x1024_S1024x1024_S512x1024_1_0_0_1_n_n rfl rfl rfl rfl rfl rfl _ _ p q)

end Cert.KernelIdeal.PayAt

end
-- ==== Proof.ValueR1.lean ====
/-
  What the attention launch leaves in its output array, entry by entry, at the extended reals.

  The launch runs over 8 query tiles of 1024 rows × 16 key tiles of 512 rows; point t is query tile t / 16, key tile
  t % 16.  At point t the query block is rows (t / 16) · 1024 … of the query array, the key and value blocks are rows
  (t % 16) · 512 … of the key and value arrays: a block's coordinate in its array is the block index times the block's
  size plus the coordinate inside the block.  So for query row i = (t / 16) · 1024 + r the scores of the point's tile are
  tile t % 16 of the row of scores S(jj) = ∑ d, q(i, d) · k(jj, d), and column cc of the value block is tile t % 16 of
  the column Vc(jj) = v(jj, cc).

  One key tile's update, read at row r (and column cc for the numerator), is one step of the running maximum, running
  denominator and running numerator of Spec.lean.  By induction on the point, after point t the three running arrays
  hold, at row r, those recursions after t % 16 + 1 tiles: at the first key tile of a query tile the update starts from
  the reset contents −∞, 0, 0, which are the recursions after no tile; elsewhere from what the point before left.

  Only the last key tile of a query tile writes the output block back, and it writes numerator / denominator as they
  stand after sixteen tiles.  Entry (i, cc) of the output array lies in the block of point (i / 1024) · 16 + 15, so it
  ends at the quotient of the two recursions after sixteen tiles for the scores of row i and column cc of the values.
-/
import proofs.«163872_j37400575213830_2_alg».proof.Proof.Region1Data
import proofs.«163872_j37400575213830_2_alg».proof.Proof.Spec
import proofs.«163872_j37400575213830_2_alg».proof.Proof.LibOnlineSoftmax
import proofs.«163872_j37400575213830_2_alg».proof.Proof.Payloads
import Idealize.ShloMosaic.Lib.ValueIdx
import Idealize.ShloMosaic.Lib.Pipeline.Value

set_option maxRecDepth 16384

noncomputable section

namespace Cert.KernelIdeal.Frame

open Cert.KernelIdeal Cert.KernelIdeal.Gen Cert.KernelIdeal.PayAt
open Idealize.ShloMosaic Idealize.ShloMosaic.TcCoe Idealize.ShloMosaic.ValueIdx
open Idealize.SL Idealize.SL.Sem
open Idealize.ShloMosaic.Pipeline (Dat Cfg Window)
open Cert.Attn (onM onL onA tiled)
open scoped BigOperators

/-! ## One key tile's update at a row is one step of the recursions -/

/-- If at row r the three running arrays hold the recursions after n tiles of scores s and values v, and the point's
    blocks give tile n of s at row r and tile n of v at column cc, the update leaves the recursions after n + 1 tiles. -/
theorem step_at (qb : Vec Ideal S1024x1024 .f32) (kb : Vec Ideal S512x1024 .f32) (vb : Vec Ideal S512x1024 .bf16)
    (st : St Ideal) (r cc : Fin 1024) (s v : ℕ → Fin 512 → EReal) (n : ℕ)
    (hM : st.1 (ix2 r (0 : Fin 1)) = onM s n) (hL : st.2.1 (ix2 r (0 : Fin 1)) = onL s n)
    (hA : st.2.2 (ix2 r cc) = onA s v n)
    (hs : ∀ j : Fin 512, ∑ d : Fin 1024, qb (ix2 r d) * kb (ix2 j d) = s n j)
    (hv : ∀ j : Fin 512, (vb (ix2 j cc) : EReal) = v n j) :
    (step qb kb vb st).1 (ix2 r (0 : Fin 1)) = onM s (n + 1)
      ∧ (step qb kb vb st).2.1 (ix2 r (0 : Fin 1)) = onL s (n + 1)
      ∧ (step qb kb vb st).2.2 (ix2 r cc) = onA s v (n + 1) := by
  have h7 : ∀ j : Fin 512, k1_pay7 (F := Ideal) qb kb (ix2 r j) = s n j := fun j => (k1_pay7_at qb kb r j).trans (hs j)
  have h8 : k1_pay8 (F := Ideal) qb kb st.1 (ix2 r (0 : Fin 1)) = onM s (n + 1) := by
    rw [k1_pay8_at, hM, Cert.Attn.onM_succ]
    congr 1
    exact Finset.sup_congr rfl fun j _ => h7 j
  have h9 : k1_pay9 (F := Ideal) qb kb st.1 st.1 (ix2 r (0 : Fin 1)) = Ideal.exp (onM s n - onM s (n + 1)) := by
    rw [k1_pay9_at, hM, h8]
  have h10 : ∀ j : Fin 512, k1_pay10 (F := Ideal) qb kb st.1 (ix2 r j) = Ideal.exp (s n j - onM s (n + 1)) := fun j => by
    rw [k1_pay10_at, h7, h8]
  refine ⟨?_, ?_, ?_⟩
  · show k1_pay2 (F := Ideal) (k1_pay8 qb kb st.1) (ix2 r (0 : Fin 1)) = _
    rw [k1_pay2_at, h8]
  · show k1_pay11 (F := Ideal) qb kb st.1 st.1 st.2.1 (ix2 r (0 : Fin 1)) = _
    rw [k1_pay11_at, h9, hL, Cert.Attn.onL_succ]
    congr 1
    exact Finset.sum_congr rfl fun j _ => h10 j
  · show k1_pay1 (F := Ideal) (k1_pay12 qb kb st.1 st.1 st.2.2) (k1_pay13 qb kb vb st.1) (ix2 r cc) = _
    rw [k1_pay1_at, k1_pay12_at, k1_pay13_at, h9, hA, Cert.Attn.onA_succ]
    congr 1
    exact Finset.sum_congr rfl fun j _ => by rw [h10, hv]

section ValueR1
variable (V : (c : Dev nD) → (b : Ref sig .tc) → Buf (Elt Ideal) ((c : Thread nD τ).loc b))

/-! ## The windows' blocks, read off their arrays -/

/-- The windows' block indices, decided over the grid: query and output blocks follow the query tile, key and value
    blocks the key tile, and every block starts at column 0. -/
theorem idx_facts1 : ∀ t : Fin cfg1.N,
    win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val % 16 ∧ win1_2.index t (1 : Fin 2) = 0
    ∧ win1_3.index t (0 : Fin 2) = t.val / 16 ∧ win1_3.index t (1 : Fin 2) = 0 :=
  (by decide +kernel : ∀ t : Fin grid1.N, _)

/-- Row r of the query block at point t is row (t / 16) · 1024 + r of the query array. -/
theorem iblk1_0_at (c : Dev nD) (t : Fin cfg1.N) (r d : Fin 1024) (k : Fin 8192) (hk : k.val = t.val / 16 * 1024 + r.val) :
    iblk1 V c 0 t (ix2 r d) = V c (Pipeline.arrRef spec1 0) (ix2 k d) := by
  obtain ⟨e0, e1, -⟩ := idx_facts1 t
  unfold iblk1
  rw [View.read_apply]
  show V c main_v6_0 _ = V c main_v6_0 _
  congr 1
  funext a
  apply Fin.ext
  match a with
  | ⟨0, _⟩ => show win1_0.index t (0 : Fin 2) * 1024 + 1 * r.val = k.val; rw [e0, hk]; omega
  | ⟨1, _⟩ => show win1_0.index t (1 : Fin 2) * 1024 + 1 * d.val = d.val; rw [e1]; omega

/-- Row j of the key block at point t is row (t % 16) · 512 + j of the key array. -/
theorem iblk1_1_at (c : Dev nD) (t : Fin cfg1.N) (j : Fin 512) (d : Fin 1024) (k : Fin 8192) (hk : k.val = t.val % 16 * 512 + j.val) :
    iblk1 V c 1 t (ix2 j d) = V c (Pipeline.arrRef spec1 1) (ix2 k d) := by
  obtain ⟨-, -, e0, e1, -⟩ := idx_facts1 t
  unfold iblk1
  rw [View.read_apply]
  show V c main_v6_1 _ = V c main_v6_1 _
  congr 1
  funext a
  apply Fin.ext
  match a with
  | ⟨0, _⟩ => show win1_1.index t (0 : Fin 2) * 512 + 1 * j.val = k.val; rw [e0, hk]; omega
  | ⟨1, _⟩ => show win1_1.index t (1 : Fin 2) * 1024 + 1 * d.val = d.val; rw [e1]; omega

/-- Row j of the value block at point t is row (t % 16) · 512 + j of the value array. -/
theorem iblk1_2_at (c : Dev nD) (t : Fin cfg1.N) (j : Fin 512) (d : Fin 1024) (k : Fin 8192) (hk : k.val = t.val % 16 * 512 + j.val) :
    iblk1 V c 2 t (ix2 j d) = V c (Pipeline.arrRef spec1 2) (ix2 k d) := by
  obtain ⟨-, -, -, -, e0, e1, -⟩ := idx_facts1 t
  unfold iblk1
  rw [View.read_apply]
  show V c main_v6_2 _ = V c main_v6_2 _
  congr 1
  funext a
  apply Fin.ext
  match a with
  | ⟨0, _⟩ => show win1_2.index t (0 : Fin 2) * 512 + 1 * j.val = k.val; rw [e0, hk]; omega
  | ⟨1, _⟩ => show win1_2.index t (1 : Fin 2) * 1024 + 1 * d.val = d.val; rw [e1]; omega

/-! ## The three arrays as plain functions, the scores of a query row, a column of the values -/

/-- The query array as the launch finds it. -/
def qArr (c : Dev nD) : Fin 8192 → Fin 1024 → EReal := fun i d => V c (Pipeline.arrRef spec1 0) (ix2 i d)
/-- The key array as the launch finds it. -/
def kArr (c : Dev nD) : Fin 8192 → Fin 1024 → EReal := fun j d => V c (Pipeline.arrRef spec1 1) (ix2 j d)
/-- The value array as the launch finds it. -/
def vArr (c : Dev nD) : Fin 8192 → Fin 1024 → EReal := fun j d => V c (Pipeline.arrRef spec1 2) (ix2 j d)

/-- The scores of query row i against all key rows. -/
abbrev scoreRow (c : Dev nD) (i : Fin 8192) : Fin 8192 → EReal := Cert.Attn.scoreAt (qArr V c) (kArr V c) i

/-- Column cc of the values. -/
abbrev valCol (c : Dev nD) (cc : Fin 1024) : Fin 8192 → EReal := fun jj => vArr V c jj cc

/-- At point n, for query row i = (n / 16) · 1024 + r, the blocks give tile n % 16 of the row's scores … -/
theorem blocks_scores (c : Dev nD) (n : ℕ) (hn : n < cfg1.N) (r : Fin 1024) (i : Fin 8192)
    (hi : i.val = n / 16 * 1024 + r.val) (qb : Vec Ideal S1024x1024 .f32) (kb : Vec Ideal S512x1024 .f32)
    (hq : qb = iblk1 V c 0 ⟨n, hn⟩) (hk : kb = iblk1 V c 1 ⟨n, hn⟩) (j : Fin 512) :
    ∑ d : Fin 1024, qb (ix2 r d) * kb (ix2 j d) = tiled 512 (scoreRow V c i) (n % 16) j := by
  have hlt : n % 16 * 512 + j.val < 8192 := by have := j.isLt; omega
  rw [Cert.Attn.tiled_of_lt _ j hlt]
  show _ = ∑ d : Fin 1024, qArr V c i d * kArr V c ⟨n % 16 * 512 + j.val, hlt⟩ d
  refine Finset.sum_congr rfl fun d _ => ?_
  have e0 : qb (ix2 r d) = qArr V c i d := by rw [hq]; exact iblk1_0_at V c ⟨n, hn⟩ r d i hi
  have e1 : kb (ix2 j d) = kArr V c ⟨n % 16 * 512 + j.val, hlt⟩ d := by
    rw [hk]; exact iblk1_1_at V c ⟨n, hn⟩ j d ⟨n % 16 * 512 + j.val, hlt⟩ rfl
  rw [e0, e1]

/-- … and tile n % 16 of the column of values. -/
theorem blocks_values (c : Dev nD) (n : ℕ) (hn : n < cfg1.N) (cc : Fin 1024) (j : Fin 512) :
    (iblk1 V c 2 ⟨n, hn⟩ (ix2 j cc) : EReal) = tiled 512 (valCol V c cc) (n % 16) j := by
  have hlt : n % 16 * 512 + j.val < 8192 := by have := j.isLt; omega
  rw [Cert.Attn.tiled_of_lt _ j hlt]
  exact iblk1_2_at V c ⟨n, hn⟩ j cc ⟨n % 16 * 512 + j.val, hlt⟩ rfl

/-! ## The running arrays after each point -/

/-- After point n, at row r of query tile n / 16 (query row i) and column cc, the three running arrays hold the
    recursions after n % 16 + 1 tiles. -/
theorem scAt_closed (c : Dev nD) (cc : Fin 1024) : ∀ (n : ℕ) (hn : n < cfg1.N) (r : Fin 1024) (i : Fin 8192),
    i.val = n / 16 * 1024 + r.val →
    (scAt V c n hn).1 (ix2 r (0 : Fin 1)) = onM (tiled 512 (scoreRow V c i)) (n % 16 + 1)
      ∧ (scAt V c n hn).2.1 (ix2 r (0 : Fin 1)) = onL (tiled 512 (scoreRow V c i)) (n % 16 + 1)
      ∧ (scAt V c n hn).2.2 (ix2 r cc) = onA (tiled 512 (scoreRow V c i)) (tiled 512 (valCol V c cc)) (n % 16 + 1) := by
  intro n
  induction n using Nat.strong_induction_on with
  | _ n ih =>
    intro hn r i hi
    by_cases h : n % 16 = 0
    · -- the first key tile of a query tile: from the reset contents, the recursions after no tile
      have h1 : scAt V c n hn = step (iblk1 V c 0 ⟨n, hn⟩) (iblk1 V c 1 ⟨n, hn⟩) (iblk1 V c 2 ⟨n, hn⟩) reset :=
        scAt_first V c ⟨n, hn⟩ h
      rw [h1]
      refine step_at _ _ _ _ r cc _ _ (n % 16) ?_ ?_ ?_ (blocks_scores V c n hn r i hi _ _ rfl rfl) (blocks_values V c n hn cc)
      · rw [h]; exact k1_pay4_at r
      · rw [h]; exact k1_pay5_at r
      · rw [h]; exact k1_pay6_at r cc
    · -- elsewhere: from what the point before left, in the same query tile
      have h1 : scAt V c n hn = step (iblk1 V c 0 ⟨n, hn⟩) (iblk1 V c 1 ⟨n, hn⟩) (iblk1 V c 2 ⟨n, hn⟩)
          (scAt V c (n - 1) (Nat.lt_of_le_of_lt (Nat.sub_le _ _) hn)) := scAt_next V c ⟨n, hn⟩ h
      rw [h1]
      have e : (n - 1) % 16 + 1 = n % 16 := by omega
      obtain ⟨pM, pL, pA⟩ := ih (n - 1) (by omega) (Nat.lt_of_le_of_lt (Nat.sub_le _ _) hn) r i (by omega)
      rw [e] at pM pL pA
      exact step_at _ _ _ _ r cc _ _ (n % 16) pM pL pA (blocks_scores V c n hn r i hi _ _ rfl rfl) (blocks_values V c n hn cc)

/-! ## The output array after the launch -/

/-- Entry (i, cc) of what the output array ends holding: the running numerator over the running denominator after all
    sixteen key tiles, for the scores of query row i and column cc of the values. -/
def outAt (c : Dev nD) (i : Fin 8192) (cc : Fin 1024) : EReal :=
  Ideal.div (onA (tiled 512 (scoreRow V c i)) (tiled 512 (valCol V c cc)) 16) (onL (tiled 512 (scoreRow V c i)) 16)

/-- The whole array of those entries. -/
def outArr (c : Dev nD) : S8192x1024.Idx → EReal := fun idx => outAt V c (idx 0) (idx 1)

/-- What a point that writes back writes is its block of that array. -/
theorem flushed1_3_eq (c : Dev nD) (t : Fin cfg1.N) (hf : (cfg1.win 3).flush t = true) :
    (dat1 V c).flushed 3 t = ((cfg1.win 3).blk t).view.read (Elt Ideal) (outArr V c) := by
  have h15 : t.val % 16 = 15 := (flush1_3 t).mp hf
  obtain ⟨-, -, -, -, -, -, e0, e1⟩ := idx_facts1 t
  show (cfg1.win 3).cut (grid1.coords t) ((dat1 V c).after 3 t) = _
  rw [after1_3]
  funext y
  obtain ⟨r, cc, rfl⟩ : ∃ (r cc : Fin 1024), y = ix2 r cc := ⟨y 0, y 1, eq_ix2 y⟩
  rw [View.read_apply]
  have ht : t.val < 128 := t.isLt
  have hr : t.val / 16 * 1024 + r.val < 8192 := by have := r.isLt; omega
  have hemb : ((cfg1.win 3).blk t).view.emb (ix2 r cc) = ix2 (⟨t.val / 16 * 1024 + r.val, hr⟩ : Fin 8192) cc := by
    funext a
    apply Fin.ext
    match a with
    | ⟨0, _⟩ => show win1_3.index t (0 : Fin 2) * 1024 + 1 * r.val = t.val / 16 * 1024 + r.val; rw [e0]; omega
    | ⟨1, _⟩ => show win1_3.index t (1 : Fin 2) * 1024 + 1 * cc.val = cc.val; rw [e1]; omega
  show k1_pay3 (F := Ideal) (scAt V c t.val t.isLt).2.2 (scAt V c t.val t.isLt).2.1 (ix2 r cc)
      = outArr V c (((cfg1.win 3).blk t).view.emb (ix2 r cc))
  rw [hemb, k1_pay3_at]
  obtain ⟨-, pL, pA⟩ := scAt_closed V c cc t.val t.isLt r ⟨t.val / 16 * 1024 + r.val, hr⟩ rfl
  rw [pL, pA, h15]
  rfl

/-- Entry (i, cc) lies in the block of the last key tile of query tile i / 1024. -/
theorem mem_blk1_3 (i : Fin 8192) (cc : Fin 1024) (t : Fin cfg1.N) (ht : t.val = i.val / 1024 * 16 + 15) :
    (ix2 i cc : S8192x1024.Idx) ∈ ((cfg1.win 3).blk t).view.set := by
  obtain ⟨-, -, -, -, -, -, e0, e1⟩ := idx_facts1 t
  show (ix2 i cc : S8192x1024.Idx) ∈ ((View.whole main_v7).slice (win1_3.rect t)).set
  rw [View.set_slice_whole, Rect.mem_set_unit]
  intro a
  have hi := i.isLt
  have hc := cc.isLt
  match a with
  | ⟨0, _⟩ =>
    show win1_3.index t (0 : Fin 2) * 1024 ≤ i.val ∧ i.val < win1_3.index t (0 : Fin 2) * 1024 + 1024
    rw [e0, ht]; omega
  | ⟨1, _⟩ =>
    show win1_3.index t (1 : Fin 2) * 1024 ≤ cc.val ∧ cc.val < win1_3.index t (1 : Fin 2) * 1024 + 1024
    rw [e1]; omega

/-- The output array after the launch, entry (i, cc): the running numerator over the running denominator after the
    sixteen key tiles, for the scores of query row i against all key rows and column cc of the values. -/
theorem final1_3 (c : Dev nD) (i : Fin 8192) (cc : Fin 1024) :
    (dat1 V c).arrAt 3 cfg1.N (ix2 i cc)
      = Ideal.div
          (onA (tiled 512 (Cert.Attn.scoreAt (qArr V c) (kArr V c) i)) (tiled 512 (fun jj : Fin 8192 => vArr V c jj cc)) 16)
          (onL (tiled 512 (Cert.Attn.scoreAt (qArr V c) (kArr V c) i)) 16) := by
  have hlt : i.val / 1024 * 16 + 15 < cfg1.N := by
    show i.val / 1024 * 16 + 15 < 128
    have := i.isLt; omega
  have hf : (cfg1.win 3).flush ⟨i.val / 1024 * 16 + 15, hlt⟩ = true := (flush1_3 _).mpr (by show (i.val / 1024 * 16 + 15) % 16 = 15; omega)
  exact (dat1 V c).arrAt_apply_of_mem 3 (outArr V c) (fun t ht => flushed1_3_eq V c t ht) cfg1.N
    ⟨i.val / 1024 * 16 + 15, hlt⟩ (ix2 i cc) hlt hf (mem_blk1_3 i cc _ rfl)

/-- The same over the three arrays the launch reads given as plain functions on the extended reals. -/
theorem final1_3_sum (c : Dev nD) (X Y Z : S8192x1024.Idx → EReal)
    (hX : @Eq (S8192x1024.Idx → EReal) (V c main_v6_0) X) (hY : @Eq (S8192x1024.Idx → EReal) (V c main_v6_1) Y)
    (hZ : @Eq (S8192x1024.Idx → EReal) (V c main_v6_2) Z) (i : Fin 8192) (cc : Fin 1024) :
    (dat1 V c).arrAt 3 cfg1.N (ix2 i cc)
      = Ideal.div
          (onA (tiled 512 fun jj : Fin 8192 => ∑ d : Fin 1024, X (ix2 i d) * Y (ix2 jj d))
            (tiled 512 fun jj : Fin 8192 => Z (ix2 jj cc)) 16)
          (onL (tiled 512 fun jj : Fin 8192 => ∑ d : Fin 1024, X (ix2 i d) * Y (ix2 jj d)) 16) := by
  subst hX hY hZ
  exact final1_3 V c i cc

end ValueR1

end Cert.KernelIdeal.Frame

end
-- ==== Proof.Finite.lean ====
/-
  Finiteness of the inputs, and of the three projections.

  The precondition is the conjunction, over the seven argument arrays, of "every entry x satisfies |x| < +∞", where |x| is
  max x (−x) and +∞ is the top of the extended reals.  On the extended reals |⊥| = |⊤| = ⊤, so an entry with |x| < ⊤ is
  neither infinity: it is a real number.  A conjunction of single bits that is 1 has every conjunct 1, and a reduction by
  "and" over all axes that is 1 had a 1 at every index; so the precondition gives that every entry of every argument is a
  real number.

  Real numbers are closed under products and finite sums, so every entry (∑ k, x i k · W k d) + b d of a projection of real
  arrays is a real number.
-/
import proofs.«163872_j37400575213830_2_alg».proof.Defs
import proofs.«163872_j37400575213830_2_alg».proof.Proof.Spec
import proofs.«163872_j37400575213830_2_alg».proof.Proof.LibAttnSwap
import proofs.«163872_j37400575213830_2_alg».proof.Proof.LibMinMaxInf
import Idealize.ShloMosaic.Lib.ReduceAll
import Idealize.ShloMosaic.Lib.ValueIdx

noncomputable section

namespace Cert.Attn.Finite

open Idealize.ShloMosaic Idealize.ShloMosaic.ValueIdx Idealize.SL.Sem Cert.Lib.AttnSwap
open scoped BigOperators

/-- The rank-zero shape has one index. -/
instance : Subsingleton Cert.Pre_finite_inputs.S_.Idx := ⟨fun a b => funext fun d => d.elim0⟩

/-- An extended real whose absolute value max x (−x) is below +∞ is a real number. -/
theorem isReal_of_abs_lt_top (x : EReal) (h : max x (-x) < ⊤) : IsReal x := by
  induction x using EReal.rec with
  | bot => exact absurd h (by simp)
  | coe r => exact ⟨r, rfl⟩
  | top => exact absurd h (by simp)

/-- The element test of the precondition, read back: the bit of |x| < +∞ being 1 makes x a real number. -/
theorem isReal_of_cmp (x : EReal)
    (h : Ideal.cmp .olt (max x (-x)) (Ideal.ofBits .f32 0x7F800000#32) = 1#1) : IsReal x := by
  rw [Cert.Lib.MinMaxInf.ofBits_posInf_f32] at h
  unfold Ideal.cmp at h
  refine isReal_of_abs_lt_top x ?_
  by_contra hn
  simp [hn] at h

/-- The precondition's function of seven arrays being all ones makes every entry of each array a real number. -/
theorem real_of_fn [Cert.Pre_finite_inputs.Facts]
    (x0 : FVec Ideal Cert.Pre_finite_inputs.S8192x1024 .f32) (x1 : FVec Ideal Cert.Pre_finite_inputs.S1024x1024 .f32)
    (x2 : FVec Ideal Cert.Pre_finite_inputs.S1024 .f32) (x3 : FVec Ideal Cert.Pre_finite_inputs.S1024x1024 .f32)
    (x4 : FVec Ideal Cert.Pre_finite_inputs.S1024 .f32) (x5 : FVec Ideal Cert.Pre_finite_inputs.S1024x1024 .f32)
    (x6 : FVec Ideal Cert.Pre_finite_inputs.S1024 .f32)
    (h : Cert.Pre_finite_inputs.fn (F := Ideal) x0 x1 x2 x3 x4 x5 x6 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) := by
  have h0 := congrFun h ValueIdx.ix0
  dsimp only [Cert.Pre_finite_inputs.fn, Cert.Pre_finite_inputs.fn_part1, andi] at h0
  simp only [IntOp.andi_eq_one] at h0
  obtain ⟨⟨⟨⟨⟨⟨e0, e1⟩, e2⟩, e3⟩, e4⟩, e5⟩, e6⟩ := h0
  exact ⟨fun i => isReal_of_cmp _ (Host.reduce_andi_all _ _ _ _ _ e0 i),
    fun i => isReal_of_cmp _ (Host.reduce_andi_all _ _ _ _ _ e1 i),
    fun i => isReal_of_cmp _ (Host.reduce_andi_all _ _ _ _ _ e2 i),
    fun i => isReal_of_cmp _ (Host.reduce_andi_all _ _ _ _ _ e3 i),
    fun i => isReal_of_cmp _ (Host.reduce_andi_all _ _ _ _ _ e4 i),
    fun i => isReal_of_cmp _ (Host.reduce_andi_all _ _ _ _ _ e5 i),
    fun i => isReal_of_cmp _ (Host.reduce_andi_all _ _ _ _ _ e6 i)⟩

/-- From the precondition on the idealized kernel's memory: on every device, every entry of every argument buffer is a real
    number. -/
theorem real_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
      ∧ (∀ i, IsReal (m ((c.tc : Thread Cert.KernelIdeal.nD Cert.KernelIdeal.τ).loc Cert.KernelIdeal.main_arg1) i))
      ∧ (∀ i, IsReal (m ((c.tc : Thread Cert.KernelIdeal.nD Cert.KernelIdeal.τ).loc Cert.KernelIdeal.main_arg2) i))
      ∧ (∀ i, IsReal (m ((c.tc : Thread Cert.KernelIdeal.nD Cert.KernelIdeal.τ).loc Cert.KernelIdeal.main_arg3) i))
      ∧ (∀ i, IsReal (m ((c.tc : Thread Cert.KernelIdeal.nD Cert.KernelIdeal.τ).loc Cert.KernelIdeal.main_arg4) i))
      ∧ (∀ i, IsReal (m ((c.tc : Thread Cert.KernelIdeal.nD Cert.KernelIdeal.τ).loc Cert.KernelIdeal.main_arg5) i))
      ∧ (∀ i, IsReal (m ((c.tc : Thread Cert.KernelIdeal.nD Cert.KernelIdeal.τ).loc Cert.KernelIdeal.main_arg6) i)) :=
  real_of_fn _ _ _ _ _ _ _ (h c)

/-- A projection of arrays of real numbers has real entries. -/
theorem real_proj (x : (⟨2, ![8192, 1024]⟩ : Shape).Idx → EReal) (W : (⟨2, ![1024, 1024]⟩ : Shape).Idx → EReal)
    (b : (⟨1, ![1024]⟩ : Shape).Idx → EReal) (hx : ∀ i, IsReal (x i)) (hW : ∀ i, IsReal (W i)) (hb : ∀ i, IsReal (b i))
    (i : Fin 8192) (d : Fin 1024) : IsReal (Cert.Attn.proj x W b i d) := by
  unfold Cert.Attn.proj
  exact (isReal_finset_sum _ _ fun k => (hx _).mul (hW _)).add (hb _)

/-- From the precondition: on every device the three projections of the argument buffers have real entries. -/
theorem real_proj_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Fin 8192) (d : Fin 1024) :
    IsReal (Cert.Attn.proj (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) i d)
      ∧ IsReal (Cert.Attn.proj (m ((c.tc : Thread Cert.KernelIdeal.nD Cert.KernelIdeal.τ).loc Cert.KernelIdeal.main_arg0))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) i d)
      ∧ IsReal (Cert.Attn.proj (m ((c.tc : Thread Cert.KernelIdeal.nD Cert.KernelIdeal.τ).loc Cert.KernelIdeal.main_arg0))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)) i d) := by
  obtain ⟨r0, r1, r2, r3, r4, r5, r6⟩ := real_of_pre m h c
  exact ⟨real_proj _ _ _ r0 r1 r2 i d, real_proj _ _ _ r0 r3 r4 i d, real_proj _ _ _ r0 r5 r6 i d⟩

end Cert.Attn.Finite

end
-- ==== Proof.KernelValue.lean ====
/-
  The value the kernel program leaves in its result array, on the extended reals: full softmax attention of the three
  projections of the argument arrays.

  The projection launch leaves, in its three output arrays, the entries (∑ k, x(i, k) · W(k, d)) + b(d) of the query, key
  and value projections: the host's narrowed weight matrices are the argument matrices, and its one-row bias matrices hold
  the bias vectors.  The attention launch reads those three arrays; for query row i and output column c it leaves the
  running numerator over the running denominator after the sixteen key tiles of width 512, the scores of row i being its
  inner products with the key rows and the values column c of the value rows.  Every projection entry is a real number
  when the arguments are, so every score and value is real, and the tile-by-tile quotient is then softmax attention.
-/
import proofs.«163872_j37400575213830_2_alg».proof.Proof.Run
import proofs.«163872_j37400575213830_2_alg».proof.Proof.HostVals
import proofs.«163872_j37400575213830_2_alg».proof.Proof.ValueR0
import proofs.«163872_j37400575213830_2_alg».proof.Proof.ValueR1
import proofs.«163872_j37400575213830_2_alg».proof.Proof.LibOnlineSoftmax
import proofs.«163872_j37400575213830_2_alg».proof.Proof.Finite
import proofs.«163872_j37400575213830_2_alg».proof.Proof.Spec
import proofs.«163872_j37400575213830_2_alg».proof.Proof.LibAttnSwap
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

section Value

variable (m : (ℓ : Loc nD τ sig) → Buf (Elt Ideal) ℓ) (c : Dev nD)

/-! ## The arrays involved, as functions on indices -/

/-- The argument arrays as launched. -/
abbrev arg0 : S8192x1024.Idx → EReal := m ((c : Thread nD τ).loc main_arg0)
abbrev arg1 : S1024x1024.Idx → EReal := m ((c : Thread nD τ).loc main_arg1)
abbrev arg2 : S1024.Idx → EReal := m ((c : Thread nD τ).loc main_arg2)
abbrev arg3 : S1024x1024.Idx → EReal := m ((c : Thread nD τ).loc main_arg3)
abbrev arg4 : S1024.Idx → EReal := m ((c : Thread nD τ).loc main_arg4)
abbrev arg5 : S1024x1024.Idx → EReal := m ((c : Thread nD τ).loc main_arg5)
abbrev arg6 : S1024.Idx → EReal := m ((c : Thread nD τ).loc main_arg6)

/-- The three one-row bias matrices after the host operations. -/
abbrev row3 : S1x1024.Idx → EReal := V1 m c main_v3
abbrev row4 : S1x1024.Idx → EReal := V1 m c main_v4
abbrev row5 : S1x1024.Idx → EReal := V1 m c main_v5

/-- The projection launch's three output arrays after it. -/
abbrev out6_0 : S8192x1024.Idx → EReal := V2 m c main_v6_0
abbrev out6_1 : S8192x1024.Idx → EReal := V2 m c main_v6_1
abbrev out6_2 : S8192x1024.Idx → EReal := V2 m c main_v6_2

/-- The query, key and value projections of the arguments. -/
abbrev projQ : Fin 8192 → Fin 1024 → EReal := Cert.Attn.proj (arg0 m c) (arg1 m c) (arg2 m c)
abbrev projK : Fin 8192 → Fin 1024 → EReal := Cert.Attn.proj (arg0 m c) (arg3 m c) (arg4 m c)
abbrev projV : Fin 8192 → Fin 1024 → EReal := Cert.Attn.proj (arg0 m c) (arg5 m c) (arg6 m c)

/-! ## The projection launch's outputs are the projections -/

theorem out6_0_arr : out6_0 m c = (dat0 (V1 m) c).arrAt 7 cfg0.N := W2_arr m c 7
theorem out6_1_arr : out6_1 m c = (dat0 (V1 m) c).arrAt 8 cfg0.N := W2_arr m c 8
theorem out6_2_arr : out6_2 m c = (dat0 (V1 m) c).arrAt 9 cfg0.N := W2_arr m c 9

/-- The query projection. -/
theorem out6_0_eq (i : Fin 8192) (d : Fin 1024) : out6_0 m c (ix2 i d) = projQ m c i d :=
  (congrFun (out6_0_arr m c) (ix2 i d)).trans
    ((final0_7_sum (V1 m) c (arg0 m c) (arg1 m c) (row3 m c) (W1_main_arg0 m c) (W1_main_v0 m c) rfl i d).trans
      (congrArg (fun z : EReal => (∑ k : Fin 1024, arg0 m c (ix2 i k) * arg1 m c (ix2 k d)) + z) (W1_main_v3 m c d)))

/-- The key projection. -/
theorem out6_1_eq (i : Fin 8192) (d : Fin 1024) : out6_1 m c (ix2 i d) = projK m c i d :=
  (congrFun (out6_1_arr m c) (ix2 i d)).trans
    ((final0_8_sum (V1 m) c (arg0 m c) (arg3 m c) (row4 m c) (W1_main_arg0 m c) (W1_main_v1 m c) rfl i d).trans
      (congrArg (fun z : EReal => (∑ k : Fin 1024, arg0 m c (ix2 i k) * arg3 m c (ix2 k d)) + z) (W1_main_v4 m c d)))

/-- The value projection. -/
theorem out6_2_eq (i : Fin 8192) (d : Fin 1024) : out6_2 m c (ix2 i d) = projV m c i d :=
  (congrFun (out6_2_arr m c) (ix2 i d)).trans
    ((final0_9_sum (V1 m) c (arg0 m c) (arg5 m c) (row5 m c) (W1_main_arg0 m c) (W1_main_v2 m c) rfl i d).trans
      (congrArg (fun z : EReal => (∑ k : Fin 1024, arg0 m c (ix2 i k) * arg5 m c (ix2 k d)) + z) (W1_main_v5 m c d)))

/-! ## Scores and values are real numbers -/

variable [hPre_finite_inputs : Cert.Pre_finite_inputs.Facts]

theorem real_score (hpre : Cert.Pre_KernelIdeal m) (i j : Fin 8192) :
    Cert.Lib.AttnSwap.IsReal (Cert.Attn.scoreAt (projQ m c) (projK m c) i j) :=
  Cert.Lib.AttnSwap.isReal_sum_mul (fun d => projQ m c i d) (fun d => projK m c j d)
    (fun d => (Cert.Attn.Finite.real_proj_of_pre m hpre c i d).1) (fun d => (Cert.Attn.Finite.real_proj_of_pre m hpre c j d).2.1)

theorem real_value (hpre : Cert.Pre_KernelIdeal m) (j : Fin 8192) (cc : Fin 1024) :
    Cert.Lib.AttnSwap.IsReal (projV m c j cc) :=
  (Cert.Attn.Finite.real_proj_of_pre m hpre c j cc).2.2

/-! ## The result array -/

/-- The result array is softmax attention of the three projections, given what the attention launch's write-backs leave in
    it: the tile-by-tile quotient over the three arrays it reads. -/
theorem kernel_value_of (hpre : Cert.Pre_KernelIdeal m)
    (h13 : ∀ (i : Fin 8192) (cc : Fin 1024), (dat1 (V2 m) c).arrAt 3 cfg1.N (ix2 i cc)
      = Ideal.div
          (Cert.Attn.onA (Cert.Attn.tiled 512 fun jj : Fin 8192 => ∑ d : Fin 1024, out6_0 m c (ix2 i d) * out6_1 m c (ix2 jj d))
            (Cert.Attn.tiled 512 fun jj : Fin 8192 => out6_2 m c (ix2 jj cc)) 16)
          (Cert.Attn.onL (Cert.Attn.tiled 512 fun jj : Fin 8192 => ∑ d : Fin 1024, out6_0 m c (ix2 i d) * out6_1 m c (ix2 jj d)) 16))
    (i : Fin 8192) (cc : Fin 1024) :
    (dat1 (V2 m) c).arrAt 3 cfg1.N (ix2 i cc)
      = Cert.Attn.attnOut
          (Cert.Attn.proj (m ((c.tc : Thread nD τ).loc main_arg0)) (m ((c.tc : Thread nD τ).loc main_arg1)) (m ((c.tc : Thread nD τ).loc main_arg2)))
          (Cert.Attn.proj (m ((c.tc : Thread nD τ).loc main_arg0)) (m ((c.tc : Thread nD τ).loc main_arg3)) (m ((c.tc : Thread nD τ).loc main_arg4)))
          (Cert.Attn.proj (m ((c.tc : Thread nD τ).loc main_arg0)) (m ((c.tc : Thread nD τ).loc main_arg5)) (m ((c.tc : Thread nD τ).loc main_arg6)))
          i cc := by
  have eS : (fun jj : Fin 8192 => ∑ d : Fin 1024, out6_0 m c (ix2 i d) * out6_1 m c (ix2 jj d))
      = Cert.Attn.scoreAt (projQ m c) (projK m c) i :=
    funext fun jj => Finset.sum_congr rfl fun d _ => by rw [out6_0_eq m c i d, out6_1_eq m c jj d]
  have eV : (fun jj : Fin 8192 => out6_2 m c (ix2 jj cc)) = fun jj => projV m c jj cc :=
    funext fun jj => out6_2_eq m c jj cc
  rw [h13 i cc, eS, eV]
  exact Cert.Attn.online_tiles _ _ (real_score m c hpre i) (fun j => real_value m c hpre j cc)

end Value

section Final

variable (m : (ℓ : Loc nD τ sig) → Buf (Elt Ideal) ℓ) [hPre_finite_inputs : Cert.Pre_finite_inputs.Facts]

/-- The result array of the kernel program, entry by entry: softmax attention of the query, key and value projections
    of the argument arrays, whenever every argument entry is a real number. -/
theorem kernel_value (hpre : Cert.Pre_KernelIdeal m) (c : Dev nD) (i : Fin 8192) (cc : Fin 1024) :
    (dat1 (V2 m) c).arrAt 3 cfg1.N (ix2 i cc)
      = Cert.Attn.attnOut
          (Cert.Attn.proj (m ((c.tc : Thread nD τ).loc main_arg0)) (m ((c.tc : Thread nD τ).loc main_arg1)) (m ((c.tc : Thread nD τ).loc main_arg2)))
          (Cert.Attn.proj (m ((c.tc : Thread nD τ).loc main_arg0)) (m ((c.tc : Thread nD τ).loc main_arg3)) (m ((c.tc : Thread nD τ).loc main_arg4)))
          (Cert.Attn.proj (m ((c.tc : Thread nD τ).loc main_arg0)) (m ((c.tc : Thread nD τ).loc main_arg5)) (m ((c.tc : Thread nD τ).loc main_arg6)))
          i cc :=
  kernel_value_of m c hpre (fun i cc => final1_3_sum (V2 m) c (out6_0 m c) (out6_1 m c) (out6_2 m c) rfl rfl rfl i cc) i cc

end Final

end Cert.KernelIdeal.Frame

end
-- ==== Proof.lean ====
/-
  Flash attention against plain softmax attention, on the extended reals.

  Both programs first form three projections of the input rows, q = x·Wq + bq, k = x·Wk + bk, v = x·Wv + bv.  The
  reference then takes the scores S = q·kᵀ, the row-wise softmax of S in its shifted form (every exponential of a score
  less the row's largest score, divided by the row's sum of them) and multiplies by v.  The kernel does the projections in
  one launch over sixteen row blocks and the attention in a second launch over 8 query tiles × 16 key tiles: for a query
  tile it walks the key tiles keeping a running row maximum, a running denominator and a running numerator, rescaling the
  latter two by exp (old maximum − new maximum) at every tile, and divides once at the last tile.

  On real scores and values the running quantities after a tile are the shifted sums over the keys seen so far, so the
  final quotient is the shifted softmax weights against v with one division, which on real numbers equals dividing every
  weight first.  The precondition makes every input entry a real number, hence every projection entry and every score.

  The three frames: both kernel programs are three items — six host operations, the projection launch, the attention
  launch — run one after the other with every unscoped buffer named between them, and no item writes an argument array;
  the reference is a line of host operations.  The idealized kernel is the kernel's own text read on the extended reals,
  so nothing is owed for the idealization.
-/
import proofs.«163872_j37400575213830_2_alg».proof.Defs
import proofs.«163872_j37400575213830_2_alg».proof.Proof.Gen.Kernel
import proofs.«163872_j37400575213830_2_alg».proof.Proof.Gen.KernelIdeal
import proofs.«163872_j37400575213830_2_alg».proof.Proof.Gen.ReferenceIdeal
import proofs.«163872_j37400575213830_2_alg».proof.Proof.Gen.Pre_finite_inputs
import proofs.«163872_j37400575213830_2_alg».proof.Proof.Gen.ReferenceIdeal.Run
import proofs.«163872_j37400575213830_2_alg».proof.Proof.Gen.ReferenceIdeal.Read
import proofs.«163872_j37400575213830_2_alg».proof.Proof.RunBits
import proofs.«163872_j37400575213830_2_alg».proof.Proof.Run
import proofs.«163872_j37400575213830_2_alg».proof.Proof.RefSpec
import proofs.«163872_j37400575213830_2_alg».proof.Proof.KernelValue
import Idealize.ShloMosaic.Adequacy
import Idealize.ShloMosaic.Init

noncomputable section

namespace Cert.Proof

open Idealize.ShloMosaic Idealize.ShloMosaic.ValueIdx Idealize.SL.Sem

/-- The word-level kernel runs and leaves its arguments as launched. -/
theorem frame_k : Cert.frame_Kernel := fun m ρ _ => Cert.Kernel.Frame.frame (F := Bits) m ρ

/-- So does the kernel read on the extended reals. -/
theorem frame_ki : Cert.frame_KernelIdeal := fun m ρ _ => Cert.KernelIdeal.Frame.frame (F := Ideal) m ρ

/-- The reference is a line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result array: entry (i, c) of either is the
    softmax attention of the three projections. -/
theorem algebraic : Cert.algebraic_KernelIdeal_ReferenceIdeal := by
  intro m ρ m' ρ' hpre hagree
  refine ⟨fun c => (Cert.KernelIdeal.Frame.dat1 (Cert.KernelIdeal.Frame.V2 m) c).arrAt 3 Cert.KernelIdeal.cfg1.N,
    Cert.KernelIdeal.Frame.run_value (F := Ideal) m ρ, ?_⟩
  refine (θ_run Cert.ReferenceIdeal.defs _ _).mono (fun _ h c => ⟨(h c).1.trans ?_, (h c).2⟩)
    (Cert.ReferenceIdeal.Value.run (F := Ideal) m' ρ')
  funext idx
  obtain ⟨i, cc, rfl⟩ : ∃ (i : Fin 8192) (cc : Fin 1024), idx = ix2 i cc := ⟨idx 0, idx 1, eq_ix2 idx⟩
  refine (Cert.ReferenceIdeal.RefValue.ref_run_eq m' c i cc).trans ?_
  rw [(hagree c).1, (hagree c).2.1, (hagree c).2.2.1, (hagree c).2.2.2.1, (hagree c).2.2.2.2.1, (hagree c).2.2.2.2.2.1,
    (hagree c).2.2.2.2.2.2]
  exact (Cert.KernelIdeal.Frame.kernel_value m hpre c i cc).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
